-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v51_0)) (v1 : (c : Dev Cert.KernelIdeal.nD) → Buf (Elt Ideal) ((c.tc : Thread Cert.KernelIdeal.nD Cert.KernelIdeal.τ).loc Cert.KernelIdeal.main_v51_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51_0) = v0 c
          ∧ r.2.mem ((c.tc : Thread Cert.KernelIdeal.nD Cert.KernelIdeal.τ).loc Cert.KernelIdeal.main_v51_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096 : Shape := ⟨1, ![4096]⟩
abbrev S151x200 : Shape := ⟨2, ![151, 200]⟩
abbrev S228x456 : Shape := ⟨2, ![228, 456]⟩
abbrev S228 : Shape := ⟨1, ![228]⟩
abbrev S456x228 : Shape := ⟨2, ![456, 228]⟩
abbrev S456 : Shape := ⟨1, ![456]⟩
abbrev S256x456 : Shape := ⟨2, ![256, 456]⟩
abbrev S256 : Shape := ⟨1, ![256]⟩
abbrev S128x256 : Shape := ⟨2, ![128, 256]⟩
abbrev S128 : Shape := ⟨1, ![128]⟩
abbrev S256x128 : Shape := ⟨2, ![256, 128]⟩
abbrev S8192x256 : Shape := ⟨2, ![8192, 256]⟩
abbrev S8192 : Shape := ⟨1, ![8192]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S151x200 : S_.BroadcastsInDim S151x200 (![] : Fin 0 → Fin S151x200.rank)
  reducesTo_S151x200_S_d0_1 : S151x200.ReducesTo [0, 1] S_
  bcast_S_S228x456 : S_.BroadcastsInDim S228x456 (![] : Fin 0 → Fin S228x456.rank)
  reducesTo_S228x456_S_d0_1 : S228x456.ReducesTo [0, 1] S_
  bcast_S_S228 : S_.BroadcastsInDim S228 (![] : Fin 0 → Fin S228.rank)
  reducesTo_S228_S_d0 : S228.ReducesTo [0] S_
  bcast_S_S456x228 : S_.BroadcastsInDim S456x228 (![] : Fin 0 → Fin S456x228.rank)
  reducesTo_S456x228_S_d0_1 : S456x228.ReducesTo [0, 1] S_
  bcast_S_S456 : S_.BroadcastsInDim S456 (![] : Fin 0 → Fin S456.rank)
  reducesTo_S456_S_d0 : S456.ReducesTo [0] S_
  bcast_S_S256x456 : S_.BroadcastsInDim S256x456 (![] : Fin 0 → Fin S256x456.rank)
  reducesTo_S256x456_S_d0_1 : S256x456.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S8192x256 : S_.BroadcastsInDim S8192x256 (![] : Fin 0 → Fin S8192x256.rank)
  reducesTo_S8192x256_S_d0_1 : S8192x256.ReducesTo [0, 1] S_
  bcast_S_S8192 : S_.BroadcastsInDim S8192 (![] : Fin 0 → Fin S8192.rank)
  reducesTo_S8192_S_d0 : S8192.ReducesTo [0] S_

variable [Facts]

def fn_part6 {F : FTy → Type} [FloatOps F] (main_arg22 : FVec F S8192 .f32) (main_v98 : IVec S_ 1) (main_v101 : IVec S8192x256 1) (main_c_39 : IVec S_ 1) : IVec S_ 1 :=
  let main_v102 : IVec S_ 1 := (fun x v => Host.reduce IntOp.andi x v reducesTo_S8192x256_S_d0_1 h_S_) main_v101 main_c_39
  let main_v103 : IVec S_ 1 := andi main_v98 main_v102
  let main_v104 : FVec F S8192 .f32 := Host.absf main_arg22
  let main_cst_40 : FVec F S_ .f32 := constant S_ .f32 0x7F800000#32
  let main_v105 : FVec F S8192 .f32 := broadcastInDim S8192 ![] bcast_S_S8192 main_cst_40
  let main_v106 : IVec S8192 1 := cmpf .olt main_v104 main_v105
  let main_c_41 : IVec S_ 1 := constantI S_ 1 1#1
  let main_v107 : IVec S_ 1 := (fun x v => Host.reduce IntOp.andi x v reducesTo_S8192_S_d0 h_S_) main_v106 main_c_41
  let main_v108 : IVec S_ 1 := andi main_v103 main_v107
  main_v108

def fn_part5 {F : FTy → Type} [FloatOps F] (main_arg19 : FVec F S256x128 .f32) (main_arg20 : FVec F S256 .f32) (main_arg21 : FVec F S8192x256 .f32) (main_arg22 : FVec F S8192 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S256x128 .f32 := Host.absf main_arg19
  let main_cst_34 : FVec F S_ .f32 := constant S_ .f32 0x7F800000#32
  let main_v90 : FVec F S256x128 .f32 := broadcastInDim S256x128 ![] bcast_S_S256x128 main_cst_34
  let main_v91 : IVec S256x128 1 := cmpf .olt main_v89 main_v90
  let main_c_35 : IVec S_ 1 := constantI S_ 1 1#1
  let main_v92 : IVec S_ 1 := (fun x v => Host.reduce IntOp.andi x v reducesTo_S256x128_S_d0_1 h_S_) main_v91 main_c_35
  let main_v93 : IVec S_ 1 := andi main_v88 main_v92
  let main_v94 : FVec F S256 .f32 := Host.absf main_arg20
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_v99 : FVec F S8192x256 .f32 := Host.absf main_arg21
  let main_cst_38 : FVec F S_ .f32 := constant S_ .f32 0x7F800000#32
  let main_v100 : FVec F S8192x256 .f32 := broadcastInDim S8192x256 ![] bcast_S_S8192x256 main_cst_38
  let main_v101 : IVec S8192x256 1 := cmpf .olt main_v99 main_v100
  let main_c_39 : IVec S_ 1 := constantI S_ 1 1#1
  fn_part6 (F := F) main_arg22 main_v98 main_v101 main_c_39

def fn_part4 {F : FTy → Type} [FloatOps F] (main_arg15 : FVec F S128x256 .f32) (main_arg16 : FVec F S128 .f32) (main_arg17 : FVec F S128x256 .f32) (main_arg18 : FVec F S128 .f32) (main_arg19 : FVec F S256x128 .f32) (main_arg20 : FVec F S256 .f32) (main_arg21 : FVec F S8192x256 .f32) (main_arg22 : FVec F S8192 .f32) (main_v63 : IVec S_ 1) (main_v67 : IVec S_ 1) : IVec S_ 1 :=
  let main_v68 : IVec S_ 1 := andi main_v63 main_v67
  let main_v69 : FVec F S128x256 .f32 := Host.absf main_arg15
  let main_cst_26 : FVec F S_ .f32 := constant S_ .f32 0x7F800000#32
  let main_v70 : FVec F S128x256 .f32 := broadcastInDim S128x256 ![] bcast_S_S128x256 main_cst_26
  let main_v71 : IVec S128x256 1 := cmpf .olt main_v69 main_v70
  let main_c_27 : IVec S_ 1 := constantI S_ 1 1#1
  let main_v72 : IVec S_ 1 := (fun x v => Host.reduce IntOp.andi x v reducesTo_S128x256_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x256 .f32 := Host.absf main_arg17
  let main_cst_30 : FVec F S_ .f32 := constant S_ .f32 0x7F800000#32
  let main_v80 : FVec F S128x256 .f32 := broadcastInDim S128x256 ![] bcast_S_S128x256 main_cst_30
  let main_v81 : IVec S128x256 1 := cmpf .olt main_v79 main_v80
  let main_c_31 : IVec S_ 1 := constantI S_ 1 1#1
  let main_v82 : IVec S_ 1 := (fun x v => Host.reduce IntOp.andi x v reducesTo_S128x256_S_d0_1 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg19 main_arg20 main_arg21 main_arg22 main_v83 main_v84 main_cst_32

def fn_part3 {F : FTy → Type} [FloatOps F] (main_arg12 : FVec F S256 .f32) (main_arg13 : FVec F S128x256 .f32) (main_arg14 : FVec F S128 .f32) (main_arg15 : FVec F S128x256 .f32) (main_arg16 : FVec F S128 .f32) (main_arg17 : FVec F S128x256 .f32) (main_arg18 : FVec F S128 .f32) (main_arg19 : FVec F S256x128 .f32) (main_arg20 : FVec F S256 .f32) (main_arg21 : FVec F S8192x256 .f32) (main_arg22 : FVec F S8192 .f32) (main_v48 : IVec S_ 1) (main_v49 : FVec F S256x456 .f32) (main_v50 : FVec F S256x456 .f32) : IVec S_ 1 :=
  let main_v51 : IVec S256x456 1 := cmpf .olt main_v49 main_v50
  let main_c_19 : IVec S_ 1 := constantI S_ 1 1#1
  let main_v52 : IVec S_ 1 := (fun x v => Host.reduce IntOp.andi x v reducesTo_S256x456_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S128x256 .f32 := Host.absf main_arg13
  let main_cst_22 : FVec F S_ .f32 := constant S_ .f32 0x7F800000#32
  let main_v60 : FVec F S128x256 .f32 := broadcastInDim S128x256 ![] bcast_S_S128x256 main_cst_22
  let main_v61 : IVec S128x256 1 := cmpf .olt main_v59 main_v60
  let main_c_23 : IVec S_ 1 := constantI S_ 1 1#1
  let main_v62 : IVec S_ 1 := (fun x v => Host.reduce IntOp.andi x v reducesTo_S128x256_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_arg19 main_arg20 main_arg21 main_arg22 main_v63 main_v67

def fn_part2 {F : FTy → Type} [FloatOps F] (main_arg8 : FVec F S228 .f32) (main_arg9 : FVec F S456x228 .f32) (main_arg10 : FVec F S456 .f32) (main_arg11 : FVec F S256x456 .f32) (main_arg12 : FVec F S256 .f32) (main_arg13 : FVec F S128x256 .f32) (main_arg14 : FVec F S128 .f32) (main_arg15 : FVec F S128x256 .f32) (main_arg16 : FVec F S128 .f32) (main_arg17 : FVec F S128x256 .f32) (main_arg18 : FVec F S128 .f32) (main_arg19 : FVec F S256x128 .f32) (main_arg20 : FVec F S256 .f32) (main_arg21 : FVec F S8192x256 .f32) (main_arg22 : FVec F S8192 .f32) (main_v33 : IVec S_ 1) : IVec S_ 1 :=
  let main_v34 : FVec F S228 .f32 := Host.absf main_arg8
  let main_cst_12 : FVec F S_ .f32 := constant S_ .f32 0x7F800000#32
  let main_v35 : FVec F S228 .f32 := broadcastInDim S228 ![] bcast_S_S228 main_cst_12
  let main_v36 : IVec S228 1 := cmpf .olt main_v34 main_v35
  let main_c_13 : IVec S_ 1 := constantI S_ 1 1#1
  let main_v37 : IVec S_ 1 := (fun x v => Host.reduce IntOp.andi x v reducesTo_S228_S_d0 h_S_) main_v36 main_c_13
  let main_v38 : IVec S_ 1 := andi main_v33 main_v37
  let main_v39 : FVec F S456x228 .f32 := Host.absf main_arg9
  let main_cst_14 : FVec F S_ .f32 := constant S_ .f32 0x7F800000#32
  let main_v40 : FVec F S456x228 .f32 := broadcastInDim S456x228 ![] bcast_S_S456x228 main_cst_14
  let main_v41 : IVec S456x228 1 := cmpf .olt main_v39 main_v40
  let main_c_15 : IVec S_ 1 := constantI S_ 1 1#1
  let main_v42 : IVec S_ 1 := (fun x v => Host.reduce IntOp.andi x v reducesTo_S456x228_S_d0_1 h_S_) main_v41 main_c_15
  let main_v43 : IVec S_ 1 := andi main_v38 main_v42
  let main_v44 : FVec F S456 .f32 := Host.absf main_arg10
  let main_cst_16 : FVec F S_ .f32 := constant S_ .f32 0x7F800000#32
  let main_v45 : FVec F S456 .f32 := broadcastInDim S456 ![] bcast_S_S456 main_cst_16
  let main_v46 : IVec S456 1 := cmpf .olt main_v44 main_v45
  let main_c_17 : IVec S_ 1 := constantI S_ 1 1#1
  let main_v47 : IVec S_ 1 := (fun x v => Host.reduce IntOp.andi x v reducesTo_S456_S_d0 h_S_) main_v46 main_c_17
  let main_v48 : IVec S_ 1 := andi main_v43 main_v47
  let main_v49 : FVec F S256x456 .f32 := Host.absf main_arg11
  let main_cst_18 : FVec F S_ .f32 := constant S_ .f32 0x7F800000#32
  let main_v50 : FVec F S256x456 .f32 := broadcastInDim S256x456 ![] bcast_S_S256x456 main_cst_18
  fn_part3 (F := F) main_arg12 main_arg13 main_arg14 main_arg15 main_arg16 main_arg17 main_arg18 main_arg19 main_arg20 main_arg21 main_arg22 main_v48 main_v49 main_v50

def fn_part1 {F : FTy → Type} [FloatOps F] (main_arg5 : FVec F S228x456 .f32) (main_arg6 : FVec F S228 .f32) (main_arg7 : FVec F S228x456 .f32) (main_arg8 : FVec F S228 .f32) (main_arg9 : FVec F S456x228 .f32) (main_arg10 : FVec F S456 .f32) (main_arg11 : FVec F S256x456 .f32) (main_arg12 : FVec F S256 .f32) (main_arg13 : FVec F S128x256 .f32) (main_arg14 : FVec F S128 .f32) (main_arg15 : FVec F S128x256 .f32) (main_arg16 : FVec F S128 .f32) (main_arg17 : FVec F S128x256 .f32) (main_arg18 : FVec F S128 .f32) (main_arg19 : FVec F S256x128 .f32) (main_arg20 : FVec F S256 .f32) (main_arg21 : FVec F S8192x256 .f32) (main_arg22 : FVec F S8192 .f32) (main_v13 : IVec S_ 1) (main_v16 : IVec S228 1) : IVec S_ 1 :=
  let main_c_5 : IVec S_ 1 := constantI S_ 1 1#1
  let main_v17 : IVec S_ 1 := (fun x v => Host.reduce IntOp.andi x v reducesTo_S228_S_d0 h_S_) main_v16 main_c_5
  let main_v18 : IVec S_ 1 := andi main_v13 main_v17
  let main_v19 : FVec F S228x456 .f32 := Host.absf main_arg5
  let main_cst_6 : FVec F S_ .f32 := constant S_ .f32 0x7F800000#32
  let main_v20 : FVec F S228x456 .f32 := broadcastInDim S228x456 ![] bcast_S_S228x456 main_cst_6
  let main_v21 : IVec S228x456 1 := cmpf .olt main_v19 main_v20
  let main_c_7 : IVec S_ 1 := constantI S_ 1 1#1
  let main_v22 : IVec S_ 1 := (fun x v => Host.reduce IntOp.andi x v reducesTo_S228x456_S_d0_1 h_S_) main_v21 main_c_7
  let main_v23 : IVec S_ 1 := andi main_v18 main_v22
  let main_v24 : FVec F S228 .f32 := Host.absf main_arg6
  let main_cst_8 : FVec F S_ .f32 := constant S_ .f32 0x7F800000#32
  let main_v25 : FVec F S228 .f32 := broadcastInDim S228 ![] bcast_S_S228 main_cst_8
  let main_v26 : IVec S228 1 := cmpf .olt main_v24 main_v25
  let main_c_9 : IVec S_ 1 := constantI S_ 1 1#1
  let main_v27 : IVec S_ 1 := (fun x v => Host.reduce IntOp.andi x v reducesTo_S228_S_d0 h_S_) main_v26 main_c_9
  let main_v28 : IVec S_ 1 := andi main_v23 main_v27
  let main_v29 : FVec F S228x456 .f32 := Host.absf main_arg7
  let main_cst_10 : FVec F S_ .f32 := constant S_ .f32 0x7F800000#32
  let main_v30 : FVec F S228x456 .f32 := broadcastInDim S228x456 ![] bcast_S_S228x456 main_cst_10
  let main_v31 : IVec S228x456 1 := cmpf .olt main_v29 main_v30
  let main_c_11 : IVec S_ 1 := constantI S_ 1 1#1
  let main_v32 : IVec S_ 1 := (fun x v => Host.reduce IntOp.andi x v reducesTo_S228x456_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S4096x256 .f32) (main_arg1 : IVec S4096 32) (main_arg2 : FVec F S151x200 .f32) (main_arg3 : FVec F S228x456 .f32) (main_arg4 : FVec F S228 .f32) (main_arg5 : FVec F S228x456 .f32) (main_arg6 : FVec F S228 .f32) (main_arg7 : FVec F S228x456 .f32) (main_arg8 : FVec F S228 .f32) (main_arg9 : FVec F S456x228 .f32) (main_arg10 : FVec F S456 .f32) (main_arg11 : FVec F S256x456 .f32) (main_arg12 : FVec F S256 .f32) (main_arg13 : FVec F S128x256 .f32) (main_arg14 : FVec F S128 .f32) (main_arg15 : FVec F S128x256 .f32) (main_arg16 : FVec F S128 .f32) (main_arg17 : FVec F S128x256 .f32) (main_arg18 : FVec F S128 .f32) (main_arg19 : FVec F S256x128 .f32) (main_arg20 : FVec F S256 .f32) (main_arg21 : FVec F S8192x256 .f32) (main_arg22 : FVec F S8192 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S151x200 .f32 := Host.absf main_arg2
  let main_cst_0 : FVec F S_ .f32 := constant S_ .f32 0x7F800000#32
  let main_v5 : FVec F S151x200 .f32 := broadcastInDim S151x200 ![] bcast_S_S151x200 main_cst_0
  let main_v6 : IVec S151x200 1 := cmpf .olt main_v4 main_v5
  let main_c_1 : IVec S_ 1 := constantI S_ 1 1#1
  let main_v7 : IVec S_ 1 := (fun x v => Host.reduce IntOp.andi x v reducesTo_S151x200_S_d0_1 h_S_) main_v6 main_c_1
  let main_v8 : IVec S_ 1 := andi main_v3 main_v7
  let main_v9 : FVec F S228x456 .f32 := Host.absf main_arg3
  let main_cst_2 : FVec F S_ .f32 := constant S_ .f32 0x7F800000#32
  let main_v10 : FVec F S228x456 .f32 := broadcastInDim S228x456 ![] bcast_S_S228x456 main_cst_2
  let main_v11 : IVec S228x456 1 := cmpf .olt main_v9 main_v10
  let main_c_3 : IVec S_ 1 := constantI S_ 1 1#1
  let main_v12 : IVec S_ 1 := (fun x v => Host.reduce IntOp.andi x v reducesTo_S228x456_S_d0_1 h_S_) main_v11 main_c_3
  let main_v13 : IVec S_ 1 := andi main_v8 main_v12
  let main_v14 : FVec F S228 .f32 := Host.absf main_arg4
  let main_cst_4 : FVec F S_ .f32 := constant S_ .f32 0x7F800000#32
  let main_v15 : FVec F S228 .f32 := broadcastInDim S228 ![] bcast_S_S228 main_cst_4
  let main_v16 : IVec S228 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S4096x256 : Shape := ⟨2, ![4096, 256]⟩
abbrev S4096 : Shape := ⟨1, ![4096]⟩
abbrev S151x200 : Shape := ⟨2, ![151, 200]⟩
abbrev S228x456 : Shape := ⟨2, ![228, 456]⟩
abbrev S228 : Shape := ⟨1, ![228]⟩
abbrev S456x228 : Shape := ⟨2, ![456, 228]⟩
abbrev S456 : Shape := ⟨1, ![456]⟩
abbrev S256x456 : Shape := ⟨2, ![256, 456]⟩
abbrev S256 : Shape := ⟨1, ![256]⟩
abbrev S128x256 : Shape := ⟨2, ![128, 256]⟩
abbrev S128 : Shape := ⟨1, ![128]⟩
abbrev S256x128 : Shape := ⟨2, ![256, 128]⟩
abbrev S8192x256 : Shape := ⟨2, ![8192, 256]⟩
abbrev S8192 : Shape := ⟨1, ![8192]⟩
abbrev S_ : Shape := ⟨0, ![]⟩
abbrev S4096x1 : Shape := ⟨2, ![4096, 1]⟩
abbrev S4096x200 : Shape := ⟨2, ![4096, 200]⟩
abbrev S4096x456 : Shape := ⟨2, ![4096, 456]⟩
abbrev S4096x512 : Shape := ⟨2, ![4096, 512]⟩
abbrev S512x256 : Shape := ⟨2, ![512, 256]⟩
abbrev S256x512 : Shape := ⟨2, ![256, 512]⟩
abbrev S512 : Shape := ⟨1, ![512]⟩
abbrev S456x256 : Shape := ⟨2, ![456, 256]⟩
abbrev S1x256 : Shape := ⟨2, ![1, 256]⟩
abbrev S512x512 : Shape := ⟨2, ![512, 512]⟩
abbrev S1x512 : Shape := ⟨2, ![1, 512]⟩
abbrev S256x256 : Shape := ⟨2, ![256, 256]⟩
abbrev S256x4096 : Shape := ⟨2, ![256, 4096]⟩
abbrev S256x1 : Shape := ⟨2, ![256, 1]⟩
abbrev S256x8192 : Shape := ⟨2, ![256, 8192]⟩
abbrev S1x128 : Shape := ⟨2, ![1, 128]⟩
abbrev S4096x128 : Shape := ⟨2, ![4096, 128]⟩
abbrev S512x128 : Shape := ⟨2, ![512, 128]⟩
abbrev S1x8192 : Shape := ⟨2, ![1, 8192]⟩
abbrev S4096x8192 : Shape := ⟨2, ![4096, 8192]⟩
abbrev S128x4096 : Shape := ⟨2, ![128, 4096]⟩

abbrev nBuf : Space → Nat
  | .hbm => 102
  | .vmem => 54
  | .smem => 0
  | _ => 0

abbrev bufTy : (tb : Table) → Fin (tcTables nBuf tb) → BufTy
  | .hbm, ⟨0, _⟩ => ⟨S4096x256, .f32⟩
  | .hbm, ⟨1, _⟩ => ⟨S4096, .i32⟩
  | .hbm, ⟨2, _⟩ => ⟨S151x200, .f32⟩
  | .hbm, ⟨3, _⟩ => ⟨S228x456, .f32⟩
  | .hbm, ⟨4, _⟩ => ⟨S228, .f32⟩
  | .hbm, ⟨5, _⟩ => ⟨S228x456, .f32⟩
  | .hbm, ⟨6, _⟩ => ⟨S228, .f32⟩
  | .hbm, ⟨7, _⟩ => ⟨S228x456, .f32⟩
  | .hbm, ⟨8, _⟩ => ⟨S228, .f32⟩
  | .hbm, ⟨9, _⟩ => ⟨S456x228, .f32⟩
  | .hbm, ⟨10, _⟩ => ⟨S456, .f32⟩
  | .hbm, ⟨11, _⟩ => ⟨S256x456, .f32⟩
  | .hbm, ⟨12, _⟩ => ⟨S256, .f32⟩
  | .hbm, ⟨13, _⟩ => ⟨S128x256, .f32⟩
  | .hbm, ⟨14, _⟩ => ⟨S128, .f32⟩
  | .hbm, ⟨15, _⟩ => ⟨S128x256, .f32⟩
  | .hbm, ⟨16, _⟩ => ⟨S128, .f32⟩
  | .hbm, ⟨17, _⟩ => ⟨S128x256, .f32⟩
  | .hbm, ⟨18, _⟩ => ⟨S128, .f32⟩
  | .hbm, ⟨19, _⟩ => ⟨S256x128, .f32⟩
  | .hbm, ⟨20, _⟩ => ⟨S256, .f32⟩
  | .hbm, ⟨21, _⟩ => ⟨S8192x256, .f32⟩
  | .hbm, ⟨22, _⟩ => ⟨S8192, .f32⟩
  | .hbm, ⟨23, _⟩ => ⟨S_, .i32⟩
  | .hbm, ⟨24, _⟩ => ⟨S4096, .i32⟩
  | .hbm, ⟨25, _⟩ => ⟨S4096, .i1⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S4096, .i32⟩
  | .hbm, ⟨30, _⟩ => ⟨S4096x1, .i32⟩
  | .hbm, ⟨31, _⟩ => ⟨S4096x200, .f32⟩
  | .hbm, ⟨32, _⟩ => ⟨S4096x456, .f32⟩
  | .hbm, ⟨33, _⟩ => ⟨S_, .i32⟩
  | .hbm, ⟨34, _⟩ => ⟨S_, .f32⟩
  | .hbm, ⟨35, _⟩ => ⟨S4096x512, .f32⟩
  | .hbm, ⟨36, _⟩ => ⟨S456x228, .f32⟩
  | .hbm, ⟨37, _⟩ => ⟨S_, .i32⟩
  | .hbm, ⟨38, _⟩ => ⟨S_, .f32⟩
  | .hbm, ⟨39, _⟩ => ⟨S512x256, .f32⟩
  | .hbm, ⟨40, _⟩ => ⟨S456x228, .f32⟩
  | .hbm, ⟨41, _⟩ => ⟨S_, .i32⟩
  | .hbm, ⟨42, _⟩ => ⟨S_, .f32⟩
  | .hbm, ⟨43, _⟩ => ⟨S512x256, .f32⟩
  | .hbm, ⟨44, _⟩ => ⟨S456x228, .f32⟩
  | .hbm, ⟨45, _⟩ => ⟨S_, .i32⟩
  | .hbm, ⟨46, _⟩ => ⟨S_, .f32⟩
  | .hbm, ⟨47, _⟩ => ⟨S512x256, .f32⟩
  | .hbm, ⟨48, _⟩ => ⟨S_, .i32⟩
  | .hbm, ⟨49, _⟩ => ⟨S_, .f32⟩
  | .hbm, ⟨50, _⟩ => ⟨S256, .f32⟩
  | .hbm, ⟨51, _⟩ => ⟨S_, .i32⟩
  | .hbm, ⟨52, _⟩ => ⟨S_, .f32⟩
  | .hbm, ⟨53, _⟩ => ⟨S256, .f32⟩
  | .hbm, ⟨54, _⟩ => ⟨S_, .i32⟩
  | .hbm, ⟨55, _⟩ => ⟨S_, .f32⟩
  | .hbm, ⟨56, _⟩ => ⟨S256, .f32⟩
  | .hbm, ⟨57, _⟩ => ⟨S228x456, .f32⟩
  | .hbm, ⟨58, _⟩ => ⟨S_, .i32⟩
  | .hbm, ⟨59, _⟩ => ⟨S_, .f32⟩
  | .hbm, ⟨60, _⟩ => ⟨S256x512, .f32⟩
  | .hbm, ⟨61, _⟩ => ⟨S_, .i32⟩
  | .hbm, ⟨62, _⟩ => ⟨S_, .f32⟩
  | .hbm, ⟨63, _⟩ => ⟨S512, .f32⟩
  | .hbm, ⟨64, _⟩ => ⟨S456x256, .f32⟩
  | .hbm, ⟨65, _⟩ => ⟨S_, .i32⟩
  | .hbm, ⟨66, _⟩ => ⟨S_, .f32⟩
  | .hbm, ⟨67, _⟩ => ⟨S512x256, .f32⟩
  | .hbm, ⟨68, _⟩ => ⟨S512x256, .bf16⟩
  | .hbm, ⟨69, _⟩ => ⟨S512x256, .bf16⟩
  | .hbm, ⟨70, _⟩ => ⟨S512x256, .bf16⟩
  | .hbm, ⟨71, _⟩ => ⟨S1x256, .f32⟩
  | .hbm, ⟨72, _⟩ => ⟨S1x256, .f32⟩
  | .hbm, ⟨73, _⟩ => ⟨S1x256, .f32⟩
  | .hbm, ⟨74, _⟩ => ⟨S4096x256, .bf16⟩
  | .hbm, ⟨75, _⟩ => ⟨S4096x256, .bf16⟩
  | .hbm, ⟨76, _⟩ => ⟨S4096x256, .bf16⟩
  | .hbm, ⟨77, _⟩ => ⟨S256x512, .bf16⟩
  | .hbm, ⟨78, _⟩ => ⟨S512x256, .bf16⟩
  | .hbm, ⟨79, _⟩ => ⟨S1x512, .f32⟩
  | .hbm, ⟨80, _⟩ => ⟨S1x256, .f32⟩
  | .hbm, ⟨81, _⟩ => ⟨S4096x256, .f32⟩
  | .hbm, ⟨82, _⟩ => ⟨S256x128, .f32⟩
  | .hbm, ⟨83, _⟩ => ⟨S256x128, .f32⟩
  | .hbm, ⟨84, _⟩ => ⟨S256x128, .f32⟩
  | .hbm, ⟨85, _⟩ => ⟨S128x256, .f32⟩
  | .hbm, ⟨86, _⟩ => ⟨S256x8192, .f32⟩
  | .hbm, ⟨87, _⟩ => ⟨S256x128, .bf16⟩
  | .hbm, ⟨88, _⟩ => ⟨S256x128, .bf16⟩
  | .hbm, ⟨89, _⟩ => ⟨S256x128, .bf16⟩
  | .hbm, ⟨90, _⟩ => ⟨S1x128, .f32⟩
  | .hbm, ⟨91, _⟩ => ⟨S1x128, .f32⟩
  | .hbm, ⟨92, _⟩ => ⟨S1x128, .f32⟩
  | .hbm, ⟨93, _⟩ => ⟨S4096x128, .bf16⟩
  | .hbm, ⟨94, _⟩ => ⟨S4096x128, .bf16⟩
  | .hbm, ⟨95, _⟩ => ⟨S4096x128, .bf16⟩
  | .hbm, ⟨96, _⟩ => ⟨S128x256, .bf16⟩
  | .hbm, ⟨97, _⟩ => ⟨S256x8192, .bf16⟩
  | .hbm, ⟨98, _⟩ => ⟨S1x256, .f32⟩
  | .hbm, ⟨99, _⟩ => ⟨S1x8192, .f32⟩
  | .hbm, ⟨100, _⟩ => ⟨S4096x256, .f32⟩
  | .hbm, ⟨101, _⟩ => ⟨S4096x8192, .f32⟩
  | .local _ .vmem, ⟨0, _⟩ => ⟨S512x512, .f32⟩
  | .local _ .vmem, ⟨1, _⟩ => ⟨S512x512, .f32⟩
  | .local _ .vmem, ⟨2, _⟩ => ⟨S512x256, .bf16⟩
  | .local _ .vmem, ⟨3, _⟩ => ⟨S1x256, .f32⟩
  | .local _ .vmem, ⟨4, _⟩ => ⟨S512x256, .bf16⟩
  | .local _ .vmem, ⟨5, _⟩ => ⟨S1x256, .f32⟩
  | .local _ .vmem, ⟨6, _⟩ => ⟨S512x256, .bf16⟩
  | .local _ .vmem, ⟨7, _⟩ => ⟨S1x256, .f32⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S256x256, .bf16⟩
  | .local _ .vmem, ⟨15, _⟩ => ⟨S256x256, .bf16⟩
  | .local _ .vmem, ⟨16, _⟩ => ⟨S4096x256, .bf16⟩
  | .local _ .vmem, ⟨17, _⟩ => ⟨S4096x256, .bf16⟩
  | .local _ .vmem, ⟨18, _⟩ => ⟨S256x512, .f32⟩
  | .local _ .vmem, ⟨19, _⟩ => ⟨S256x512, .f32⟩
  | .local _ .vmem, ⟨20, _⟩ => ⟨S256x512, .bf16⟩
  | .local _ .vmem, ⟨21, _⟩ => ⟨S1x512, .f32⟩
  | .local _ .vmem, ⟨22, _⟩ => ⟨S512x256, .bf16⟩
  | .local _ .vmem, ⟨23, _⟩ => ⟨S1x256, .f32⟩
  | .local _ .vmem, ⟨24, _⟩ => ⟨S256x256, .f32⟩
  | .local _ .vmem, ⟨25, _⟩ => ⟨S256x256, .f32⟩
  | .local _ .vmem, ⟨26, _⟩ => ⟨S512x256, .f32⟩
  | .local _ .vmem, ⟨27, _⟩ => ⟨S512x256, .f32⟩
  | .local _ .vmem, ⟨28, _⟩ => ⟨S256x128, .bf16⟩
  | .local _ .vmem, ⟨29, _⟩ => ⟨S1x128, .f32⟩
  | .local _ .vmem, ⟨30, _⟩ => ⟨S256x128, .bf16⟩
  | .local _ .vmem, ⟨31, _⟩ => ⟨S1x128, .f32⟩
  | .local _ .vmem, ⟨32, _⟩ => ⟨S256x128, .bf16⟩
  | .local _ .vmem, ⟨33, _⟩ => ⟨S1x128, .f32⟩
  | .local _ .vmem, ⟨34, _⟩ => ⟨S512x128, .bf16⟩
  | .local _ .vmem, ⟨35, _⟩ => ⟨S512x128, .bf16⟩
  | .local _ .vmem, ⟨36, _⟩ => ⟨S512x128, .bf16⟩
  | .local _ .vmem, ⟨37, _⟩ => ⟨S512x128, .bf16⟩
  | .local _ .vmem, ⟨38, _⟩ => ⟨S512x128, .bf16⟩
  | .local _ .vmem, ⟨39, _⟩ => ⟨S512x128, .bf16⟩
  | .local _ .vmem, ⟨40, _⟩ => ⟨S256x128, .bf16⟩
  | .local _ .vmem, ⟨41, _⟩ => ⟨S256x128, .bf16⟩
  | .local _ .vmem, ⟨42, _⟩ => ⟨S4096x128, .bf16⟩
  | .local _ .vmem, ⟨43, _⟩ => ⟨S4096x128, .bf16⟩
  | .local _ .vmem, ⟨44, _⟩ => ⟨S256x256, .f32⟩
  | .local _ .vmem, ⟨45, _⟩ => ⟨S256x256, .f32⟩
  | .local _ .vmem, ⟨46, _⟩ => ⟨S128x256, .bf16⟩
  | .local _ .vmem, ⟨47, _⟩ => ⟨S1x256, .f32⟩
  | .local _ .vmem, ⟨48, _⟩ => ⟨S256x8192, .bf16⟩
  | .local _ .vmem, ⟨49, _⟩ => ⟨S1x8192, .f32⟩
  | .local _ .vmem, ⟨50, _⟩ => ⟨S256x256, .f32⟩
  | .local _ .vmem, ⟨51, _⟩ => ⟨S256x256, .f32⟩
  | .local _ .vmem, ⟨52, _⟩ => ⟨S256x8192, .f32⟩
  | .local _ .vmem, ⟨53, _⟩ => ⟨S256x8192, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_c : Ref sig .tc := ⟨.hbm, 23, rfl⟩
abbrev main_v0 : Ref sig .tc := ⟨.hbm, 24, rfl⟩
abbrev main_v1 : Ref sig .tc := ⟨.hbm, 25, rfl⟩
abbrev main_c_0 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_c_1 : Ref sig .tc := ⟨.hbm, 33, rfl⟩
abbrev main_call0_v0 : Ref sig .tc := ⟨.hbm, 34, rfl⟩
abbrev main_v8 : Ref sig .tc := ⟨.hbm, 35, rfl⟩
abbrev main_v9 : Ref sig .tc := ⟨.hbm, 36, rfl⟩
abbrev main_c_2 : Ref sig .tc := ⟨.hbm, 37, rfl⟩
abbrev main_call1_v0 : Ref sig .tc := ⟨.hbm, 38, rfl⟩
abbrev main_v10 : Ref sig .tc := ⟨.hbm, 39, rfl⟩
abbrev main_v11 : Ref sig .tc := ⟨.hbm, 40, rfl⟩
abbrev main_c_3 : Ref sig .tc := ⟨.hbm, 41, rfl⟩
abbrev main_call2_v0 : Ref sig .tc := ⟨.hbm, 42, rfl⟩
abbrev main_v12 : Ref sig .tc := ⟨.hbm, 43, rfl⟩
abbrev main_v13 : Ref sig .tc := ⟨.hbm, 44, rfl⟩
abbrev main_c_4 : Ref sig .tc := ⟨.hbm, 45, rfl⟩
abbrev main_call3_v0 : Ref sig .tc := ⟨.hbm, 46, rfl⟩
abbrev main_v14 : Ref sig .tc := ⟨.hbm, 47, rfl⟩
abbrev main_c_5 : Ref sig .tc := ⟨.hbm, 48, rfl⟩
abbrev main_call4_v0 : Ref sig .tc := ⟨.hbm, 49, rfl⟩
abbrev main_v15 : Ref sig .tc := ⟨.hbm, 50, rfl⟩
abbrev main_c_6 : Ref sig .tc := ⟨.hbm, 51, rfl⟩
abbrev main_call5_v0 : Ref sig .tc := ⟨.hbm, 52, rfl⟩
abbrev main_v16 : Ref sig .tc := ⟨.hbm, 53, rfl⟩
abbrev main_c_7 : Ref sig .tc := ⟨.hbm, 54, rfl⟩
abbrev main_call6_v0 : Ref sig .tc := ⟨.hbm, 55, rfl⟩
abbrev main_v17 : Ref sig .tc := ⟨.hbm, 56, rfl⟩
abbrev main_v18 : Ref sig .tc := ⟨.hbm, 57, rfl⟩
abbrev main_c_8 : Ref sig .tc := ⟨.hbm, 58, rfl⟩
abbrev main_call7_v0 : Ref sig .tc := ⟨.hbm, 59, rfl⟩
abbrev main_v19 : Ref sig .tc := ⟨.hbm, 60, rfl⟩
abbrev main_c_9 : Ref sig .tc := ⟨.hbm, 61, rfl⟩
abbrev main_call8_v0 : Ref sig .tc := ⟨.hbm, 62, rfl⟩
abbrev main_v20 : Ref sig .tc := ⟨.hbm, 63, rfl⟩
abbrev main_v21 : Ref sig .tc := ⟨.hbm, 64, rfl⟩
abbrev main_c_10 : Ref sig .tc := ⟨.hbm, 65, rfl⟩
abbrev main_call9_v0 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29_0 : Ref sig .tc := ⟨.hbm, 74, rfl⟩
abbrev main_v29_1 : Ref sig .tc := ⟨.hbm, 75, rfl⟩
abbrev main_v29_2 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46_0 : Ref sig .tc := ⟨.hbm, 93, rfl⟩
abbrev main_v46_1 : Ref sig .tc := ⟨.hbm, 94, rfl⟩
abbrev main_v46_2 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51_0 : Ref sig .tc := ⟨.hbm, 100, rfl⟩
abbrev main_v51_1 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg7_1 : Ref sig .tc := ⟨.vmem, 35, rfl⟩
abbrev cc2_stg8_0 : Ref sig .tc := ⟨.vmem, 36, rfl⟩
abbrev cc2_stg8_1 : Ref sig .tc := ⟨.vmem, 37, rfl⟩
abbrev cc2_stg9_0 : Ref sig .tc := ⟨.vmem, 38, rfl⟩
abbrev cc2_stg9_1 : Ref sig .tc := ⟨.vmem, 39, rfl⟩
abbrev cc3_stg0_0 : Ref sig .tc := ⟨.vmem, 40, rfl⟩
abbrev cc3_stg0_1 : Ref sig .tc := ⟨.vmem, 41, rfl⟩
abbrev cc3_stg1_0 : Ref sig .tc := ⟨.vmem, 42, rfl⟩
abbrev cc3_stg2_0 : Ref sig .tc := ⟨.vmem, 43, rfl⟩
abbrev cc3_stg3_0 : Ref sig .tc := ⟨.vmem, 44, rfl⟩
abbrev cc3_stg3_1 : Ref sig .tc := ⟨.vmem, 45, rfl⟩
abbrev cc3_stg4_0 : Ref sig .tc := ⟨.vmem, 46, rfl⟩
abbrev cc3_stg5_0 : Ref sig .tc := ⟨.vmem, 47, rfl⟩
abbrev cc3_stg6_0 : Ref sig .tc := ⟨.vmem, 48, rfl⟩
abbrev cc3_stg7_0 : Ref sig .tc := ⟨.vmem, 49, rfl⟩
abbrev cc3_stg8_0 : Ref sig .tc := ⟨.vmem, 50, rfl⟩
abbrev cc3_stg8_1 : Ref sig .tc := ⟨.vmem, 51, rfl⟩
abbrev cc3_stg9_0 : Ref sig .tc := ⟨.vmem, 52, rfl⟩
abbrev cc3_stg9_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem8_1 : DmaSem sig := 25
abbrev cc2_sem0_0 : DmaSem sig := 26
abbrev cc2_sem0_1 : DmaSem sig := 27
abbrev cc2_sem1_0 : DmaSem sig := 28
abbrev cc2_sem2_0 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem7_0 : DmaSem sig := 34
abbrev cc2_sem7_1 : DmaSem sig := 35
abbrev cc2_sem8_0 : DmaSem sig := 36
abbrev cc2_sem8_1 : DmaSem sig := 37
abbrev cc2_sem9_0 : DmaSem sig := 38
abbrev cc2_sem9_1 : DmaSem sig := 39
abbrev cc3_sem0_0 : DmaSem sig := 40
abbrev cc3_sem0_1 : DmaSem sig := 41
abbrev cc3_sem1_0 : DmaSem sig := 42
abbrev cc3_sem2_0 : DmaSem sig := 43
abbrev cc3_sem3_0 : DmaSem sig := 44
abbrev cc3_sem3_1 : DmaSem sig := 45
abbrev cc3_sem4_0 : DmaSem sig := 46
abbrev cc3_sem5_0 : DmaSem sig := 47
abbrev cc3_sem6_0 : DmaSem sig := 48
abbrev cc3_sem7_0 : DmaSem sig := 49
abbrev cc3_sem8_0 : DmaSem sig := 50
abbrev cc3_sem8_1 : DmaSem sig := 51
abbrev cc3_sem9_0 : DmaSem sig := 52
abbrev cc3_sem9_1 : DmaSem sig := 53

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S256x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x256 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S512x128 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S512x128 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S512x128 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S4096x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S4096x128 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S256x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S128x256 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S256x8192 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x8192 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S256x256 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S256x8192 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  concatenates_S4096x200_S4096x256_S4096x456_d1 : Shape.Concatenates [S4096x200, S4096x256] S4096x456 1
  pads_S4096x456_S4096x512_000_0560 : S4096x456.Pads (![0, 0] : Fin 2 → Nat) ![0, 56] ![0, 0] S4096x512
  h_S_ : 0 < S_.numel
  transposes_S228x456_S456x228_1_0 : S228x456.Transposes [1, 0] S456x228
  pads_S456x228_S512x256_0560_0280 : S456x228.Pads (![0, 0] : Fin 2 → Nat) ![56, 28] ![0, 0] S512x256
  pads_S228_S256_0280 : S228.Pads (![0] : Fin 1 → Nat) ![28] ![0] S256
  transposes_S456x228_S228x456_1_0 : S456x228.Transposes [1, 0] S228x456
  pads_S228x456_S256x512_0280_0560 : S228x456.Pads (![0, 0] : Fin 2 → Nat) ![28, 56] ![0, 0] S256x512
  pads_S456_S512_0560 : S456.Pads (![0] : Fin 1 → Nat) ![56] ![0] S512
  transposes_S256x456_S456x256_1_0 : S256x456.Transposes [1, 0] S456x256
  pads_S456x256_S512x256_0560_000 : S456x256.Pads (![0, 0] : Fin 2 → Nat) ![56, 0] ![0, 0] S512x256
  bitsLt_bf16_f32 : FTy.bits .bf16 < FTy.bits .f32
  shapeCasts_S256_S1x256 : S256.ShapeCasts S1x256
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  packedbf16_S512x256_S512x256_0_0 : (Rect.unit (s := S512x256) ![0, 0] S512x256.size inb_S512x256_S512x256_0_0).PackedRows (EltTy.packing .bf16)
  shapeCasts_S512_S1x512 : S512.ShapeCasts S1x512
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  transposes_S4096x256_p1_0_S256x4096 : S4096x256.Transposes [1, 0] S256x4096
  reduces_S256x4096_S256 : S256x4096.Reduces [1] S256
  shapeCasts_S256_S256x1 : S256.ShapeCasts S256x1
  broadcasts_S256x1_S256x4096 : S256x1.Broadcasts S256x4096
  broadcasts_S1x512_S256x512 : S1x512.Broadcasts S256x512
  broadcasts_S1x256_S256x256 : S1x256.Broadcasts S256x256
  transposes_S128x256_S256x128_1_0 : S128x256.Transposes [1, 0] S256x128
  transposes_S256x128_S128x256_1_0 : S256x128.Transposes [1, 0] S128x256
  transposes_S8192x256_S256x8192_1_0 : S8192x256.Transposes [1, 0] S256x8192
  shapeCasts_S128_S1x128 : S128.ShapeCasts S1x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  packedbf16_S512x128_S512x128_0_0 : (Rect.unit (s := S512x128) ![0, 0] S512x128.size inb_S512x128_S512x128_0_0).PackedRows (EltTy.packing .bf16)
  shapeCasts_S8192_S1x8192 : S8192.ShapeCasts S1x8192
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  transposes_S4096x128_p1_0_S128x4096 : S4096x128.Transposes [1, 0] S128x4096
  broadcasts_S1x8192_S256x8192 : S1x8192.Broadcasts S256x8192
  gather_S151x200_S4096x1_S4096x200_1_0_n_n_0_1_1200_wf : GatherDims.WF S151x200 S4096x1 S4096x200 [1] [0] [] [0] [] 1 ![1, 200]
  dot_S512x512_S512x256_S512x256_1_0_0_1_n_n_wf : DotDims.WF S512x512 S512x256 S512x256 [1] [0] [0] [1] [] []
  dot_S256x256_S256x4096_S256x4096_1_0_0_1_n_n_wf : DotDims.WF S256x256 S256x4096 S256x4096 [1] [0] [0] [1] [] []
  dot_S256x4096_S4096x256_S256x256_1_0_0_1_n_n_wf : DotDims.WF S256x4096 S4096x256 S256x256 [1] [0] [0] [1] [] []
  dot_S256x256_S256x512_S256x512_1_0_0_1_n_n_wf : DotDims.WF S256x256 S256x512 S256x512 [1] [0] [0] [1] [] []
  dot_S256x512_S512x256_S256x256_1_0_0_1_n_n_wf : DotDims.WF S256x512 S512x256 S256x256 [1] [0] [0] [1] [] []
  dot_S512x256_S256x128_S512x128_1_0_0_1_n_n_wf : DotDims.WF S512x256 S256x128 S512x128 [1] [0] [0] [1] [] []
  dot_S256x128_S128x4096_S256x4096_1_0_0_1_n_n_wf : DotDims.WF S256x128 S128x4096 S256x4096 [1] [0] [0] [1] [] []
  dot_S256x4096_S4096x128_S256x128_1_0_0_1_n_n_wf : DotDims.WF S256x4096 S4096x128 S256x128 [1] [0] [0] [1] [] []
  dot_S256x128_S128x256_S256x256_1_0_0_1_n_n_wf : DotDims.WF S256x128 S128x256 S256x256 [1] [0] [0] [1] [] []
  dot_S256x256_S256x8192_S256x8192_1_0_0_1_n_n_wf : DotDims.WF S256x256 S256x8192 S256x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .bf16 = 32 ∨ (Rect.block (s := S512x256) S512x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .bf16 = 32 ∨ (Rect.block (s := S512x256) S512x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S4096x256.size a
  hwx0_7 : ∀ i : grid0.Coords, EltTy.bits .bf16 = 32 ∨ (Rect.block (s := S4096x256) S512x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x256.size a ≤ S4096x256.size a
  hwx0_8 : ∀ i : grid0.Coords, EltTy.bits .bf16 = 32 ∨ (Rect.block (s := S4096x256) S512x256.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x256.size a ≤ S4096x256.size a
  hwx0_9 : ∀ i : grid0.Coords, EltTy.bits .bf16 = 32 ∨ (Rect.block (s := S4096x256) S512x256.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x256.size a ≤ S4096x256.size a
  hwx1_0 : ∀ i : grid1.Coords, EltTy.bits .bf16 = 32 ∨ (Rect.block (s := S4096x256) S256x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x256.size a
  hwx1_1 : ∀ i : grid1.Coords, EltTy.bits .bf16 = 32 ∨ (Rect.block (s := S4096x256) S4096x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x256.size a ≤ S4096x256.size a
  hwx1_2 : ∀ i : grid1.Coords, EltTy.bits .bf16 = 32 ∨ (Rect.block (s := S4096x256) S4096x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x512.size a ≤ S4096x512.size a
  hwx1_3 : ∀ i : grid1.Coords, EltTy.bits .f32 = 32 ∨ (Rect.block (s := S4096x512) S256x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x512.size a ≤ S256x512.size a
  hwx1_4 : ∀ i : grid1.Coords, EltTy.bits .bf16 = 32 ∨ (Rect.block (s := S256x512) S256x512.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512x256.size a ≤ S512x256.size a
  hwx1_6 : ∀ i : grid1.Coords, EltTy.bits .bf16 = 32 ∨ (Rect.block (s := S512x256) S512x256.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S256x256.size a ≤ S4096x256.size a
  hwx1_8 : ∀ i : grid1.Coords, EltTy.bits .f32 = 32 ∨ (Rect.block (s := S4096x256) S256x256.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x256.size a ≤ S4096x256.size a
  hwx2_0 : ∀ i : grid2.Coords, EltTy.bits .f32 = 32 ∨ (Rect.block (s := S4096x256) S512x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .bf16 = 32 ∨ (Rect.block (s := S256x128) S256x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .bf16 = 32 ∨ (Rect.block (s := S256x128) S256x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x128.size a ≤ S256x128.size a
  hwx2_5 : ∀ i : grid2.Coords, EltTy.bits .bf16 = 32 ∨ (Rect.block (s := S256x128) S256x128.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S512x128.size a ≤ S4096x128.size a
  hwx2_7 : ∀ i : grid2.Coords, EltTy.bits .bf16 = 32 ∨ (Rect.block (s := S4096x128) S512x128.size (cc2_transform_7 i) (hinb2_7 i)).WholeWords (EltTy.packing .bf16)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S512x128.size a ≤ S4096x128.size a
  hwx2_8 : ∀ i : grid2.Coords, EltTy.bits .bf16 = 32 ∨ (Rect.block (s := S4096x128) S512x128.size (cc2_transform_8 i) (hinb2_8 i)).WholeWords (EltTy.packing .bf16)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S512x128.size a ≤ S4096x128.size a
  hwx2_9 : ∀ i : grid2.Coords, EltTy.bits .bf16 = 32 ∨ (Rect.block (s := S4096x128) S512x128.size (cc2_transform_9 i) (hinb2_9 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x128.size a ≤ S4096x128.size a
  hwx3_0 : ∀ i : grid3.Coords, EltTy.bits .bf16 = 32 ∨ (Rect.block (s := S4096x128) S256x128.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S4096x128.size a ≤ S4096x128.size a
  hwx3_1 : ∀ i : grid3.Coords, EltTy.bits .bf16 = 32 ∨ (Rect.block (s := S4096x128) S4096x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S4096x128.size a ≤ S4096x128.size a
  hwx3_2 : ∀ i : grid3.Coords, EltTy.bits .bf16 = 32 ∨ (Rect.block (s := S4096x128) S4096x128.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S4096x256.size a
  hwx3_3 : ∀ i : grid3.Coords, EltTy.bits .f32 = 32 ∨ (Rect.block (s := S4096x256) S256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x256.size a ≤ S128x256.size a
  hwx3_4 : ∀ i : grid3.Coords, EltTy.bits .bf16 = 32 ∨ (Rect.block (s := S128x256) S128x256.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S256x8192.size a ≤ S256x8192.size a
  hwx3_6 : ∀ i : grid3.Coords, EltTy.bits .bf16 = 32 ∨ (Rect.block (s := S256x8192) S256x8192.size (cc3_transform_6 i) (hinb3_6 i)).WholeWords (EltTy.packing .bf16)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x8192.size a ≤ S1x8192.size a
  hwx3_7 : ∀ i : grid3.Coords, EltTy.bits .f32 = 32 ∨ (Rect.block (s := S1x8192) S1x8192.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S256x256.size a ≤ S4096x256.size a
  hwx3_8 : ∀ i : grid3.Coords, EltTy.bits .f32 = 32 ∨ (Rect.block (s := S4096x256) S256x256.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S256x8192.size a ≤ S4096x8192.size a
  hwx3_9 : ∀ i : grid3.Coords, EltTy.bits .f32 = 32 ∨ (Rect.block (s := S4096x8192) S256x8192.size (cc3_transform_9 i) (hinb3_9 i)).WholeWords (EltTy.packing .f32)

variable [Facts₀]

def gather_S151x200_S4096x1_S4096x200_1_0_n_n_0_1_1200 : GatherDims S151x200 S4096x1 S4096x200 where
  offsetDims := [1]
  collapsedSliceDims := [0]
  operandBatchingDims := []
  startIndicesBatchingDims := []
  startIndexMap := [0]
  indexVectorDim := 1
  sliceSizes := ![1, 200]
  wf := gather_S151x200_S4096x1_S4096x200_1_0_n_n_0_1_1200_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S256x256_S256x4096_S256x4096_1_0_0_1_n_n : DotDims S256x256 S256x4096 S256x4096 where
  lhsContracting := [1]
  rhsContracting := [0]
  lhsNonContracting := [0]
  rhsNonContracting := [1]
  lhsBatch := []
  rhsBatch := []
  wf := dot_S256x256_S256x4096_S256x4096_1_0_0_1_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf
def dot_S256x256_S256x512_S256x512_1_0_0_1_n_n : DotDims S256x256 S256x512 S256x512 where
  lhsContracting := [1]
  rhsContracting := [0]
  lhsNonContracting := [0]
  rhsNonContracting := [1]
  lhsBatch := []
  rhsBatch := []
  wf := dot_S256x256_S256x512_S256x512_1_0_0_1_n_n_wf
def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S256x128_S128x4096_S256x4096_1_0_0_1_n_n : DotDims S256x128 S128x4096 S256x4096 where
  lhsContracting := [1]
  rhsContracting := [0]
  lhsNonContracting := [0]
  rhsNonContracting := [1]
  lhsBatch := []
  rhsBatch := []
  wf := dot_S256x128_S128x4096_S256x4096_1_0_0_1_n_n_wf
def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf
def dot_S256x256_S256x8192_S256x8192_1_0_0_1_n_n : DotDims S256x256 S256x8192 S256x8192 where
  lhsContracting := [1]
  rhsContracting := [0]
  lhsNonContracting := [0]
  rhsNonContracting := [1]
  lhsBatch := []
  rhsBatch := []
  wf := dot_S256x256_S256x8192_S256x8192_1_0_0_1_n_n_wf

abbrev win0_0 : Pipeline.Window sig grid0 :=
  Pipeline.Window.ofSpec (Memref.whole main_v8) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29_0) S512x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v29_1) S512x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v29_2) S512x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v29_0) S256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29_1) S4096x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29_2) S4096x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S256x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v30) S256x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S512x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v33) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v34) S256x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v34) S512x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S256x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v45) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v46_0) S512x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v46_1) S512x128.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v46_2) S512x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v46_0) S256x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v46_1) S4096x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v46_2) S4096x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v34) S256x256.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v47) S128x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v49) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v48) S256x8192.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v50) S1x8192.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v51_0) S256x256.size cc3_transform_8 reads3_8 true false 2 stage3_8 sem3_8
    hrank3 hreads3_8 hinb3_8 nbuf3_8 (Memref.isWhole_whole _) hwx3_8 hstage3_8

abbrev win3_9 : Pipeline.Window sig grid3 :=
  Pipeline.Window.ofSpec (Memref.whole main_v51_1) S256x8192.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S4096x256 : Shape := ⟨2, ![4096, 256]⟩
abbrev S4096 : Shape := ⟨1, ![4096]⟩
abbrev S151x200 : Shape := ⟨2, ![151, 200]⟩
abbrev S228x456 : Shape := ⟨2, ![228, 456]⟩
abbrev S228 : Shape := ⟨1, ![228]⟩
abbrev S456x228 : Shape := ⟨2, ![456, 228]⟩
abbrev S456 : Shape := ⟨1, ![456]⟩
abbrev S256x456 : Shape := ⟨2, ![256, 456]⟩
abbrev S256 : Shape := ⟨1, ![256]⟩
abbrev S128x256 : Shape := ⟨2, ![128, 256]⟩
abbrev S128 : Shape := ⟨1, ![128]⟩
abbrev S256x128 : Shape := ⟨2, ![256, 128]⟩
abbrev S8192x256 : Shape := ⟨2, ![8192, 256]⟩
abbrev S8192 : Shape := ⟨1, ![8192]⟩
abbrev S_ : Shape := ⟨0, ![]⟩
abbrev S4096x1 : Shape := ⟨2, ![4096, 1]⟩
abbrev S4096x200 : Shape := ⟨2, ![4096, 200]⟩
abbrev S4096x456 : Shape := ⟨2, ![4096, 456]⟩
abbrev S4096x228 : Shape := ⟨2, ![4096, 228]⟩
abbrev S1x228 : Shape := ⟨2, ![1, 228]⟩
abbrev S228x4096 : Shape := ⟨2, ![228, 4096]⟩
abbrev S4096x4096 : Shape := ⟨2, ![4096, 4096]⟩
abbrev S1x456 : Shape := ⟨2, ![1, 456]⟩
abbrev S456x256 : Shape := ⟨2, ![456, 256]⟩
abbrev S1x256 : Shape := ⟨2, ![1, 256]⟩
abbrev S4096x128 : Shape := ⟨2, ![4096, 128]⟩
abbrev S1x128 : Shape := ⟨2, ![1, 128]⟩
abbrev S128x4096 : Shape := ⟨2, ![128, 4096]⟩
abbrev S256x8192 : Shape := ⟨2, ![256, 8192]⟩
abbrev S4096x8192 : Shape := ⟨2, ![4096, 8192]⟩
abbrev S1x8192 : Shape := ⟨2, ![1, 8192]⟩

abbrev nBuf : Space → Nat
  | .hbm => 119
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096, .i32⟩
  | .hbm, ⟨2, _⟩ => ⟨S151x200, .f32⟩
  | .hbm, ⟨3, _⟩ => ⟨S228x456, .f32⟩
  | .hbm, ⟨4, _⟩ => ⟨S228, .f32⟩
  | .hbm, ⟨5, _⟩ => ⟨S228x456, .f32⟩
  | .hbm, ⟨6, _⟩ => ⟨S228, .f32⟩
  | .hbm, ⟨7, _⟩ => ⟨S228x456, .f32⟩
  | .hbm, ⟨8, _⟩ => ⟨S228, .f32⟩
  | .hbm, ⟨9, _⟩ => ⟨S456x228, .f32⟩
  | .hbm, ⟨10, _⟩ => ⟨S456, .f32⟩
  | .hbm, ⟨11, _⟩ => ⟨S256x456, .f32⟩
  | .hbm, ⟨12, _⟩ => ⟨S256, .f32⟩
  | .hbm, ⟨13, _⟩ => ⟨S128x256, .f32⟩
  | .hbm, ⟨14, _⟩ => ⟨S128, .f32⟩
  | .hbm, ⟨15, _⟩ => ⟨S128x256, .f32⟩
  | .hbm, ⟨16, _⟩ => ⟨S128, .f32⟩
  | .hbm, ⟨17, _⟩ => ⟨S128x256, .f32⟩
  | .hbm, ⟨18, _⟩ => ⟨S128, .f32⟩
  | .hbm, ⟨19, _⟩ => ⟨S256x128, .f32⟩
  | .hbm, ⟨20, _⟩ => ⟨S256, .f32⟩
  | .hbm, ⟨21, _⟩ => ⟨S8192x256, .f32⟩
  | .hbm, ⟨22, _⟩ => ⟨S8192, .f32⟩
  | .hbm, ⟨23, _⟩ => ⟨S_, .i32⟩
  | .hbm, ⟨24, _⟩ => ⟨S4096, .i32⟩
  | .hbm, ⟨25, _⟩ => ⟨S4096, .i1⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S4096, .i32⟩
  | .hbm, ⟨30, _⟩ => ⟨S4096x1, .i32⟩
  | .hbm, ⟨31, _⟩ => ⟨S4096x200, .f32⟩
  | .hbm, ⟨32, _⟩ => ⟨S4096x456, .f32⟩
  | .hbm, ⟨33, _⟩ => ⟨S456x228, .f32⟩
  | .hbm, ⟨34, _⟩ => ⟨S4096x228, .f32⟩
  | .hbm, ⟨35, _⟩ => ⟨S1x228, .f32⟩
  | .hbm, ⟨36, _⟩ => ⟨S4096x228, .f32⟩
  | .hbm, ⟨37, _⟩ => ⟨S4096x228, .f32⟩
  | .hbm, ⟨38, _⟩ => ⟨S456x228, .f32⟩
  | .hbm, ⟨39, _⟩ => ⟨S4096x228, .f32⟩
  | .hbm, ⟨40, _⟩ => ⟨S1x228, .f32⟩
  | .hbm, ⟨41, _⟩ => ⟨S4096x228, .f32⟩
  | .hbm, ⟨42, _⟩ => ⟨S4096x228, .f32⟩
  | .hbm, ⟨43, _⟩ => ⟨S456x228, .f32⟩
  | .hbm, ⟨44, _⟩ => ⟨S4096x228, .f32⟩
  | .hbm, ⟨45, _⟩ => ⟨S1x228, .f32⟩
  | .hbm, ⟨46, _⟩ => ⟨S4096x228, .f32⟩
  | .hbm, ⟨47, _⟩ => ⟨S4096x228, .f32⟩
  | .hbm, ⟨48, _⟩ => ⟨S228x4096, .f32⟩
  | .hbm, ⟨49, _⟩ => ⟨S4096x4096, .f32⟩
  | .hbm, ⟨50, _⟩ => ⟨S_, .f32⟩
  | .hbm, ⟨51, _⟩ => ⟨S4096, .f32⟩
  | .hbm, ⟨52, _⟩ => ⟨S_, .f32⟩
  | .hbm, ⟨53, _⟩ => ⟨S4096, .f32⟩
  | .hbm, ⟨54, _⟩ => ⟨S4096, .f32⟩
  | .hbm, ⟨55, _⟩ => ⟨S4096x1, .f32⟩
  | .hbm, ⟨56, _⟩ => ⟨S4096x4096, .f32⟩
  | .hbm, ⟨57, _⟩ => ⟨S4096x4096, .f32⟩
  | .hbm, ⟨58, _⟩ => ⟨S4096x4096, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x4096, .f32⟩
  | .hbm, ⟨63, _⟩ => ⟨S4096x4096, .f32⟩
  | .hbm, ⟨64, _⟩ => ⟨S4096x228, .f32⟩
  | .hbm, ⟨65, _⟩ => ⟨S228x456, .f32⟩
  | .hbm, ⟨66, _⟩ => ⟨S4096x456, .f32⟩
  | .hbm, ⟨67, _⟩ => ⟨S4096x456, .f32⟩
  | .hbm, ⟨68, _⟩ => ⟨S1x456, .f32⟩
  | .hbm, ⟨69, _⟩ => ⟨S4096x456, .f32⟩
  | .hbm, ⟨70, _⟩ => ⟨S4096x456, .f32⟩
  | .hbm, ⟨71, _⟩ => ⟨S456x256, .f32⟩
  | .hbm, ⟨72, _⟩ => ⟨S4096x256, .f32⟩
  | .hbm, ⟨73, _⟩ => ⟨S1x256, .f32⟩
  | .hbm, ⟨74, _⟩ => ⟨S4096x256, .f32⟩
  | .hbm, ⟨75, _⟩ => ⟨S4096x256, .f32⟩
  | .hbm, ⟨76, _⟩ => ⟨S256x128, .f32⟩
  | .hbm, ⟨77, _⟩ => ⟨S4096x128, .f32⟩
  | .hbm, ⟨78, _⟩ => ⟨S1x128, .f32⟩
  | .hbm, ⟨79, _⟩ => ⟨S4096x128, .f32⟩
  | .hbm, ⟨80, _⟩ => ⟨S4096x128, .f32⟩
  | .hbm, ⟨81, _⟩ => ⟨S256x128, .f32⟩
  | .hbm, ⟨82, _⟩ => ⟨S4096x128, .f32⟩
  | .hbm, ⟨83, _⟩ => ⟨S1x128, .f32⟩
  | .hbm, ⟨84, _⟩ => ⟨S4096x128, .f32⟩
  | .hbm, ⟨85, _⟩ => ⟨S4096x128, .f32⟩
  | .hbm, ⟨86, _⟩ => ⟨S256x128, .f32⟩
  | .hbm, ⟨87, _⟩ => ⟨S4096x128, .f32⟩
  | .hbm, ⟨88, _⟩ => ⟨S1x128, .f32⟩
  | .hbm, ⟨89, _⟩ => ⟨S4096x128, .f32⟩
  | .hbm, ⟨90, _⟩ => ⟨S4096x128, .f32⟩
  | .hbm, ⟨91, _⟩ => ⟨S128x4096, .f32⟩
  | .hbm, ⟨92, _⟩ => ⟨S4096x4096, .f32⟩
  | .hbm, ⟨93, _⟩ => ⟨S_, .f32⟩
  | .hbm, ⟨94, _⟩ => ⟨S4096, .f32⟩
  | .hbm, ⟨95, _⟩ => ⟨S_, .f32⟩
  | .hbm, ⟨96, _⟩ => ⟨S4096, .f32⟩
  | .hbm, ⟨97, _⟩ => ⟨S4096, .f32⟩
  | .hbm, ⟨98, _⟩ => ⟨S4096x1, .f32⟩
  | .hbm, ⟨99, _⟩ => ⟨S4096x4096, .f32⟩
  | .hbm, ⟨100, _⟩ => ⟨S4096x4096, .f32⟩
  | .hbm, ⟨101, _⟩ => ⟨S4096x4096, .f32⟩
  | .hbm, ⟨102, _⟩ => ⟨S_, .f32⟩
  | .hbm, ⟨103, _⟩ => ⟨S4096, .f32⟩
  | .hbm, ⟨104, _⟩ => ⟨S4096x1, .f32⟩
  | .hbm, ⟨105, _⟩ => ⟨S4096x4096, .f32⟩
  | .hbm, ⟨106, _⟩ => ⟨S4096x4096, .f32⟩
  | .hbm, ⟨107, _⟩ => ⟨S4096x128, .f32⟩
  | .hbm, ⟨108, _⟩ => ⟨S128x256, .f32⟩
  | .hbm, ⟨109, _⟩ => ⟨S4096x256, .f32⟩
  | .hbm, ⟨110, _⟩ => ⟨S4096x256, .f32⟩
  | .hbm, ⟨111, _⟩ => ⟨S1x256, .f32⟩
  | .hbm, ⟨112, _⟩ => ⟨S4096x256, .f32⟩
  | .hbm, ⟨113, _⟩ => ⟨S4096x256, .f32⟩
  | .hbm, ⟨114, _⟩ => ⟨S256x8192, .f32⟩
  | .hbm, ⟨115, _⟩ => ⟨S4096x8192, .f32⟩
  | .hbm, ⟨116, _⟩ => ⟨S1x8192, .f32⟩
  | .hbm, ⟨117, _⟩ => ⟨S4096x8192, .f32⟩
  | .hbm, ⟨118, _⟩ => ⟨S4096x8192, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_c : Ref sig .tc := ⟨.hbm, 23, rfl⟩
abbrev main_v0 : Ref sig .tc := ⟨.hbm, 24, rfl⟩
abbrev main_v1 : Ref sig .tc := ⟨.hbm, 25, rfl⟩
abbrev main_c_0 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst : Ref sig .tc := ⟨.hbm, 50, rfl⟩
abbrev main_v25 : Ref sig .tc := ⟨.hbm, 51, rfl⟩
abbrev main_cst_1 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_2 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_3 : Ref sig .tc := ⟨.hbm, 93, rfl⟩
abbrev main_v65 : Ref sig .tc := ⟨.hbm, 94, rfl⟩
abbrev main_cst_4 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_5 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  concatenates_S4096x200_S4096x256_S4096x456_d1 : Shape.Concatenates [S4096x200, S4096x256] S4096x456 1
  transposes_S228x456_S456x228_1_0 : S228x456.Transposes [1, 0] S456x228
  bcast_S228_S1x228_1 : S228.BroadcastsInDim S1x228 (![1] : Fin 1 → Fin S1x228.rank)
  bcast_S1x228_S4096x228_0_1 : S1x228.BroadcastsInDim S4096x228 (![0, 1] : Fin 2 → Fin S4096x228.rank)
  transposes_S4096x228_S228x4096_1_0 : S4096x228.Transposes [1, 0] S228x4096
  reducesTo_S4096x4096_S4096_d1 : S4096x4096.ReducesTo [1] S4096
  h_S_ : 0 < S_.numel
  bcast_S4096x1_S4096x4096_0_1 : S4096x1.BroadcastsInDim S4096x4096 (![0, 1] : Fin 2 → Fin S4096x4096.rank)
  transposes_S456x228_S228x456_1_0 : S456x228.Transposes [1, 0] S228x456
  bcast_S456_S1x456_1 : S456.BroadcastsInDim S1x456 (![1] : Fin 1 → Fin S1x456.rank)
  bcast_S1x456_S4096x456_0_1 : S1x456.BroadcastsInDim S4096x456 (![0, 1] : Fin 2 → Fin S4096x456.rank)
  transposes_S256x456_S456x256_1_0 : S256x456.Transposes [1, 0] S456x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  transposes_S128x256_S256x128_1_0 : S128x256.Transposes [1, 0] S256x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  transposes_S4096x128_S128x4096_1_0 : S4096x128.Transposes [1, 0] S128x4096
  transposes_S256x128_S128x256_1_0 : S256x128.Transposes [1, 0] S128x256
  transposes_S8192x256_S256x8192_1_0 : S8192x256.Transposes [1, 0] S256x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  gather_S151x200_S4096x1_S4096x200_1_0_n_n_0_1_1200_wf : GatherDims.WF S151x200 S4096x1 S4096x200 [1] [0] [] [0] [] 1 ![1, 200]
  dot_S4096x456_S456x228_S4096x228_1_0_0_1_n_n_wf : DotDims.WF S4096x456 S456x228 S4096x228 [1] [0] [0] [1] [] []
  dot_S4096x228_S228x4096_S4096x4096_1_0_0_1_n_n_wf : DotDims.WF S4096x228 S228x4096 S4096x4096 [1] [0] [0] [1] [] []
  dot_S4096x4096_S4096x228_S4096x228_1_0_0_1_n_n_wf : DotDims.WF S4096x4096 S4096x228 S4096x228 [1] [0] [0] [1] [] []
  dot_S4096x228_S228x456_S4096x456_1_0_0_1_n_n_wf : DotDims.WF S4096x228 S228x456 S4096x456 [1] [0] [0] [1] [] []
  dot_S4096x456_S456x256_S4096x256_1_0_0_1_n_n_wf : DotDims.WF S4096x456 S456x256 S4096x256 [1] [0] [0] [1] [] []
  dot_S4096x256_S256x128_S4096x128_1_0_0_1_n_n_wf : DotDims.WF S4096x256 S256x128 S4096x128 [1] [0] [0] [1] [] []
  dot_S4096x128_S128x4096_S4096x4096_1_0_0_1_n_n_wf : DotDims.WF S4096x128 S128x4096 S4096x4096 [1] [0] [0] [1] [] []
  dot_S4096x4096_S4096x128_S4096x128_1_0_0_1_n_n_wf : DotDims.WF S4096x4096 S4096x128 S4096x128 [1] [0] [0] [1] [] []
  dot_S4096x128_S128x256_S4096x256_1_0_0_1_n_n_wf : DotDims.WF S4096x128 S128x256 S4096x256 [1] [0] [0] [1] [] []
  dot_S4096x256_S256x8192_S4096x8192_1_0_0_1_n_n_wf : DotDims.WF S4096x256 S256x8192 S4096x8192 [1] [0] [0] [1] [] []

variable [Facts₀]

def gather_S151x200_S4096x1_S4096x200_1_0_n_n_0_1_1200 : GatherDims S151x200 S4096x1 S4096x200 where
  offsetDims := [1]
  collapsedSliceDims := [0]
  operandBatchingDims := []
  startIndicesBatchingDims := []
  startIndexMap := [0]
  indexVectorDim := 1
  sliceSizes := ![1, 200]
  wf := gather_S151x200_S4096x1_S4096x200_1_0_n_n_0_1_1200_wf
def dot_S4096x456_S456x228_S4096x228_1_0_0_1_n_n : DotDims S4096x456 S456x228 S4096x228 where
  lhsContracting := [1]
  rhsContracting := [0]
  lhsNonContracting := [0]
  rhsNonContracting := [1]
  lhsBatch := []
  rhsBatch := []
  wf := dot_S4096x456_S456x228_S4096x228_1_0_0_1_n_n_wf
def dot_S4096x228_S228x4096_S4096x4096_1_0_0_1_n_n : DotDims S4096x228 S228x4096 S4096x4096 where
  lhsContracting := [1]
  rhsContracting := [0]
  lhsNonContracting := [0]
  rhsNonContracting := [1]
  lhsBatch := []
  rhsBatch := []
  wf := dot_S4096x228_S228x4096_S4096x4096_1_0_0_1_n_n_wf
def dot_S4096x4096_S4096x228_S4096x228_1_0_0_1_n_n : DotDims S4096x4096 S4096x228 S4096x228 where
  lhsContracting := [1]
  rhsContracting := [0]
  lhsNonContracting := [0]
  rhsNonContracting := [1]
  lhsBatch := []
  rhsBatch := []
  wf := dot_S4096x4096_S4096x228_S4096x228_1_0_0_1_n_n_wf
def dot_S4096x228_S228x456_S4096x456_1_0_0_1_n_n : DotDims S4096x228 S228x456 S4096x456 where
  lhsContracting := [1]
  rhsContracting := [0]
  lhsNonContracting := [0]
  rhsNonContracting := [1]
  lhsBatch := []
  rhsBatch := []
  wf := dot_S4096x228_S228x456_S4096x456_1_0_0_1_n_n_wf
def dot_S4096x456_S456x256_S4096x256_1_0_0_1_n_n : DotDims S4096x456 S456x256 S4096x256 where
  lhsContracting := [1]
  rhsContracting := [0]
  lhsNonContracting := [0]
  rhsNonContracting := [1]
  lhsBatch := []
  rhsBatch := []
  wf := dot_S4096x456_S456x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x256_S256x8192_S4096x8192_1_0_0_1_n_n : DotDims S4096x256 S256x8192 S4096x8192 where
  lhsContracting := [1]
  rhsContracting := [0]
  lhsNonContracting := [0]
  rhsNonContracting := [1]
  lhsBatch := []
  rhsBatch := []
  wf := dot_S4096x256_S256x8192_S4096x8192_1_0_0_1_n_n_wf

class Facts : Prop extends Facts₀ where

variable [Facts]
-- ==== Proof.KernelRun.lean ====
/-
  The idealized kernel's run with its two results named.

  The program is four pipelined regions among stretches of host operations. Its run is the composition of those
  segments, and the contents of every buffer at each segment boundary are a fold from the launch memory: a host
  stretch rewrites the buffers its operations write, a region leaves in each of its arrays what its write-backs
  leave. Every weakly fair execution from a memory with zero counters terminates without a fault, each result
  buffer ends at the fold's last stage read at that buffer, and each argument array ends as launched.
-/
import proofs.«178282_j721554506169_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the two result buffers end at the
    last boundary's contents, and the argument arrays end as launched. -/
theorem run_results : θ_run defs (onTc (τ := τ) (main (F := F))) ⟨m, fun _ => 0, ρ⟩ (fun r => ∀ c : Dev nD,
      r.2.mem ((c.tc : Thread nD τ).loc main_v51_0) = W28 m ρ c (Proc.devRef .tc main_v51_0)
      ∧ r.2.mem ((c.tc : Thread nD τ).loc main_v51_1) = W28 m ρ c (Proc.devRef .tc main_v51_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W28 m ρ c b)
    (hfin := fun c s' => by
      iintro ⟨⟨Hh, -⟩, HSI⟩
      unfold StableHlo.held
      imodintro
      iapply (pointsTo_read_all (Pipeline.ucRefs τ sig) (fun b => (((c : Thread nD τ)).1, b)) (W28 m ρ c) s')
      isplitl [Hh] <;> iassumption)
    (hQ := fun s h c =>
      ⟨h c _ (mem_uc main_v51_0 (by decide)),
       h c _ (mem_uc main_v51_1 (by decide)),
       (h c _ (mem_uc main_arg0 (by decide))).trans (W28_main_arg0 m ρ c),
       (h c _ (mem_uc main_arg1 (by decide))).trans (W28_main_arg1 m ρ c),
       (h c _ (mem_uc main_arg2 (by decide))).trans (W28_main_arg2 m ρ c),
       (h c _ (mem_uc main_arg3 (by decide))).trans (W28_main_arg3 m ρ c),
       (h c _ (mem_uc main_arg4 (by decide))).trans (W28_main_arg4 m ρ c),
       (h c _ (mem_uc main_arg5 (by decide))).trans (W28_main_arg5 m ρ c),
       (h c _ (mem_uc main_arg6 (by decide))).trans (W28_main_arg6 m ρ c),
       (h c _ (mem_uc main_arg7 (by decide))).trans (W28_main_arg7 m ρ c),
       (h c _ (mem_uc main_arg8 (by decide))).trans (W28_main_arg8 m ρ c),
       (h c _ (mem_uc main_arg9 (by decide))).trans (W28_main_arg9 m ρ c),
       (h c _ (mem_uc main_arg10 (by decide))).trans (W28_main_arg10 m ρ c),
       (h c _ (mem_uc main_arg11 (by decide))).trans (W28_main_arg11 m ρ c),
       (h c _ (mem_uc main_arg12 (by decide))).trans (W28_main_arg12 m ρ c),
       (h c _ (mem_uc main_arg13 (by decide))).trans (W28_main_arg13 m ρ c),
       (h c _ (mem_uc main_arg14 (by decide))).trans (W28_main_arg14 m ρ c),
       (h c _ (mem_uc main_arg15 (by decide))).trans (W28_main_arg15 m ρ c),
       (h c _ (mem_uc main_arg16 (by decide))).trans (W28_main_arg16 m ρ c),
       (h c _ (mem_uc main_arg17 (by decide))).trans (W28_main_arg17 m ρ c),
       (h c _ (mem_uc main_arg18 (by decide))).trans (W28_main_arg18 m ρ c),
       (h c _ (mem_uc main_arg19 (by decide))).trans (W28_main_arg19 m ρ c),
       (h c _ (mem_uc main_arg20 (by decide))).trans (W28_main_arg20 m ρ c),
       (h c _ (mem_uc main_arg21 (by decide))).trans (W28_main_arg21 m ρ c),
       (h c _ (mem_uc main_arg22 (by decide))).trans (W28_main_arg22 m ρ c)⟩)

end Cert.KernelIdeal.RunValue

end
-- ==== Proof.AttnSpec.lean ====
/-
  The mathematics both programs compute, stated once over extended reals and over matrices of any extents.

  A "relation embedding" block takes a matrix `x` of N rows, forms three linear images q, k, v of each row,
  weighs every row m against row n by the softmax over m of the inner products ⟨q n, k m⟩, mixes the rows of v with
  those weights, maps the mixture back to the width of `x` and adds it (and a bias) to `x`; a last linear layer
  gives the second output. Two such blocks are stacked.

  Two spellings of the same block are given. In the first a weight matrix holds one ROW per output and a bias is a
  vector. In the second the weight matrix is stored transposed (one COLUMN per output) and a bias is a matrix of one
  row. The second is also what one reads when the row width has been extended by zero columns; `PadAlgebra` joins
  the two.
-/
import Idealize.ShloMosaic.PureOps.Ideal
import Idealize.ShloMosaic.Lib.ValueIdx

noncomputable section

namespace Cert.AttnSpec

open Idealize.ShloMosaic Idealize.ShloMosaic.ValueIdx

/-- A matrix of extended reals with `a` rows and `b` columns, indexed as the arrays of the programs are. -/
abbrev Mat (a b : Nat) : Type := (⟨2, ![a, b]⟩ : Shape).Idx → EReal
/-- A vector of extended reals of length `a`. -/
abbrev Vect (a : Nat) : Type := (⟨1, ![a]⟩ : Shape).Idx → EReal

/-- The seed of a row maximum: the f32 word of minus infinity, kept as the word both programs spell. -/
abbrev negInf : EReal := Ideal.ofBits .f32 0xFF800000#32

variable {N M I J O : Nat}

/-- Inner products of the rows of `q` with the rows of `k`. -/
def scores (q : Mat N J) (k : Mat M J) : Mat N M :=
  fun j => ∑ t : Fin J, q (ix2 (j 0) t) * k (ix2 (j 1) t)

/-- The greatest entry of row `n`, as the fold of `max` from minus infinity. -/
def rowMax (s : Mat N M) (n : Fin N) : EReal :=
  (Finset.univ : Finset (Fin M)).fold max negInf (fun m => s (ix2 n m))

/-- Each entry less its row's greatest entry, exponentiated. -/
def expShift (s : Mat N M) : Mat N M := fun j => Ideal.exp (s j - rowMax s (j 0))

/-- The sum of row `n`. -/
def rowSum (e : Mat N M) (n : Fin N) : EReal := ∑ m : Fin M, e (ix2 n m)

/-- The softmax of each row. -/
def soft (s : Mat N M) : Mat N M := fun j => Ideal.div (expShift s j) (rowSum (expShift s) (j 0))

/-- Row n of the result is the combination of the rows of `v` with the weights of row n of `a`. -/
def mix (a : Mat N M) (v : Mat M J) : Mat N J :=
  fun j => ∑ m : Fin M, a (ix2 (j 0) m) * v (ix2 m (j 1))

/-! ## Weights with one row per output, biases as vectors -/

/-- `x · wᵀ + b`. -/
def lin (x : Mat N I) (w : Mat O I) (b : Vect O) : Mat N O :=
  fun j => (∑ i : Fin I, x (ix2 (j 0) i) * w (ix2 (j 1) i)) + b (ix1 (j 1))

/-- `x + av · w0ᵀ + b0`. -/
def resid (x : Mat N I) (av : Mat N J) (w0 : Mat I J) (b0 : Vect I) : Mat N I :=
  fun j => x j + (∑ t : Fin J, av (ix2 (j 0) t) * w0 (ix2 (j 1) t)) + b0 (ix1 (j 1))

/-- The first output of a block. -/
def out1 (x : Mat N I) (wq : Mat J I) (bq : Vect J) (wk : Mat J I) (bk : Vect J) (wv : Mat J I) (bv : Vect J)
    (w0 : Mat I J) (b0 : Vect I) : Mat N I :=
  resid x (mix (soft (scores (lin x wq bq) (lin x wk bk))) (lin x wv bv)) w0 b0

/-- The second output of a block. -/
def out2 (x : Mat N I) (wq : Mat J I) (bq : Vect J) (wk : Mat J I) (bk : Vect J) (wv : Mat J I) (bv : Vect J)
    (w0 : Mat I J) (b0 : Vect I) (w1 : Mat O I) (b1 : Vect O) : Mat N O :=
  lin (out1 x wq bq wk bk wv bv w0 b0) w1 b1

/-! ## Weights stored transposed, biases as one-row matrices -/

/-- `x · wT + b`, the weight stored with one column per output. -/
def linT (x : Mat N I) (wT : Mat I O) (b : Mat 1 O) : Mat N O :=
  fun j => (∑ i : Fin I, x (ix2 (j 0) i) * wT (ix2 i (j 1))) + b (ix2 0 (j 1))

/-- `x + av · w0T + b0`. -/
def residT (x : Mat N I) (av : Mat N J) (w0T : Mat J I) (b0 : Mat 1 I) : Mat N I :=
  fun j => x j + (∑ t : Fin J, av (ix2 (j 0) t) * w0T (ix2 t (j 1))) + b0 (ix2 0 (j 1))

/-- The first output of a block from its three projected matrices. -/
def out1T (q : Mat N J) (k : Mat M J) (v : Mat M J) (x : Mat N I) (w0T : Mat J I) (b0 : Mat 1 I) : Mat N I :=
  residT x (mix (soft (scores q k)) v) w0T b0

/-- The second output of a block from its three projected matrices. -/
def out2T (q : Mat N J) (k : Mat M J) (v : Mat M J) (x : Mat N I) (w0T : Mat J I) (b0 : Mat 1 I)
    (w1T : Mat I O) (b1 : Mat 1 O) : Mat N O :=
  linT (out1T q k v x w0T b0) w1T b1

end Cert.AttnSpec

end
-- ==== Proof.AttnPad.lean ====
/-
  Widening by zeros, transposition, and a vector as a one-row matrix: the three re-arrangements that separate the
  two spellings of a block.

  `padCols b x` extends every row of `x` to width `b` by zero entries; `padRows b x` adds zero rows below;
  `padVec b v` extends a vector by zeros; `tr x` is the transpose; `rowOf v` is `v` as a matrix of one row.
-/
import proofs.«178282_j721554506169_2_alg».proof.Proof.AttnSpec

noncomputable section

namespace Cert.AttnSpec

open Idealize.ShloMosaic Idealize.ShloMosaic.ValueIdx

variable {N M a : Nat}

/-- Rows extended to width `b` by zeros. -/
def padCols (b : Nat) (x : Mat N a) : Mat N b :=
  fun j => if h : (j 1).val < a then x (ix2 (j 0) ⟨(j 1).val, h⟩) else 0

/-- Zero rows added below, up to `b` rows. -/
def padRows (b : Nat) (x : Mat a M) : Mat b M :=
  fun j => if h : (j 0).val < a then x (ix2 ⟨(j 0).val, h⟩ (j 1)) else 0

/-- A vector extended to length `b` by zeros. -/
def padVec (b : Nat) (v : Vect a) : Vect b :=
  fun j => if h : (j 0).val < a then v (ix1 ⟨(j 0).val, h⟩) else 0

/-- The transpose. -/
def tr (x : Mat N M) : Mat M N := fun j => x (ix2 (j 1) (j 0))

/-- A vector as a matrix of one row. -/
def rowOf (v : Vect a) : Mat 1 a := fun j => v (ix1 (j 1))

end Cert.AttnSpec

end
-- ==== Proof.HostLayout.lean ====
/-
  The host's re-arrangements read as mathematics.

  A zero-valued `pad` at the high end of each axis is `padRows` after `padCols`; the transpose with the two axes
  exchanged is `tr`; the reshape of a vector to a matrix of one row is `rowOf`; a change of float format is the
  identity on extended reals; and the integer zero converted to a float is the extended real zero.
-/
import proofs.«178282_j721554506169_2_alg».proof.Proof.AttnPad
import Idealize.ShloMosaic.Lib.Pipeline.Value
import Idealize.ShloMosaic.Lib.KernelVsHost
import Idealize.ShloMosaic.PureOps.Ideal

noncomputable section

namespace Cert.AttnSpec

open Idealize.ShloMosaic Idealize.ShloMosaic.ValueIdx

variable {a b a' b' : Nat}

/-- Padding the rows up to the number of rows there are changes nothing. -/
theorem padRows_self (x : Mat a b) : padRows a x = x := by
  funext j
  obtain ⟨p, q, rfl⟩ : ∃ (p : Fin a) (q : Fin b), j = ix2 p q := ⟨j 0, j 1, eq_ix2 j⟩
  show (if h : p.val < a then x (ix2 ⟨p.val, h⟩ q) else 0) = x (ix2 p q)
  rw [dif_pos p.isLt]

/-- Padding the columns up to the width there is changes nothing. -/
theorem padCols_self (x : Mat a b) : padCols b x = x := by
  funext j
  obtain ⟨p, q, rfl⟩ : ∃ (p : Fin a) (q : Fin b), j = ix2 p q := ⟨j 0, j 1, eq_ix2 j⟩
  show (if h : q.val < b then x (ix2 p ⟨q.val, h⟩) else 0) = x (ix2 p q)
  rw [dif_pos q.isLt]

/-- A matrix padded at the high end of both axes with a value that is zero. -/
theorem pad2_eq (x : Mat a b) (hi : Fin 2 → Nat) {u : Shape} (v : u.Idx → EReal)
    (h : (⟨2, ![a, b]⟩ : Shape).Pads ![0, 0] hi ![0, 0] ⟨2, ![a', b']⟩) (hu : 0 < u.numel)
    (hv : v (Shape.Idx.first hu) = 0) :
    pad ⟨2, ![a', b']⟩ ![0, 0] hi ![0, 0] x v h hu = padRows a' (padCols b' x) := by
  funext j
  obtain ⟨p, q, rfl⟩ : ∃ (p : Fin a') (q : Fin b'), j = ix2 p q := ⟨j 0, j 1, eq_ix2 j⟩
  show _ = (if hp : p.val < a then (if hq : q.val < b then x (ix2 ⟨p.val, hp⟩ ⟨q.val, hq⟩) else 0) else 0)
  by_cases hp : p.val < a
  · by_cases hq : q.val < b
    · rw [dif_pos hp, dif_pos hq]
      refine pad_apply_of_inside _ _ _ x v h hu _ (ix2 ⟨p.val, hp⟩ ⟨q.val, hq⟩) (fun d => ?_)
      match d with
      | ⟨0, _⟩ => simp
      | ⟨1, _⟩ => simp
    · rw [dif_pos hp, dif_neg hq, ← hv]
      refine pad_apply_of_not_inside _ _ _ x v h hu _ ⟨1, Nat.one_lt_two⟩ (fun hc => hq ?_)
      simpa using hc.2.2
  · rw [dif_neg hp, ← hv]
    refine pad_apply_of_not_inside _ _ _ x v h hu _ ⟨0, Nat.zero_lt_two⟩ (fun hc => hp ?_)
    simpa using hc.2.2

/-- A vector padded at its high end with a value that is zero. -/
theorem pad1_eq (x : Vect a) (hi : Fin 1 → Nat) {u : Shape} (v : u.Idx → EReal)
    (h : (⟨1, ![a]⟩ : Shape).Pads ![0] hi ![0] ⟨1, ![a']⟩) (hu : 0 < u.numel)
    (hv : v (Shape.Idx.first hu) = 0) :
    pad ⟨1, ![a']⟩ ![0] hi ![0] x v h hu = padVec a' x := by
  funext j
  obtain ⟨p, rfl⟩ : ∃ (p : Fin a'), j = ix1 p := ⟨j 0, eq_ix1 j⟩
  show _ = (if hp : p.val < a then x (ix1 ⟨p.val, hp⟩) else 0)
  by_cases hp : p.val < a
  · rw [dif_pos hp]
    refine pad_apply_of_inside _ _ _ x v h hu _ (ix1 ⟨p.val, hp⟩) (fun d => ?_)
    match d with
    | ⟨0, _⟩ => simp
  · rw [dif_neg hp, ← hv]
    refine pad_apply_of_not_inside _ _ _ x v h hu _ ⟨0, Nat.zero_lt_one⟩ (fun hc => hp ?_)
    simpa using hc.2.2

/-- The transpose that exchanges the two axes. -/
theorem transpose_eq_tr (x : Mat a b) (h : (⟨2, ![a, b]⟩ : Shape).Transposes [1, 0] ⟨2, ![b, a]⟩) :
    transpose ⟨2, ![b, a]⟩ [1, 0] x h = tr x := by
  funext j
  obtain ⟨p, q, rfl⟩ : ∃ (p : Fin b) (q : Fin a), j = ix2 p q := ⟨j 0, j 1, eq_ix2 j⟩
  show _ = x (ix2 q p)
  refine transpose_apply _ x h _ (ix2 q p) (fun d => ?_)
  match d with
  | ⟨0, _⟩ => rfl
  | ⟨1, _⟩ => rfl

/-- A vector reshaped to a matrix of one row. -/
theorem shapeCast_eq_rowOf (x : Vect a) (h : (⟨1, ![a]⟩ : Shape).ShapeCasts ⟨2, ![1, a]⟩) :
    shapeCast ⟨2, ![1, a]⟩ x h = rowOf x := by
  funext j
  obtain ⟨p, q, rfl⟩ : ∃ (p : Fin 1) (q : Fin a), j = ix2 p q := ⟨j 0, j 1, eq_ix2 j⟩
  show _ = x (ix1 q)
  refine shapeCast_apply x h _ (ix1 q) ?_
  rw [Shape.rowMajor_val_one, Shape.rowMajor_val_two]
  have : p.val = 0 := by omega
  show q.val = p.val * a + q.val
  rw [this, Nat.zero_mul, Nat.zero_add]

/-- The integer zero converted to a float is zero. -/
theorem sitofp_zero {s : Shape} (i : s.Idx) : (sitofp (F := Ideal) .f32 (constantI s 32 0#32)) i = (0 : EReal) := by
  show (((0#32 : BitVec 32).toInt : ℝ) : EReal) = 0
  simp

end Cert.AttnSpec

end
-- ==== Proof.Glue0.lean ====
/-
  What the first projection region finds in its seven input arrays.

  Before the region the host gathers one embedding row per object and joins it to the object's context row (the
  matrix the first block starts from), widens that matrix and the transposed weights by zero columns and rows,
  widens the biases by zeros and reshapes them to one-row matrices. Each array is read back here through the host
  operations to the launch memory and named as a re-arrangement of the program's arguments.
-/
import proofs.«178282_j721554506169_2_alg».proof.Proof.Gen.KernelIdeal.Frame
import proofs.«178282_j721554506169_2_alg».proof.Proof.HostLayout
import Idealize.ShloMosaic.Lib.StableHlo.Run
import Idealize.ShloMosaic.PureOps.Ideal

set_option maxRecDepth 16384

noncomputable section

namespace Cert.KernelIdeal.Glue0

open Cert.KernelIdeal Cert.KernelIdeal.Gen Cert.AttnSpec
open Idealize.ShloMosaic Idealize.ShloMosaic.TcCoe Idealize.SL.Sem Idealize.ShloMosaic.StableHlo

variable (m : (ℓ : Loc nD τ sig) → Buf (Elt Ideal) ℓ) (ρ : Dev nD → PrngReg)

/-- The matrix the first block starts from: each object's embedding row (looked up by its class, a negative class
    counted from the end of the table) beside its context row. -/
def inp (c : Dev nD) : Mat 4096 456 :=
  concatenate S4096x456 1
    [⟨S4096x200, Host.gather gather_S151x200_S4096x1_S4096x200_1_0_n_n_0_1_1200 (m ((c : Thread nD τ).loc main_arg2))
        (broadcastInDim S4096x1 ![0] bcast_S4096_S4096x1_0
          (select (cmpi .slt (m ((c : Thread nD τ).loc main_arg1)) (broadcastInDim S4096 ![] bcast_S_S4096 (constantI S_ 32 0#32)))
            (addi (m ((c : Thread nD τ).loc main_arg1)) (broadcastInDim S4096 ![] bcast_S_S4096 (constantI S_ 32 151#32)))
            (m ((c : Thread nD τ).loc main_arg1))))⟩,
     ⟨S4096x256, m ((c : Thread nD τ).loc main_arg0)⟩]
    concatenates_S4096x200_S4096x256_S4096x456_d1

set_option maxHeartbeats 4000000 in
/-- Window 0: the starting matrix widened from 456 to 512 columns by zeros. -/
theorem win0 (c : Dev nD) :
    (W21 m ρ c (Proc.devRef .tc main_v8) : S4096x512.Idx → EReal) = padCols 512 (inp m c) := by
  after_results
  exact (pad2_eq (inp m c) ![0, 56] _ pads_S4096x456_S4096x512_000_0560 h_S_ (sitofp_zero _)).trans (padRows_self _)
set_option maxHeartbeats 4000000 in
/-- Window 1: the query weight, transposed and widened to 512 rows and 256 columns. -/
theorem win1 (c : Dev nD) :
    (W21 m ρ c (Proc.devRef .tc main_v23) : S512x256.Idx → EReal)
      = padRows 512 (padCols 256 (tr (m ((c : Thread nD τ).loc main_arg3)))) := by
  after_results
  refine (pad2_eq _ ![56, 28] _ pads_S456x228_S512x256_0560_0280 h_S_ (sitofp_zero _)).trans ?_
  rw [transpose_eq_tr]
  rfl

set_option maxHeartbeats 4000000 in
/-- Window 2: the query bias widened to 256 entries, as one row. -/
theorem win2 (c : Dev nD) :
    (W21 m ρ c (Proc.devRef .tc main_v26) : S1x256.Idx → EReal) = rowOf (padVec 256 (m ((c : Thread nD τ).loc main_arg4))) := by
  after_results
  show shapeCast S1x256 (pad S256 ![0] ![28] ![0] (m ((c : Thread nD τ).loc main_arg4)) (sitofp (F := Ideal) .f32 (constantI S_ 32 0#32)) pads_S228_S256_0280 h_S_) shapeCasts_S256_S1x256 = _
  rw [pad1_eq _ ![28] _ pads_S228_S256_0280 h_S_ (sitofp_zero _), shapeCast_eq_rowOf]

set_option maxHeartbeats 4000000 in
/-- Window 3: the key weight, transposed and widened. -/
theorem win3 (c : Dev nD) :
    (W21 m ρ c (Proc.devRef .tc main_v24) : S512x256.Idx → EReal)
      = padRows 512 (padCols 256 (tr (m ((c : Thread nD τ).loc main_arg5)))) := by
  after_results
  refine (pad2_eq _ ![56, 28] _ pads_S456x228_S512x256_0560_0280 h_S_ (sitofp_zero _)).trans ?_
  rw [transpose_eq_tr]
  rfl

set_option maxHeartbeats 4000000 in
/-- Window 4: the key bias widened, as one row. -/
theorem win4 (c : Dev nD) :
    (W21 m ρ c (Proc.devRef .tc main_v27) : S1x256.Idx → EReal) = rowOf (padVec 256 (m ((c : Thread nD τ).loc main_arg6))) := by
  after_results
  show shapeCast S1x256 (pad S256 ![0] ![28] ![0] (m ((c : Thread nD τ).loc main_arg6)) (sitofp (F := Ideal) .f32 (constantI S_ 32 0#32)) pads_S228_S256_0280 h_S_) shapeCasts_S256_S1x256 = _
  rw [pad1_eq _ ![28] _ pads_S228_S256_0280 h_S_ (sitofp_zero _), shapeCast_eq_rowOf]

set_option maxHeartbeats 4000000 in
/-- Window 5: the value weight, transposed and widened. -/
theorem win5 (c : Dev nD) :
    (W21 m ρ c (Proc.devRef .tc main_v25) : S512x256.Idx → EReal)
      = padRows 512 (padCols 256 (tr (m ((c : Thread nD τ).loc main_arg7)))) := by
  after_results
  refine (pad2_eq _ ![56, 28] _ pads_S456x228_S512x256_0560_0280 h_S_ (sitofp_zero _)).trans ?_
  rw [transpose_eq_tr]
  rfl

set_option maxHeartbeats 4000000 in
/-- Window 6: the value bias widened, as one row. -/
theorem win6 (c : Dev nD) :
    (W21 m ρ c (Proc.devRef .tc main_v28) : S1x256.Idx → EReal) = rowOf (padVec 256 (m ((c : Thread nD τ).loc main_arg8))) := by
  after_results
  show shapeCast S1x256 (pad S256 ![0] ![28] ![0] (m ((c : Thread nD τ).loc main_arg8)) (sitofp (F := Ideal) .f32 (constantI S_ 32 0#32)) pads_S228_S256_0280 h_S_) shapeCasts_S256_S1x256 = _
  rw [pad1_eq _ ![28] _ pads_S228_S256_0280 h_S_ (sitofp_zero _), shapeCast_eq_rowOf]

/-- The same, at the array of the region's window 0. -/
theorem arr0 (c : Dev nD) : (V21 m ρ c (Pipeline.arrRef spec0 0) : S4096x512.Idx → EReal) = padCols 512 (inp m c) := win0 m ρ c

/-- The same, at the array of the region's window 1. -/
theorem arr1 (c : Dev nD) : (V21 m ρ c (Pipeline.arrRef spec0 1) : S512x256.Idx → EReal) = padRows 512 (padCols 256 (tr (m ((c : Thread nD τ).loc main_arg3)))) := win1 m ρ c

/-- The same, at the array of the region's window 2. -/
theorem arr2 (c : Dev nD) : (V21 m ρ c (Pipeline.arrRef spec0 2) : S1x256.Idx → EReal) = rowOf (padVec 256 (m ((c : Thread nD τ).loc main_arg4))) := win2 m ρ c

/-- The same, at the array of the region's window 3. -/
theorem arr3 (c : Dev nD) : (V21 m ρ c (Pipeline.arrRef spec0 3) : S512x256.Idx → EReal) = padRows 512 (padCols 256 (tr (m ((c : Thread nD τ).loc main_arg5)))) := win3 m ρ c

/-- The same, at the array of the region's window 4. -/
theorem arr4 (c : Dev nD) : (V21 m ρ c (Pipeline.arrRef spec0 4) : S1x256.Idx → EReal) = rowOf (padVec 256 (m ((c : Thread nD τ).loc main_arg6))) := win4 m ρ c

/-- The same, at the array of the region's window 5. -/
theorem arr5 (c : Dev nD) : (V21 m ρ c (Pipeline.arrRef spec0 5) : S512x256.Idx → EReal) = padRows 512 (padCols 256 (tr (m ((c : Thread nD τ).loc main_arg7)))) := win5 m ρ c

/-- The same, at the array of the region's window 6. -/
theorem arr6 (c : Dev nD) : (V21 m ρ c (Pipeline.arrRef spec0 6) : S1x256.Idx → EReal) = rowOf (padVec 256 (m ((c : Thread nD τ).loc main_arg8))) := win6 m ρ c

end Cert.KernelIdeal.Glue0

end
-- ==== Proof.GlueArgs.lean ====
/-
  The argument arrays at the later segment boundaries.

  No host operation and no region writes an argument array, so at every boundary of the run an argument holds what
  it held at launch. The last boundary's case is known; an earlier boundary's follows by walking forward to the
  last one through segments that do not write the array.
-/
import proofs.«178282_j721554506169_2_alg».proof.Proof.Gen.KernelIdeal.Frame
import proofs.«178282_j721554506169_2_alg».proof.Proof.HostLayout
import Idealize.ShloMosaic.Lib.StableHlo.Run
import Idealize.ShloMosaic.PureOps.Ideal

set_option maxRecDepth 16384

noncomputable section

namespace Cert.KernelIdeal.GlueArgs

open Cert.KernelIdeal Cert.KernelIdeal.Gen Cert.AttnSpec
open Idealize.ShloMosaic Idealize.ShloMosaic.TcCoe Idealize.SL.Sem Idealize.ShloMosaic.StableHlo

variable (m : (ℓ : Loc nD τ sig) → Buf (Elt Ideal) ℓ) (ρ : Dev nD → PrngReg)

/-- Argument 12 is as launched when the second region is about to be prepared: nothing before or after writes it. -/
theorem at22_arg12 (c : Dev nD) : W22 m ρ c (Proc.devRef .tc main_arg12) = m ((c : Thread nD τ).loc main_arg12) := by
  have h1 : W28 m ρ c (Proc.devRef .tc main_arg12) = W27 m ρ c (Proc.devRef .tc main_arg12) := W28_of_ne m ρ c main_arg12 (by decide)
  have h2 : W27 m ρ c (Proc.devRef .tc main_arg12) = W26 m ρ c (Proc.devRef .tc main_arg12) := by after_results
  have h3 : W26 m ρ c (Proc.devRef .tc main_arg12) = W25 m ρ c (Proc.devRef .tc main_arg12) := W26_of_ne m ρ c main_arg12 (by decide)
  have h4 : W25 m ρ c (Proc.devRef .tc main_arg12) = W24 m ρ c (Proc.devRef .tc main_arg12) := by after_results
  have h5 : W24 m ρ c (Proc.devRef .tc main_arg12) = W23 m ρ c (Proc.devRef .tc main_arg12) := W24_of_ne m ρ c main_arg12 (by decide)
  have h6 : W23 m ρ c (Proc.devRef .tc main_arg12) = W22 m ρ c (Proc.devRef .tc main_arg12) := by after_results
  exact (h6.symm.trans (h5.symm.trans (h4.symm.trans (h3.symm.trans (h2.symm.trans h1.symm))))).trans (W28_main_arg12 m ρ c)

/-- Argument 13 is as launched when the third region is about to be prepared: nothing before or after writes it. -/
theorem at24_arg13 (c : Dev nD) : W24 m ρ c (Proc.devRef .tc main_arg13) = m ((c : Thread nD τ).loc main_arg13) := by
  have h1 : W28 m ρ c (Proc.devRef .tc main_arg13) = W27 m ρ c (Proc.devRef .tc main_arg13) := W28_of_ne m ρ c main_arg13 (by decide)
  have h2 : W27 m ρ c (Proc.devRef .tc main_arg13) = W26 m ρ c (Proc.devRef .tc main_arg13) := by after_results
  have h3 : W26 m ρ c (Proc.devRef .tc main_arg13) = W25 m ρ c (Proc.devRef .tc main_arg13) := W26_of_ne m ρ c main_arg13 (by decide)
  have h4 : W25 m ρ c (Proc.devRef .tc main_arg13) = W24 m ρ c (Proc.devRef .tc main_arg13) := by after_results
  exact (h4.symm.trans (h3.symm.trans (h2.symm.trans h1.symm))).trans (W28_main_arg13 m ρ c)

/-- Argument 14 is as launched when the third region is about to be prepared: nothing before or after writes it. -/
theorem at24_arg14 (c : Dev nD) : W24 m ρ c (Proc.devRef .tc main_arg14) = m ((c : Thread nD τ).loc main_arg14) := by
  have h1 : W28 m ρ c (Proc.devRef .tc main_arg14) = W27 m ρ c (Proc.devRef .tc main_arg14) := W28_of_ne m ρ c main_arg14 (by decide)
  have h2 : W27 m ρ c (Proc.devRef .tc main_arg14) = W26 m ρ c (Proc.devRef .tc main_arg14) := by after_results
  have h3 : W26 m ρ c (Proc.devRef .tc main_arg14) = W25 m ρ c (Proc.devRef .tc main_arg14) := W26_of_ne m ρ c main_arg14 (by decide)
  have h4 : W25 m ρ c (Proc.devRef .tc main_arg14) = W24 m ρ c (Proc.devRef .tc main_arg14) := by after_results
  exact (h4.symm.trans (h3.symm.trans (h2.symm.trans h1.symm))).trans (W28_main_arg14 m ρ c)

/-- Argument 15 is as launched when the third region is about to be prepared: nothing before or after writes it. -/
theorem at24_arg15 (c : Dev nD) : W24 m ρ c (Proc.devRef .tc main_arg15) = m ((c : Thread nD τ).loc main_arg15) := by
  have h1 : W28 m ρ c (Proc.devRef .tc main_arg15) = W27 m ρ c (Proc.devRef .tc main_arg15) := W28_of_ne m ρ c main_arg15 (by decide)
  have h2 : W27 m ρ c (Proc.devRef .tc main_arg15) = W26 m ρ c (Proc.devRef .tc main_arg15) := by after_results
  have h3 : W26 m ρ c (Proc.devRef .tc main_arg15) = W25 m ρ c (Proc.devRef .tc main_arg15) := W26_of_ne m ρ c main_arg15 (by decide)
  have h4 : W25 m ρ c (Proc.devRef .tc main_arg15) = W24 m ρ c (Proc.devRef .tc main_arg15) := by after_results
  exact (h4.symm.trans (h3.symm.trans (h2.symm.trans h1.symm))).trans (W28_main_arg15 m ρ c)

/-- Argument 16 is as launched when the third region is about to be prepared: nothing before or after writes it. -/
theorem at24_arg16 (c : Dev nD) : W24 m ρ c (Proc.devRef .tc main_arg16) = m ((c : Thread nD τ).loc main_arg16) := by
  have h1 : W28 m ρ c (Proc.devRef .tc main_arg16) = W27 m ρ c (Proc.devRef .tc main_arg16) := W28_of_ne m ρ c main_arg16 (by decide)
  have h2 : W27 m ρ c (Proc.devRef .tc main_arg16) = W26 m ρ c (Proc.devRef .tc main_arg16) := by after_results
  have h3 : W26 m ρ c (Proc.devRef .tc main_arg16) = W25 m ρ c (Proc.devRef .tc main_arg16) := W26_of_ne m ρ c main_arg16 (by decide)
  have h4 : W25 m ρ c (Proc.devRef .tc main_arg16) = W24 m ρ c (Proc.devRef .tc main_arg16) := by after_results
  exact (h4.symm.trans (h3.symm.trans (h2.symm.trans h1.symm))).trans (W28_main_arg16 m ρ c)

/-- Argument 17 is as launched when the third region is about to be prepared: nothing before or after writes it. -/
theorem at24_arg17 (c : Dev nD) : W24 m ρ c (Proc.devRef .tc main_arg17) = m ((c : Thread nD τ).loc main_arg17) := by
  have h1 : W28 m ρ c (Proc.devRef .tc main_arg17) = W27 m ρ c (Proc.devRef .tc main_arg17) := W28_of_ne m ρ c main_arg17 (by decide)
  have h2 : W27 m ρ c (Proc.devRef .tc main_arg17) = W26 m ρ c (Proc.devRef .tc main_arg17) := by after_results
  have h3 : W26 m ρ c (Proc.devRef .tc main_arg17) = W25 m ρ c (Proc.devRef .tc main_arg17) := W26_of_ne m ρ c main_arg17 (by decide)
  have h4 : W25 m ρ c (Proc.devRef .tc main_arg17) = W24 m ρ c (Proc.devRef .tc main_arg17) := by after_results
  exact (h4.symm.trans (h3.symm.trans (h2.symm.trans h1.symm))).trans (W28_main_arg17 m ρ c)

/-- Argument 18 is as launched when the third region is about to be prepared: nothing before or after writes it. -/
theorem at24_arg18 (c : Dev nD) : W24 m ρ c (Proc.devRef .tc main_arg18) = m ((c : Thread nD τ).loc main_arg18) := by
  have h1 : W28 m ρ c (Proc.devRef .tc main_arg18) = W27 m ρ c (Proc.devRef .tc main_arg18) := W28_of_ne m ρ c main_arg18 (by decide)
  have h2 : W27 m ρ c (Proc.devRef .tc main_arg18) = W26 m ρ c (Proc.devRef .tc main_arg18) := by after_results
  have h3 : W26 m ρ c (Proc.devRef .tc main_arg18) = W25 m ρ c (Proc.devRef .tc main_arg18) := W26_of_ne m ρ c main_arg18 (by decide)
  have h4 : W25 m ρ c (Proc.devRef .tc main_arg18) = W24 m ρ c (Proc.devRef .tc main_arg18) := by after_results
  exact (h4.symm.trans (h3.symm.trans (h2.symm.trans h1.symm))).trans (W28_main_arg18 m ρ c)

/-- Argument 19 is as launched when the third region is about to be prepared: nothing before or after writes it. -/
theorem at24_arg19 (c : Dev nD) : W24 m ρ c (Proc.devRef .tc main_arg19) = m ((c : Thread nD τ).loc main_arg19) := by
  have h1 : W28 m ρ c (Proc.devRef .tc main_arg19) = W27 m ρ c (Proc.devRef .tc main_arg19) := W28_of_ne m ρ c main_arg19 (by decide)
  have h2 : W27 m ρ c (Proc.devRef .tc main_arg19) = W26 m ρ c (Proc.devRef .tc main_arg19) := by after_results
  have h3 : W26 m ρ c (Proc.devRef .tc main_arg19) = W25 m ρ c (Proc.devRef .tc main_arg19) := W26_of_ne m ρ c main_arg19 (by decide)
  have h4 : W25 m ρ c (Proc.devRef .tc main_arg19) = W24 m ρ c (Proc.devRef .tc main_arg19) := by after_results
  exact (h4.symm.trans (h3.symm.trans (h2.symm.trans h1.symm))).trans (W28_main_arg19 m ρ c)

/-- Argument 21 is as launched when the third region is about to be prepared: nothing before or after writes it. -/
theorem at24_arg21 (c : Dev nD) : W24 m ρ c (Proc.devRef .tc main_arg21) = m ((c : Thread nD τ).loc main_arg21) := by
  have h1 : W28 m ρ c (Proc.devRef .tc main_arg21) = W27 m ρ c (Proc.devRef .tc main_arg21) := W28_of_ne m ρ c main_arg21 (by decide)
  have h2 : W27 m ρ c (Proc.devRef .tc main_arg21) = W26 m ρ c (Proc.devRef .tc main_arg21) := by after_results
  have h3 : W26 m ρ c (Proc.devRef .tc main_arg21) = W25 m ρ c (Proc.devRef .tc main_arg21) := W26_of_ne m ρ c main_arg21 (by decide)
  have h4 : W25 m ρ c (Proc.devRef .tc main_arg21) = W24 m ρ c (Proc.devRef .tc main_arg21) := by after_results
  exact (h4.symm.trans (h3.symm.trans (h2.symm.trans h1.symm))).trans (W28_main_arg21 m ρ c)

/-- Argument 20 is as launched when the fourth region is about to be prepared: nothing before or after writes it. -/
theorem at26_arg20 (c : Dev nD) : W26 m ρ c (Proc.devRef .tc main_arg20) = m ((c : Thread nD τ).loc main_arg20) := by
  have h1 : W28 m ρ c (Proc.devRef .tc main_arg20) = W27 m ρ c (Proc.devRef .tc main_arg20) := W28_of_ne m ρ c main_arg20 (by decide)
  have h2 : W27 m ρ c (Proc.devRef .tc main_arg20) = W26 m ρ c (Proc.devRef .tc main_arg20) := by after_results
  exact (h2.symm.trans h1.symm).trans (W28_main_arg20 m ρ c)

/-- Argument 22 is as launched when the fourth region is about to be prepared: nothing before or after writes it. -/
theorem at26_arg22 (c : Dev nD) : W26 m ρ c (Proc.devRef .tc main_arg22) = m ((c : Thread nD τ).loc main_arg22) := by
  have h1 : W28 m ρ c (Proc.devRef .tc main_arg22) = W27 m ρ c (Proc.devRef .tc main_arg22) := W28_of_ne m ρ c main_arg22 (by decide)
  have h2 : W27 m ρ c (Proc.devRef .tc main_arg22) = W26 m ρ c (Proc.devRef .tc main_arg22) := by after_results
  exact (h2.symm.trans h1.symm).trans (W28_main_arg22 m ρ c)

end Cert.KernelIdeal.GlueArgs

end
-- ==== Proof.Glue1.lean ====
/-
  What the first attention region finds in its eight input arrays.

  Three of them are the outputs of the first projection region. The starting matrix is still the widened one, read
  through the projection region, which only reads it. The remaining four are prepared by the host between the two
  regions: the output weights transposed and widened, the biases widened or reshaped to one row.
-/
import proofs.«178282_j721554506169_2_alg».proof.Proof.Gen.KernelIdeal.Frame
import proofs.«178282_j721554506169_2_alg».proof.Proof.HostLayout
import proofs.«178282_j721554506169_2_alg».proof.Proof.Glue0
import proofs.«178282_j721554506169_2_alg».proof.Proof.GlueArgs
import Idealize.ShloMosaic.Lib.StableHlo.Run
import Idealize.ShloMosaic.PureOps.Ideal

set_option maxRecDepth 16384

noncomputable section

namespace Cert.KernelIdeal.Glue1

open Cert.KernelIdeal Cert.KernelIdeal.Gen Cert.AttnSpec
open Idealize.ShloMosaic Idealize.ShloMosaic.TcCoe Idealize.SL.Sem Idealize.ShloMosaic.StableHlo

variable (m : (ℓ : Loc nD τ sig) → Buf (Elt Ideal) ℓ) (ρ : Dev nD → PrngReg)

/-- Windows 0, 1, 2: what the first projection region left in its three outputs. -/
theorem win0 (c : Dev nD) : W23 m ρ c (Proc.devRef .tc main_v29_0) = (dat0 (V21 m ρ) c).arrAt 7 cfg0.N := by
  have h : W23 m ρ c (Proc.devRef .tc main_v29_0) = W22 m ρ c (Proc.devRef .tc main_v29_0) := by after_results
  exact h.trans (W22_arr m ρ c 7)
theorem win1 (c : Dev nD) : W23 m ρ c (Proc.devRef .tc main_v29_1) = (dat0 (V21 m ρ) c).arrAt 8 cfg0.N := by
  have h : W23 m ρ c (Proc.devRef .tc main_v29_1) = W22 m ρ c (Proc.devRef .tc main_v29_1) := by after_results
  exact h.trans (W22_arr m ρ c 8)
theorem win2 (c : Dev nD) : W23 m ρ c (Proc.devRef .tc main_v29_2) = (dat0 (V21 m ρ) c).arrAt 9 cfg0.N := by
  have h : W23 m ρ c (Proc.devRef .tc main_v29_2) = W22 m ρ c (Proc.devRef .tc main_v29_2) := by after_results
  exact h.trans (W22_arr m ρ c 9)

/-- Window 3: the widened starting matrix, which the projection region read and did not write. -/
theorem win3 (c : Dev nD) :
    (W23 m ρ c (Proc.devRef .tc main_v8) : S4096x512.Idx → EReal) = padCols 512 (Glue0.inp m c) := by
  have h : W23 m ρ c (Proc.devRef .tc main_v8) = W22 m ρ c (Proc.devRef .tc main_v8) := by after_results
  have h2 : W22 m ρ c (Proc.devRef .tc main_v8) = W21 m ρ c (Proc.devRef .tc main_v8) :=
    (W22_arr m ρ c 0).trans (((dat0 (V21 m ρ) c).arrAt_in 0 rfl cfg0.N).trans (A_eq0 (V21 m ρ) c 0))
  exact (h.trans h2).trans (Glue0.win0 m ρ c)

set_option maxHeartbeats 4000000 in
/-- Window 4: the mixing weight, transposed and widened to 256 rows and 512 columns. -/
theorem win4 (c : Dev nD) :
    (W23 m ρ c (Proc.devRef .tc main_v30) : S256x512.Idx → EReal) = padRows 256 (padCols 512 (tr (m ((c : Thread nD τ).loc main_arg9)))) := by
  have h19 : (W22 m ρ c (Proc.devRef .tc main_v19) : S256x512.Idx → EReal) = padRows 256 (padCols 512 (tr (m ((c : Thread nD τ).loc main_arg9)))) :=
    (W22_of_ne m ρ c main_v19 (by decide)).trans (by
      after_results
      refine (pad2_eq _ ![28, 56] _ pads_S228x456_S256x512_0280_0560 h_S_ (sitofp_zero _)).trans ?_
      rw [transpose_eq_tr]
      rfl)
  after_results
  exact h19

set_option maxHeartbeats 4000000 in
/-- Window 5: the mixing bias widened to 512 entries, as one row. -/
theorem win5 (c : Dev nD) :
    (W23 m ρ c (Proc.devRef .tc main_v32) : S1x512.Idx → EReal) = rowOf (padVec 512 (m ((c : Thread nD τ).loc main_arg10))) := by
  have h20 : (W22 m ρ c (Proc.devRef .tc main_v20) : S512.Idx → EReal) = padVec 512 (m ((c : Thread nD τ).loc main_arg10)) :=
    (W22_of_ne m ρ c main_v20 (by decide)).trans (by
      after_results
      show pad S512 ![0] ![56] ![0] (m ((c : Thread nD τ).loc main_arg10)) (sitofp (F := Ideal) .f32 (constantI S_ 32 0#32)) pads_S456_S512_0560 h_S_ = _
      exact pad1_eq _ ![56] _ pads_S456_S512_0560 h_S_ (sitofp_zero _))
  after_results
  show shapeCast S1x512 (W22 m ρ c (Proc.devRef .tc main_v20)) shapeCasts_S512_S1x512 = _
  rw [h20, shapeCast_eq_rowOf]

set_option maxHeartbeats 4000000 in
/-- Window 6: the output weight, transposed and widened to 512 rows. -/
theorem win6 (c : Dev nD) :
    (W23 m ρ c (Proc.devRef .tc main_v31) : S512x256.Idx → EReal) = padRows 512 (tr (m ((c : Thread nD τ).loc main_arg11))) := by
  have h22 : (W22 m ρ c (Proc.devRef .tc main_v22) : S512x256.Idx → EReal) = padRows 512 (tr (m ((c : Thread nD τ).loc main_arg11))) :=
    (W22_of_ne m ρ c main_v22 (by decide)).trans (by
      after_results
      refine (pad2_eq _ ![56, 0] _ pads_S456x256_S512x256_0560_000 h_S_ (sitofp_zero _)).trans ?_
      rw [padCols_self, transpose_eq_tr]
      rfl)
  after_results
  exact h22

/-- Window 7: the output bias as one row. -/
theorem win7 (c : Dev nD) :
    (W23 m ρ c (Proc.devRef .tc main_v33) : S1x256.Idx → EReal) = rowOf (m ((c : Thread nD τ).loc main_arg12)) := by
  after_results
  show shapeCast S1x256 (W22 m ρ c (Proc.devRef .tc main_arg12)) shapeCasts_S256_S1x256 = _
  rw [GlueArgs.at22_arg12, shapeCast_eq_rowOf]

/-- The same, at the array of the region's window 0. -/
theorem arr0 (c : Dev nD) : (V23 m ρ c (Pipeline.arrRef spec1 0) : S4096x256.Idx → EReal) = (dat0 (V21 m ρ) c).arrAt 7 cfg0.N := win0 m ρ c

/-- The same, at the array of the region's window 1. -/
theorem arr1 (c : Dev nD) : (V23 m ρ c (Pipeline.arrRef spec1 1) : S4096x256.Idx → EReal) = (dat0 (V21 m ρ) c).arrAt 8 cfg0.N := win1 m ρ c

/-- The same, at the array of the region's window 2. -/
theorem arr2 (c : Dev nD) : (V23 m ρ c (Pipeline.arrRef spec1 2) : S4096x256.Idx → EReal) = (dat0 (V21 m ρ) c).arrAt 9 cfg0.N := win2 m ρ c

/-- The same, at the array of the region's window 3. -/
theorem arr3 (c : Dev nD) : (V23 m ρ c (Pipeline.arrRef spec1 3) : S4096x512.Idx → EReal) = padCols 512 (Glue0.inp m c) := win3 m ρ c

/-- The same, at the array of the region's window 4. -/
theorem arr4 (c : Dev nD) : (V23 m ρ c (Pipeline.arrRef spec1 4) : S256x512.Idx → EReal) = padRows 256 (padCols 512 (tr (m ((c : Thread nD τ).loc main_arg9)))) := win4 m ρ c

/-- The same, at the array of the region's window 5. -/
theorem arr5 (c : Dev nD) : (V23 m ρ c (Pipeline.arrRef spec1 5) : S1x512.Idx → EReal) = rowOf (padVec 512 (m ((c : Thread nD τ).loc main_arg10))) := win5 m ρ c

/-- The same, at the array of the region's window 6. -/
theorem arr6 (c : Dev nD) : (V23 m ρ c (Pipeline.arrRef spec1 6) : S512x256.Idx → EReal) = padRows 512 (tr (m ((c : Thread nD τ).loc main_arg11))) := win6 m ρ c

/-- The same, at the array of the region's window 7. -/
theorem arr7 (c : Dev nD) : (V23 m ρ c (Pipeline.arrRef spec1 7) : S1x256.Idx → EReal) = rowOf (m ((c : Thread nD τ).loc main_arg12)) := win7 m ρ c

end Cert.KernelIdeal.Glue1

end
-- ==== Proof.ProjRegion0.lean ====
/-
  The first projection region: three linear images of the rows of `x`.

  The region walks the 4096 rows of `x` in 8 blocks of 512 rows. At each block it multiplies the block by a transposed
  weight matrix (one column per output), adds the bias row to every row of the product, and writes the result as the
  same block of rows of an output array — three times, for three weights and biases. A row of an output depends on
  `x` through that row alone, so the blocks written back are the blocks of ONE matrix, `x · wT + b`, and since the 8
  blocks cover the 4096 rows the output array ends holding that matrix.

  The steps: the matrix product read at an entry is a sum over the 512 columns of the left factor (`dot0_sum`); the
  body's value at entry `(r, o)` of a block (`pay0_apply`); each input block read as entries of its array
  (`iblk0_x`, `iblk0_w…`, `iblk0_b…`); where an entry of an output block sits in the array (`emb0_…`); what a grid
  point writes back (`flushed0_…_eq`); the blocks cover the array (`covered0_…`); the three arrays (`region0_q`,
  `region0_k`, `region0_v`).
-/
import proofs.«178282_j721554506169_2_alg».proof.Proof.Gen.KernelIdeal.Frame
import proofs.«178282_j721554506169_2_alg».proof.Proof.AttnSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RegionValue

open Cert.KernelIdeal Cert.KernelIdeal.Gen Idealize.ShloMosaic Idealize.ShloMosaic.ValueIdx Idealize.ShloMosaic.TcCoe Idealize.SL.Sem
open Idealize.ShloMosaic.Pipeline (Dat)

/-! ## The body's arithmetic at an entry -/

/-- The matrix product's contraction runs over the 512 columns of the left factor: at entry `(r, o)` it pairs
    `x (r, i)` with `w (i, o)`. -/
theorem dot0_sum (x : FVec Ideal S512x512 .bf16) (w : FVec Ideal S512x256 .bf16) (r : Fin 512) (o : Fin 256) :
    (∑ k : dot_S512x512_S512x256_S512x256_1_0_0_1_n_n.contr.Idx,
        x (dot_S512x512_S512x256_S512x256_1_0_0_1_n_n.lhsIdx (ix2 r o) k) * w (dot_S512x512_S512x256_S512x256_1_0_0_1_n_n.rhsIdx (ix2 r o) k))
      = ∑ i : Fin 512, x (ix2 r i) * w (ix2 i o) := by
  rw [← Equiv.sum_comp (contrEquiv1 dot_S512x512_S512x256_S512x256_1_0_0_1_n_n 512 rfl rfl).symm]
  refine Finset.sum_congr rfl fun i _ => ?_
  have hl : dot_S512x512_S512x256_S512x256_1_0_0_1_n_n.lhsIdx (ix2 r o) ((contrEquiv1 dot_S512x512_S512x256_S512x256_1_0_0_1_n_n 512 rfl rfl).symm i) = ix2 r i := by
    funext a
    match a with
    | ⟨0, _⟩ => rfl
    | ⟨1, _⟩ => exact Fin.ext rfl
  have hr : dot_S512x512_S512x256_S512x256_1_0_0_1_n_n.rhsIdx (ix2 r o) ((contrEquiv1 dot_S512x512_S512x256_S512x256_1_0_0_1_n_n 512 rfl rfl).symm i) = ix2 i o := by
    funext a
    match a with
    | ⟨0, _⟩ => exact Fin.ext rfl
    | ⟨1, _⟩ => rfl
  rw [hl, hr]

/-- The body's value for one output at row `r` and column `o` of the block: the row of `x` against the column of the
    transposed weight, plus the bias of that column. The casts to and from the narrower float format are the identity
    on extended reals, a reshape to the same shape is the identity, and the product accumulates into zero. -/
theorem pay0_apply (x : Vec Ideal S512x512 .f32) (w : Vec Ideal S512x256 .bf16) (b : Vec Ideal S1x256 .f32) (r : Fin 512) (o : Fin 256) :
    k0_pay2 x w b (ix2 r o) = (∑ i : Fin 512, x (ix2 r i) * w (ix2 i o)) + b (ix2 (0 : Fin 1) o) := by
  unfold k0_pay2 k0_pay1
  simp only [shapeCast_self]
  show FloatOps.matmul (F := Ideal) dot_S512x512_S512x256_S512x256_1_0_0_1_n_n none x w (constant (F := Ideal) S512x256 .f32 0x00000000#32) (ix2 r o) + broadcastTo S512x256 b broadcasts_S1x256_S512x256 (ix2 r o) = _
  refine congrArg₂ (· + ·) ?_ ?_
  · exact (Ideal.matmul_constant_zero_apply dot_S512x512_S512x256_S512x256_1_0_0_1_n_n none x w (ix2 r o)).trans (dot0_sum x w r o)
  · exact broadcastTo_1b_ab_apply b broadcasts_S1x256_S512x256 r o

/-- The second and third outputs are computed by the same term as the first, of their own weight and bias. -/
theorem k0_pay3_eq (x : Vec Ideal S512x512 .f32) (w : Vec Ideal S512x256 .bf16) (b : Vec Ideal S1x256 .f32) : k0_pay3 x w b = k0_pay2 x w b := rfl
theorem k0_pay4_eq (x : Vec Ideal S512x512 .f32) (w : Vec Ideal S512x256 .bf16) (b : Vec Ideal S1x256 .f32) : k0_pay4 x w b = k0_pay2 x w b := rfl

/-! ## The blocks -/

variable (V : (c : Dev nD) → (b : Ref sig .tc) → Buf (Elt Ideal) ((c : Thread nD τ).loc b))

theorem hz0 : (![0, 0] : Fin 2 → Nat) = fun _ => 0 := funext fun a => by fin_cases a <;> rfl

/-- The block index maps over the grid: the row-tiled windows (`x` and the three outputs) sit at block row `t`,
    every other window at block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

theorem t_lt0 (t : Fin cfg0.N) : t.val < 8 := lt_of_lt_of_eq t.isLt N_0

/-- Row `r` of block `t` is row `512 t + r` of the array. -/
def row0 (t : Fin cfg0.N) (r : Fin 512) : Fin 4096 := ⟨512 * t.val + r.val, by have := t_lt0 t; have := r.isLt; omega⟩

/-- The block of `x` at point `t` holds rows `512 t … 512 t + 511`. -/
theorem iblk0_x (c : Dev nD) (t : Fin cfg0.N) (r : Fin 512) (i : Fin 512) :
    (iblk0 V c 0 t : Vec Ideal S512x512 .f32) (ix2 r i) = (V c (Pipeline.arrRef spec0 0) : S4096x512.Idx → EReal) (ix2 (row0 t r) i) := by
  obtain ⟨e0, e1, -⟩ := idx_facts0 t
  unfold iblk0
  rw [View.read_apply]
  show (V c (Pipeline.arrRef spec0 0) : S4096x512.Idx → EReal) _ = _
  refine congrArg _ (funext fun a => Fin.ext ?_)
  match a with
  | ⟨0, _⟩ => show win0_0.index t (0 : Fin 2) * 512 + 1 * r.val = 512 * t.val + r.val; rw [e0]; omega
  | ⟨1, _⟩ => show win0_0.index t (1 : Fin 2) * 512 + 1 * i.val = i.val; rw [e1]; omega

/-- The block of the first transposed weight is the whole weight at every point. -/
theorem iblk0_w1 (c : Dev nD) (t : Fin cfg0.N) (i : Fin 512) (o : Fin 256) :
    (iblk0 V c 1 t : Vec Ideal S512x256 .bf16) (ix2 i o) = (V c (Pipeline.arrRef spec0 1) : S512x256.Idx → EReal) (ix2 i o) := by
  obtain ⟨-, -, e0, e1, -⟩ := idx_facts0 t
  unfold iblk0
  rw [View.read_apply]
  show (V c (Pipeline.arrRef spec0 1) : S512x256.Idx → EReal) _ = _
  refine congrArg _ (funext fun a => Fin.ext ?_)
  match a with
  | ⟨0, _⟩ => show win0_1.index t (0 : Fin 2) * 512 + 1 * i.val = i.val; rw [e0]; omega
  | ⟨1, _⟩ => show win0_1.index t (1 : Fin 2) * 256 + 1 * o.val = o.val; rw [e1]; omega

/-- The block of the second transposed weight is the whole weight at every point. -/
theorem iblk0_w3 (c : Dev nD) (t : Fin cfg0.N) (i : Fin 512) (o : Fin 256) :
    (iblk0 V c 3 t : Vec Ideal S512x256 .bf16) (ix2 i o) = (V c (Pipeline.arrRef spec0 3) : S512x256.Idx → EReal) (ix2 i o) := by
  obtain ⟨-, -, -, -, -, -, e0, e1, -⟩ := idx_facts0 t
  unfold iblk0
  rw [View.read_apply]
  show (V c (Pipeline.arrRef spec0 3) : S512x256.Idx → EReal) _ = _
  refine congrArg _ (funext fun a => Fin.ext ?_)
  match a with
  | ⟨0, _⟩ => show win0_3.index t (0 : Fin 2) * 512 + 1 * i.val = i.val; rw [e0]; omega
  | ⟨1, _⟩ => show win0_3.index t (1 : Fin 2) * 256 + 1 * o.val = o.val; rw [e1]; omega

/-- The block of the third transposed weight is the whole weight at every point. -/
theorem iblk0_w5 (c : Dev nD) (t : Fin cfg0.N) (i : Fin 512) (o : Fin 256) :
    (iblk0 V c 5 t : Vec Ideal S512x256 .bf16) (ix2 i o) = (V c (Pipeline.arrRef spec0 5) : S512x256.Idx → EReal) (ix2 i o) := by
  obtain ⟨-, -, -, -, -, -, -, -, -, -, e0, e1, -⟩ := idx_facts0 t
  unfold iblk0
  rw [View.read_apply]
  show (V c (Pipeline.arrRef spec0 5) : S512x256.Idx → EReal) _ = _
  refine congrArg _ (funext fun a => Fin.ext ?_)
  match a with
  | ⟨0, _⟩ => show win0_5.index t (0 : Fin 2) * 512 + 1 * i.val = i.val; rw [e0]; omega
  | ⟨1, _⟩ => show win0_5.index t (1 : Fin 2) * 256 + 1 * o.val = o.val; rw [e1]; omega

/-- The block of the first bias is the whole bias at every point. -/
theorem iblk0_b2 (c : Dev nD) (t : Fin cfg0.N) (o : Fin 256) :
    (iblk0 V c 2 t : Vec Ideal S1x256 .f32) (ix2 (0 : Fin 1) o) = (V c (Pipeline.arrRef spec0 2) : S1x256.Idx → EReal) (ix2 (0 : Fin 1) o) := by
  obtain ⟨-, -, -, -, e0, e1, -⟩ := idx_facts0 t
  unfold iblk0
  rw [View.read_apply]
  show (V c (Pipeline.arrRef spec0 2) : S1x256.Idx → EReal) _ = _
  refine congrArg _ (funext fun a => Fin.ext ?_)
  match a with
  | ⟨0, _⟩ => show win0_2.index t (0 : Fin 2) * 1 + 1 * (0 : Fin 1).val = (0 : Fin 1).val; rw [e0]; rfl
  | ⟨1, _⟩ => show win0_2.index t (1 : Fin 2) * 256 + 1 * o.val = o.val; rw [e1]; omega

/-- The block of the second bias is the whole bias at every point. -/
theorem iblk0_b4 (c : Dev nD) (t : Fin cfg0.N) (o : Fin 256) :
    (iblk0 V c 4 t : Vec Ideal S1x256 .f32) (ix2 (0 : Fin 1) o) = (V c (Pipeline.arrRef spec0 4) : S1x256.Idx → EReal) (ix2 (0 : Fin 1) o) := by
  obtain ⟨-, -, -, -, -, -, -, -, e0, e1, -⟩ := idx_facts0 t
  unfold iblk0
  rw [View.read_apply]
  show (V c (Pipeline.arrRef spec0 4) : S1x256.Idx → EReal) _ = _
  refine congrArg _ (funext fun a => Fin.ext ?_)
  match a with
  | ⟨0, _⟩ => show win0_4.index t (0 : Fin 2) * 1 + 1 * (0 : Fin 1).val = (0 : Fin 1).val; rw [e0]; rfl
  | ⟨1, _⟩ => show win0_4.index t (1 : Fin 2) * 256 + 1 * o.val = o.val; rw [e1]; omega

/-- The block of the third bias is the whole bias at every point. -/
theorem iblk0_b6 (c : Dev nD) (t : Fin cfg0.N) (o : Fin 256) :
    (iblk0 V c 6 t : Vec Ideal S1x256 .f32) (ix2 (0 : Fin 1) o) = (V c (Pipeline.arrRef spec0 6) : S1x256.Idx → EReal) (ix2 (0 : Fin 1) o) := by
  obtain ⟨-, -, -, -, -, -, -, -, -, -, -, -, e0, e1, -⟩ := idx_facts0 t
  unfold iblk0
  rw [View.read_apply]
  show (V c (Pipeline.arrRef spec0 6) : S1x256.Idx → EReal) _ = _
  refine congrArg _ (funext fun a => Fin.ext ?_)
  match a with
  | ⟨0, _⟩ => show win0_6.index t (0 : Fin 2) * 1 + 1 * (0 : Fin 1).val = (0 : Fin 1).val; rw [e0]; rfl
  | ⟨1, _⟩ => show win0_6.index t (1 : Fin 2) * 256 + 1 * o.val = o.val; rw [e1]; omega

/-! ## The first output -/

/-- Where entry `(r, o)` of the first output's block `t` sits in the array. -/
theorem emb0_7 (t : Fin cfg0.N) (r : Fin 512) (o : Fin 256) :
    (((cfg0.win 7).blk t).view.emb (ix2 r o) : S4096x256.Idx) = ix2 (row0 t r) o := by
  obtain ⟨-, -, -, -, -, -, -, -, -, -, -, -, -, -, e0, e1, -⟩ := idx_facts0 t
  refine funext fun a => Fin.ext ?_
  match a with
  | ⟨0, _⟩ => show win0_7.index t (0 : Fin 2) * 512 + 1 * r.val = 512 * t.val + r.val; rw [e0]; omega
  | ⟨1, _⟩ => show win0_7.index t (1 : Fin 2) * 256 + 1 * o.val = o.val; rw [e1]; omega

/-- What point `t` writes back to the first output is block `t` of `x · wT + b` for the first weight and bias. -/
theorem flushed0_7_eq (c : Dev nD) (t : Fin cfg0.N) :
    (dat0 V c).flushed 7 t = ((cfg0.win 7).blk t).view.read (Elt Ideal)
      (AttnSpec.linT (V c (Pipeline.arrRef spec0 0) : AttnSpec.Mat 4096 512) (V c (Pipeline.arrRef spec0 1) : AttnSpec.Mat 512 256)
        (V c (Pipeline.arrRef spec0 2) : AttnSpec.Mat 1 256)) := by
  show (cfg0.win 7).cut (grid0.coords t) ((dat0 V c).after 7 t) = _
  rw [after0_7]
  unfold out0_7
  rw [View.canon_unit_zero hz0]
  simp only [View.ld_unit_zero (S := S512x512) hz0, View.ld_unit_zero (S := S512x256) hz0, View.ld_unit_zero (S := S1x256) hz0]
  refine funext fun (j : S512x256.Idx) => ?_
  obtain ⟨r, o, rfl⟩ : ∃ (r : Fin 512) (o : Fin 256), j = ix2 r o := ⟨j 0, j 1, eq_ix2 j⟩
  show k0_pay2 (iblk0 V c 0 t) (iblk0 V c 1 t) (iblk0 V c 2 t) (ix2 r o)
    = AttnSpec.linT (V c (Pipeline.arrRef spec0 0) : AttnSpec.Mat 4096 512) (V c (Pipeline.arrRef spec0 1) : AttnSpec.Mat 512 256)
        (V c (Pipeline.arrRef spec0 2) : AttnSpec.Mat 1 256) (((cfg0.win 7).blk t).view.emb (ix2 r o))
  rw [emb0_7]
  refine (pay0_apply _ _ _ r o).trans ?_
  refine congrArg₂ (· + ·) (Finset.sum_congr rfl fun i _ => ?_) (iblk0_b2 V c t o)
  exact congrArg₂ (· * ·) (iblk0_x V c t r i) (iblk0_w1 V c t i o)

/-- Every entry of the first output lies in the block of the point its row names. -/
theorem covered0_7 (i : S4096x256.Idx) : ∃ t : Fin cfg0.N, (cfg0.win 7).flush t = true ∧ i ∈ ((cfg0.win 7).blk t).view.set := by
  have hi0 : (i 0).val < 4096 := (i 0).isLt
  have hi1 : (i 1).val < 256 := (i 1).isLt
  have hN : cfg0.N = 8 := N_0
  obtain ⟨t, ht⟩ : ∃ t : Fin cfg0.N, t.val = (i 0).val / 512 := ⟨⟨(i 0).val / 512, by rw [hN]; omega⟩, rfl⟩
  obtain ⟨-, -, -, -, -, -, -, -, -, -, -, -, -, -, e0, e1, -⟩ := idx_facts0 t
  refine ⟨t, flush0_7 t, ?_⟩
  show i ∈ ((View.whole main_v29_0).slice (win0_7.rect t)).set
  rw [View.set_slice_whole, Rect.mem_set_unit]
  intro a
  match a with
  | ⟨0, _⟩ => show win0_7.index t (0 : Fin 2) * 512 ≤ (i 0).val ∧ (i 0).val < win0_7.index t (0 : Fin 2) * 512 + 512; rw [e0, ht]; omega
  | ⟨1, _⟩ => show win0_7.index t (1 : Fin 2) * 256 ≤ (i 1).val ∧ (i 1).val < win0_7.index t (1 : Fin 2) * 256 + 256; rw [e1]; omega

/-- THE FIRST OUTPUT after the region: `x · wT + b` for the first weight and bias, as one matrix. -/
theorem region0_q (c : Dev nD) : (Gen.dat0 (F := Ideal) V c).arrAt 7 cfg0.N
    = AttnSpec.linT (V c (Pipeline.arrRef spec0 0) : AttnSpec.Mat 4096 512) (V c (Pipeline.arrRef spec0 1) : AttnSpec.Mat 512 256)
        (V c (Pipeline.arrRef spec0 2) : AttnSpec.Mat 1 256) :=
  (dat0 V c).arrAt_eq_of_cover 7 _ (fun t _ => flushed0_7_eq V c t) covered0_7

/-! ## The second output -/

/-- Where entry `(r, o)` of the second output's block `t` sits in the array. -/
theorem emb0_8 (t : Fin cfg0.N) (r : Fin 512) (o : Fin 256) :
    (((cfg0.win 8).blk t).view.emb (ix2 r o) : S4096x256.Idx) = ix2 (row0 t r) o := by
  obtain ⟨-, -, -, -, -, -, -, -, -, -, -, -, -, -, -, -, e0, e1, -⟩ := idx_facts0 t
  refine funext fun a => Fin.ext ?_
  match a with
  | ⟨0, _⟩ => show win0_8.index t (0 : Fin 2) * 512 + 1 * r.val = 512 * t.val + r.val; rw [e0]; omega
  | ⟨1, _⟩ => show win0_8.index t (1 : Fin 2) * 256 + 1 * o.val = o.val; rw [e1]; omega

/-- What point `t` writes back to the second output is block `t` of `x · wT + b` for the second weight and bias. -/
theorem flushed0_8_eq (c : Dev nD) (t : Fin cfg0.N) :
    (dat0 V c).flushed 8 t = ((cfg0.win 8).blk t).view.read (Elt Ideal)
      (AttnSpec.linT (V c (Pipeline.arrRef spec0 0) : AttnSpec.Mat 4096 512) (V c (Pipeline.arrRef spec0 3) : AttnSpec.Mat 512 256)
        (V c (Pipeline.arrRef spec0 4) : AttnSpec.Mat 1 256)) := by
  show (cfg0.win 8).cut (grid0.coords t) ((dat0 V c).after 8 t) = _
  rw [after0_8]
  unfold out0_8
  rw [View.canon_unit_zero hz0]
  simp only [View.ld_unit_zero (S := S512x512) hz0, View.ld_unit_zero (S := S512x256) hz0, View.ld_unit_zero (S := S1x256) hz0]
  refine funext fun (j : S512x256.Idx) => ?_
  obtain ⟨r, o, rfl⟩ : ∃ (r : Fin 512) (o : Fin 256), j = ix2 r o := ⟨j 0, j 1, eq_ix2 j⟩
  show k0_pay3 (iblk0 V c 0 t) (iblk0 V c 3 t) (iblk0 V c 4 t) (ix2 r o)
    = AttnSpec.linT (V c (Pipeline.arrRef spec0 0) : AttnSpec.Mat 4096 512) (V c (Pipeline.arrRef spec0 3) : AttnSpec.Mat 512 256)
        (V c (Pipeline.arrRef spec0 4) : AttnSpec.Mat 1 256) (((cfg0.win 8).blk t).view.emb (ix2 r o))
  rw [emb0_8, k0_pay3_eq]
  refine (pay0_apply _ _ _ r o).trans ?_
  refine congrArg₂ (· + ·) (Finset.sum_congr rfl fun i _ => ?_) (iblk0_b4 V c t o)
  exact congrArg₂ (· * ·) (iblk0_x V c t r i) (iblk0_w3 V c t i o)

/-- Every entry of the second output lies in the block of the point its row names. -/
theorem covered0_8 (i : S4096x256.Idx) : ∃ t : Fin cfg0.N, (cfg0.win 8).flush t = true ∧ i ∈ ((cfg0.win 8).blk t).view.set := by
  have hi0 : (i 0).val < 4096 := (i 0).isLt
  have hi1 : (i 1).val < 256 := (i 1).isLt
  have hN : cfg0.N = 8 := N_0
  obtain ⟨t, ht⟩ : ∃ t : Fin cfg0.N, t.val = (i 0).val / 512 := ⟨⟨(i 0).val / 512, by rw [hN]; omega⟩, rfl⟩
  obtain ⟨-, -, -, -, -, -, -, -, -, -, -, -, -, -, -, -, e0, e1, -⟩ := idx_facts0 t
  refine ⟨t, flush0_8 t, ?_⟩
  show i ∈ ((View.whole main_v29_1).slice (win0_8.rect t)).set
  rw [View.set_slice_whole, Rect.mem_set_unit]
  intro a
  match a with
  | ⟨0, _⟩ => show win0_8.index t (0 : Fin 2) * 512 ≤ (i 0).val ∧ (i 0).val < win0_8.index t (0 : Fin 2) * 512 + 512; rw [e0, ht]; omega
  | ⟨1, _⟩ => show win0_8.index t (1 : Fin 2) * 256 ≤ (i 1).val ∧ (i 1).val < win0_8.index t (1 : Fin 2) * 256 + 256; rw [e1]; omega

/-- THE SECOND OUTPUT after the region: `x · wT + b` for the second weight and bias, as one matrix. -/
theorem region0_k (c : Dev nD) : (Gen.dat0 (F := Ideal) V c).arrAt 8 cfg0.N
    = AttnSpec.linT (V c (Pipeline.arrRef spec0 0) : AttnSpec.Mat 4096 512) (V c (Pipeline.arrRef spec0 3) : AttnSpec.Mat 512 256)
        (V c (Pipeline.arrRef spec0 4) : AttnSpec.Mat 1 256) :=
  (dat0 V c).arrAt_eq_of_cover 8 _ (fun t _ => flushed0_8_eq V c t) covered0_8

/-! ## The third output -/

/-- Where entry `(r, o)` of the third output's block `t` sits in the array. -/
theorem emb0_9 (t : Fin cfg0.N) (r : Fin 512) (o : Fin 256) :
    (((cfg0.win 9).blk t).view.emb (ix2 r o) : S4096x256.Idx) = ix2 (row0 t r) o := by
  obtain ⟨-, -, -, -, -, -, -, -, -, -, -, -, -, -, -, -, -, -, e0, e1⟩ := idx_facts0 t
  refine funext fun a => Fin.ext ?_
  match a with
  | ⟨0, _⟩ => show win0_9.index t (0 : Fin 2) * 512 + 1 * r.val = 512 * t.val + r.val; rw [e0]; omega
  | ⟨1, _⟩ => show win0_9.index t (1 : Fin 2) * 256 + 1 * o.val = o.val; rw [e1]; omega

/-- What point `t` writes back to the third output is block `t` of `x · wT + b` for the third weight and bias. -/
theorem flushed0_9_eq (c : Dev nD) (t : Fin cfg0.N) :
    (dat0 V c).flushed 9 t = ((cfg0.win 9).blk t).view.read (Elt Ideal)
      (AttnSpec.linT (V c (Pipeline.arrRef spec0 0) : AttnSpec.Mat 4096 512) (V c (Pipeline.arrRef spec0 5) : AttnSpec.Mat 512 256)
        (V c (Pipeline.arrRef spec0 6) : AttnSpec.Mat 1 256)) := by
  show (cfg0.win 9).cut (grid0.coords t) ((dat0 V c).after 9 t) = _
  rw [after0_9]
  unfold out0_9
  rw [View.canon_unit_zero hz0]
  simp only [View.ld_unit_zero (S := S512x512) hz0, View.ld_unit_zero (S := S512x256) hz0, View.ld_unit_zero (S := S1x256) hz0]
  refine funext fun (j : S512x256.Idx) => ?_
  obtain ⟨r, o, rfl⟩ : ∃ (r : Fin 512) (o : Fin 256), j = ix2 r o := ⟨j 0, j 1, eq_ix2 j⟩
  show k0_pay4 (iblk0 V c 0 t) (iblk0 V c 5 t) (iblk0 V c 6 t) (ix2 r o)
    = AttnSpec.linT (V c (Pipeline.arrRef spec0 0) : AttnSpec.Mat 4096 512) (V c (Pipeline.arrRef spec0 5) : AttnSpec.Mat 512 256)
        (V c (Pipeline.arrRef spec0 6) : AttnSpec.Mat 1 256) (((cfg0.win 9).blk t).view.emb (ix2 r o))
  rw [emb0_9, k0_pay4_eq]
  refine (pay0_apply _ _ _ r o).trans ?_
  refine congrArg₂ (· + ·) (Finset.sum_congr rfl fun i _ => ?_) (iblk0_b6 V c t o)
  exact congrArg₂ (· * ·) (iblk0_x V c t r i) (iblk0_w5 V c t i o)

/-- Every entry of the third output lies in the block of the point its row names. -/
theorem covered0_9 (i : S4096x256.Idx) : ∃ t : Fin cfg0.N, (cfg0.win 9).flush t = true ∧ i ∈ ((cfg0.win 9).blk t).view.set := by
  have hi0 : (i 0).val < 4096 := (i 0).isLt
  have hi1 : (i 1).val < 256 := (i 1).isLt
  have hN : cfg0.N = 8 := N_0
  obtain ⟨t, ht⟩ : ∃ t : Fin cfg0.N, t.val = (i 0).val / 512 := ⟨⟨(i 0).val / 512, by rw [hN]; omega⟩, rfl⟩
  obtain ⟨-, -, -, -, -, -, -, -, -, -, -, -, -, -, -, -, -, -, e0, e1⟩ := idx_facts0 t
  refine ⟨t, flush0_9 t, ?_⟩
  show i ∈ ((View.whole main_v29_2).slice (win0_9.rect t)).set
  rw [View.set_slice_whole, Rect.mem_set_unit]
  intro a
  match a with
  | ⟨0, _⟩ => show win0_9.index t (0 : Fin 2) * 512 ≤ (i 0).val ∧ (i 0).val < win0_9.index t (0 : Fin 2) * 512 + 512; rw [e0, ht]; omega
  | ⟨1, _⟩ => show win0_9.index t (1 : Fin 2) * 256 ≤ (i 1).val ∧ (i 1).val < win0_9.index t (1 : Fin 2) * 256 + 256; rw [e1]; omega

/-- THE THIRD OUTPUT after the region: `x · wT + b` for the third weight and bias, as one matrix. -/
theorem region0_v (c : Dev nD) : (Gen.dat0 (F := Ideal) V c).arrAt 9 cfg0.N
    = AttnSpec.linT (V c (Pipeline.arrRef spec0 0) : AttnSpec.Mat 4096 512) (V c (Pipeline.arrRef spec0 5) : AttnSpec.Mat 512 256)
        (V c (Pipeline.arrRef spec0 6) : AttnSpec.Mat 1 256) :=
  (dat0 V c).arrAt_eq_of_cover 9 _ (fun t _ => flushed0_9_eq V c t) covered0_9

end Cert.KernelIdeal.RegionValue

end
-- ==== Proof.AttnBlockLemmas.lean ====
/-
  What one grid step of an attention kernel computes, read at the exact (extended-real) values, and why a
  row of the result depends on the row-tiled inputs through that row alone.

  Part 1 reads the layout steps that carry a row statistic back to the matrix (a vector [a] viewed as a
  column [a,1], a column repeated along the rows to [a,b]). Part 2 reads a matrix product M×K by K×N into a zero
  accumulator as the plain sum over the contracted axis. Part 3 reads a maximum and a sum along the rows.
  Part 4 puts them together: the sequence "scores, row maximum, shift, exponential, row sum, quotient, mixture,
  output projection, residual, bias, last projection, bias" is AttnSpec.out1T and AttnSpec.out2T.
  Part 5: row n of out1T and out2T only uses row n of q and of x.
-/
import Idealize.ShloMosaic.Lib.ValueIdx
import Idealize.ShloMosaic.Lib.Pipeline.Value
import Idealize.ShloMosaic.Lib.ValueLayout
import Idealize.ShloMosaic.PureOps.Ideal.Laws
import proofs.«178282_j721554506169_2_alg».proof.Proof.AttnSpec

noncomputable section

namespace Cert.AttnBlock

open Idealize.ShloMosaic Idealize.ShloMosaic.ValueIdx Cert.AttnSpec

/-! ## 1. A vector as a column, a column repeated along the rows -/

section Layout

variable {α : Type}

/-- An [a] array viewed as [a, 1] reads, at (i, u), the operand at i: both positions are i in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## 2. A matrix product into zero is the sum over the contracted axis -/

section Matmul

variable {A K B : ℕ} {φ₁ φ₂ : FTy}

/-- The dimension numbers of M×K by K×N: contract the left operand's columns with the right operand's rows. -/
abbrev plainDot (wf : DotDims.WF (⟨2, ![A, K]⟩ : Shape) ⟨2, ![K, B]⟩ ⟨2, ![A, B]⟩ [1] [0] [0] [1] [] []) :
    DotDims (⟨2, ![A, K]⟩ : Shape) ⟨2, ![K, B]⟩ ⟨2, ![A, B]⟩ where
  lhsContracting := [1]
  rhsContracting := [0]
  lhsNonContracting := [0]
  rhsNonContracting := [1]
  lhsBatch := []
  rhsBatch := []
  wf := wf

variable (wf : DotDims.WF (⟨2, ![A, K]⟩ : Shape) ⟨2, ![K, B]⟩ ⟨2, ![A, B]⟩ [1] [0] [0] [1] [] [])

/-- The left operand's row is the output's row. -/
theorem lhs_row (i : (⟨2, ![A, B]⟩ : Shape).Idx) (q : (plainDot wf).contr.Idx) :
    ((plainDot wf).lhsIdx i q 0).val = (i 0).val := by
  unfold DotDims.lhsIdx
  rw [dif_neg (show ¬ (0 : Fin 2) ∈ (plainDot wf).lhsBatch from List.not_mem_nil),
    dif_pos (show (0 : Fin 2) ∈ (plainDot wf).lhsNonContracting from List.mem_singleton.2 rfl)]
  rfl

/-- The right operand's column is the output's column. -/
theorem rhs_col (i : (⟨2, ![A, B]⟩ : Shape).Idx) (q : (plainDot wf).contr.Idx) :
    ((plainDot wf).rhsIdx i q 1).val = (i 1).val := by
  unfold DotDims.rhsIdx
  rw [dif_neg (show ¬ (1 : Fin 2) ∈ (plainDot wf).rhsBatch from List.not_mem_nil),
    dif_pos (show (1 : Fin 2) ∈ (plainDot wf).rhsNonContracting from List.mem_singleton.2 rfl)]
  rfl

/-- The product into the zero accumulator at (r, o): the sum over k of lhs (r, k) · rhs (k, o). -/
theorem matmul_plain_apply (prec : Option ContractPrecision) (lhs : FVec Ideal (⟨2, ![A, K]⟩ : Shape) φ₁)
    (rhs : FVec Ideal (⟨2, ![K, B]⟩ : Shape) φ₂) (r : Fin A) (o : Fin B) :
    FloatOps.matmul (plainDot wf) prec lhs rhs (constant (F := Ideal) ⟨2, ![A, B]⟩ .f32 0x00000000#32) (ix2 r o)
      = ∑ k : Fin K, lhs (ix2 r k) * rhs (ix2 k o) := by
  rw [Ideal.matmul_constant_zero_apply, ← Equiv.sum_comp (contrEquiv1 (plainDot wf) K rfl rfl).symm]
  refine Finset.sum_congr rfl fun k _ => ?_
  have hk := contrEquiv1_symm_val (plainDot wf) K rfl rfl k
  have el : (plainDot wf).lhsIdx (ix2 r o) ((contrEquiv1 (plainDot wf) K rfl rfl).symm k) = ix2 r k :=
    funext fun a => Fin.ext (by
      match a with
      | ⟨0, _⟩ => exact lhs_row wf _ _
      | ⟨1, _⟩ => exact ((plainDot wf).lhsIdx_val_of_single rfl _ _).trans hk)
  have er : (plainDot wf).rhsIdx (ix2 r o) ((contrEquiv1 (plainDot wf) K rfl rfl).symm k) = ix2 k o :=
    funext fun a => Fin.ext (by
      match a with
      | ⟨0, _⟩ => exact ((plainDot wf).rhsIdx_val_of_single rfl _ _).trans hk
      | ⟨1, _⟩ => exact rhs_col wf _ _)
  rw [el, er]

/-- As a whole matrix, that is AttnSpec.mix. -/
theorem matmul_plain_eq_mix (prec : Option ContractPrecision) (lhs : FVec Ideal (⟨2, ![A, K]⟩ : Shape) φ₁)
    (rhs : FVec Ideal (⟨2, ![K, B]⟩ : Shape) φ₂) :
    FloatOps.matmul (plainDot wf) prec lhs rhs (constant (F := Ideal) ⟨2, ![A, B]⟩ .f32 0x00000000#32) = mix lhs rhs := by
  funext j
  obtain ⟨r, o, rfl⟩ : ∃ (r : Fin A) (o : Fin B), j = ix2 r o := ⟨j 0, j 1, eq_ix2 j⟩
  exact matmul_plain_apply wf prec lhs rhs r o

end Matmul

/-! ## 3. A maximum and a sum along the rows -/

section Rows

variable {N M : ℕ}

/-- Row index r with column m put back on the reduced axis is the matrix index (r, m). -/
theorem lift_row (h : (⟨2, ![N, M]⟩ : Shape).Reduces [1] ⟨1, ![N]⟩) (r : Fin N) (m : Fin M) :
    h.lift (ix1 r) m = ix2 r m := by
  funext c
  apply Fin.ext
  match c with
  | ⟨0, _⟩ => rfl
  | ⟨1, _⟩ => rfl

/-- The maximum along the rows seeded with minus infinity is AttnSpec.rowMax. -/
theorem rowMax_read (s : FVec Ideal (⟨2, ![N, M]⟩ : Shape) .f32) (hR : (⟨2, ![N, M]⟩ : Shape).Reduces [1] ⟨1, ![N]⟩)
    (hφ : FKind.Formats .f32) (hacc : (0xFF800000#32 : BitVec FTy.f32.bits) = FKind.maximumf.neutral .f32 hφ) (r : Fin N) :
    multiReduction (F := Ideal) .maximumf [1] ⟨1, ![N]⟩ s 0xFF800000#32 hR hφ hacc (ix1 r) = rowMax s r := by
  rw [Ideal.multiReduction_maximumf_single]
  unfold rowMax
  refine congrArg (fun f => (Finset.univ : Finset (Fin M)).fold max negInf f) (funext fun m => ?_)
  exact congrArg s (lift_row hR r m)

/-- The sum along the rows seeded with zero is AttnSpec.rowSum. -/
theorem rowSum_read (e : FVec Ideal (⟨2, ![N, M]⟩ : Shape) .f32) (hR : (⟨2, ![N, M]⟩ : Shape).Reduces [1] ⟨1, ![N]⟩)
    (hφ : FKind.Formats .f32) (hacc : (0x00000000#32 : BitVec FTy.f32.bits) = FKind.add.neutral .f32 hφ) (r : Fin N) :
    multiReduction (F := Ideal) .add [1] ⟨1, ![N]⟩ e 0x00000000#32 hR hφ hacc (ix1 r) = rowSum e r := by
  rw [Ideal.multiReduction_add_single]
  unfold rowSum
  refine Finset.sum_congr rfl fun m _ => ?_
  exact congrArg e (lift_row hR r m)

variable (hR : (⟨2, ![N, M]⟩ : Shape).Reduces [1] ⟨1, ![N]⟩) (hC : (⟨1, ![N]⟩ : Shape).ShapeCasts ⟨2, ![N, 1]⟩)
  (hB : (⟨2, ![N, 1]⟩ : Shape).Broadcasts ⟨2, ![N, M]⟩) (hφ : FKind.Formats .f32)

/-- Each score less its row's maximum (taken along the row, put back as a column, repeated along the row),
    exponentiated: AttnSpec.expShift. -/
theorem expShift_read (s : FVec Ideal (⟨2, ![N, M]⟩ : Shape) .f32)
    (hacc : (0xFF800000#32 : BitVec FTy.f32.bits) = FKind.maximumf.neutral .f32 hφ) :
    exp (subf s (broadcastTo ⟨2, ![N, M]⟩ (shapeCast ⟨2, ![N, 1]⟩
      (multiReduction (F := Ideal) .maximumf [1] ⟨1, ![N]⟩ s 0xFF800000#32 hR hφ hacc) hC) hB)) = expShift s := by
  funext j
  obtain ⟨r, m, rfl⟩ : ∃ (r : Fin N) (m : Fin M), j = ix2 r m := ⟨j 0, j 1, eq_ix2 j⟩
  show Ideal.exp (s (ix2 r m) - broadcastTo ⟨2, ![N, M]⟩ (shapeCast ⟨2, ![N, 1]⟩
      (multiReduction (F := Ideal) .maximumf [1] ⟨1, ![N]⟩ s 0xFF800000#32 hR hφ hacc) hC) hB (ix2 r m))
    = Ideal.exp (s (ix2 r m) - rowMax s r)
  rw [broadcastTo_a1_ab_apply, shapeCast_a_a1_apply, rowMax_read]

/-- Each entry over its row's sum (taken along the row, put back as a column, repeated along the row). -/
theorem rowDiv_read (e : FVec Ideal (⟨2, ![N, M]⟩ : Shape) .f32)
    (hacc : (0x00000000#32 : BitVec FTy.f32.bits) = FKind.add.neutral .f32 hφ) :
    divf e (broadcastTo ⟨2, ![N, M]⟩ (shapeCast ⟨2, ![N, 1]⟩
      (multiReduction (F := Ideal) .add [1] ⟨1, ![N]⟩ e 0x00000000#32 hR hφ hacc) hC) hB)
      = fun j => Ideal.div (e j) (rowSum e (j 0)) := by
  funext j
  obtain ⟨r, m, rfl⟩ : ∃ (r : Fin N) (m : Fin M), j = ix2 r m := ⟨j 0, j 1, eq_ix2 j⟩
  show Ideal.div (e (ix2 r m)) (broadcastTo ⟨2, ![N, M]⟩ (shapeCast ⟨2, ![N, 1]⟩
      (multiReduction (F := Ideal) .add [1] ⟨1, ![N]⟩ e 0x00000000#32 hR hφ hacc) hC) hB (ix2 r m))
    = Ideal.div (e (ix2 r m)) (rowSum e r)
  rw [broadcastTo_a1_ab_apply, shapeCast_a_a1_apply, rowSum_read]

end Rows

/-! ## 4. One grid step of the attention kernel -/

section Body

variable {N M J I O : ℕ}

/-- q · kᵀ, the right operand transposed first: AttnSpec.scores. -/
theorem scores_read {φ₁ φ₂ : FTy}
    (wfS : DotDims.WF (⟨2, ![N, J]⟩ : Shape) ⟨2, ![J, M]⟩ ⟨2, ![N, M]⟩ [1] [0] [0] [1] [] [])
    (hT : (⟨2, ![M, J]⟩ : Shape).Transposes [1, 0] ⟨2, ![J, M]⟩)
    (q : FVec Ideal (⟨2, ![N, J]⟩ : Shape) φ₁) (k : FVec Ideal (⟨2, ![M, J]⟩ : Shape) φ₂) :
    matmul (plainDot wfS) none q (transpose ⟨2, ![J, M]⟩ [1, 0] k hT) (constant (F := Ideal) ⟨2, ![N, M]⟩ .f32 0x00000000#32)
      = scores q k := by
  show FloatOps.matmul (plainDot wfS) none q (transpose ⟨2, ![J, M]⟩ [1, 0] k hT) (constant (F := Ideal) ⟨2, ![N, M]⟩ .f32 0x00000000#32) = _
  rw [matmul_plain_eq_mix]
  funext j
  obtain ⟨r, m, rfl⟩ : ∃ (r : Fin N) (m : Fin M), j = ix2 r m := ⟨j 0, j 1, eq_ix2 j⟩
  show ∑ t : Fin J, q (ix2 r t) * transpose ⟨2, ![J, M]⟩ [1, 0] k hT (ix2 t m) = ∑ t : Fin J, q (ix2 r t) * k (ix2 m t)
  refine Finset.sum_congr rfl fun t _ => ?_
  rw [transpose_ix2_apply]

variable
  (wfS : DotDims.WF (⟨2, ![N, J]⟩ : Shape) ⟨2, ![J, M]⟩ ⟨2, ![N, M]⟩ [1] [0] [0] [1] [] [])
  (wfV : DotDims.WF (⟨2, ![N, M]⟩ : Shape) ⟨2, ![M, J]⟩ ⟨2, ![N, J]⟩ [1] [0] [0] [1] [] [])
  (wf0 : DotDims.WF (⟨2, ![N, J]⟩ : Shape) ⟨2, ![J, I]⟩ ⟨2, ![N, I]⟩ [1] [0] [0] [1] [] [])
  (wf1 : DotDims.WF (⟨2, ![N, I]⟩ : Shape) ⟨2, ![I, O]⟩ ⟨2, ![N, O]⟩ [1] [0] [0] [1] [] [])
  (hT : (⟨2, ![M, J]⟩ : Shape).Transposes [1, 0] ⟨2, ![J, M]⟩)
  (hR : (⟨2, ![N, M]⟩ : Shape).Reduces [1] ⟨1, ![N]⟩) (hC : (⟨1, ![N]⟩ : Shape).ShapeCasts ⟨2, ![N, 1]⟩)
  (hB : (⟨2, ![N, 1]⟩ : Shape).Broadcasts ⟨2, ![N, M]⟩) (hφ : FKind.Formats .f32)
  (haccM : (0xFF800000#32 : BitVec FTy.f32.bits) = FKind.maximumf.neutral .f32 hφ)
  (haccS : (0x00000000#32 : BitVec FTy.f32.bits) = FKind.add.neutral .f32 hφ)
  (hB0 : (⟨2, ![1, I]⟩ : Shape).Broadcasts ⟨2, ![N, I]⟩)
  (hB1 : (⟨2, ![1, O]⟩ : Shape).Broadcasts ⟨2, ![N, O]⟩)
  (hlt : FTy.bits .bf16 < FTy.bits .f32)
  (q : FVec Ideal (⟨2, ![N, J]⟩ : Shape) .bf16) (k v : FVec Ideal (⟨2, ![M, J]⟩ : Shape) .bf16)
  (x : FVec Ideal (⟨2, ![N, I]⟩ : Shape) .f32) (w0T : FVec Ideal (⟨2, ![J, I]⟩ : Shape) .bf16)
  (b0 : FVec Ideal (⟨2, ![1, I]⟩ : Shape) .f32)

/-- The first output of a step: scores, softmax along the rows, mixture of v, projection back, residual and bias —
    AttnSpec.out1T of the step's blocks (a narrowing to bf16 is the identity at the exact values). -/
theorem attn_o1_read :
    let S : FVec Ideal (⟨2, ![N, M]⟩ : Shape) .f32 :=
      matmul (plainDot wfS) none q (transpose ⟨2, ![J, M]⟩ [1, 0] k hT) (constant (F := Ideal) ⟨2, ![N, M]⟩ .f32 0x00000000#32)
    let E : FVec Ideal (⟨2, ![N, M]⟩ : Shape) .f32 :=
      exp (subf S (broadcastTo ⟨2, ![N, M]⟩ (shapeCast ⟨2, ![N, 1]⟩
        (multiReduction (F := Ideal) .maximumf [1] ⟨1, ![N]⟩ S 0xFF800000#32 hR hφ haccM) hC) hB))
    let P : FVec Ideal (⟨2, ![N, M]⟩ : Shape) .f32 :=
      divf E (broadcastTo ⟨2, ![N, M]⟩ (shapeCast ⟨2, ![N, 1]⟩
        (multiReduction (F := Ideal) .add [1] ⟨1, ![N]⟩ E 0x00000000#32 hR hφ haccS) hC) hB)
    let AV : FVec Ideal (⟨2, ![N, J]⟩ : Shape) .f32 :=
      matmul (plainDot wfV) none (truncf .bf16 P hlt) v (constant (F := Ideal) ⟨2, ![N, J]⟩ .f32 0x00000000#32)
    addf (addf x (matmul (plainDot wf0) none (truncf .bf16 AV hlt) w0T (constant (F := Ideal) ⟨2, ![N, I]⟩ .f32 0x00000000#32)))
        (broadcastTo ⟨2, ![N, I]⟩ b0 hB0)
      = out1T q k v x w0T b0 := by
  intro S E P AV
  have hS : S = scores q k := scores_read wfS hT q k
  have hE : E = expShift S := expShift_read hR hC hB hφ S haccM
  have hP : P = soft S := (rowDiv_read hR hC hB hφ E haccS).trans (by rw [hE]; rfl)
  have hAV : AV = mix P v := matmul_plain_eq_mix wfV none (truncf .bf16 P hlt) v
  funext j
  obtain ⟨r, i, rfl⟩ : ∃ (r : Fin N) (i : Fin I), j = ix2 r i := ⟨j 0, j 1, eq_ix2 j⟩
  show x (ix2 r i)
      + FloatOps.matmul (plainDot wf0) none (truncf .bf16 AV hlt) w0T (constant (F := Ideal) ⟨2, ![N, I]⟩ .f32 0x00000000#32) (ix2 r i)
      + broadcastTo ⟨2, ![N, I]⟩ b0 hB0 (ix2 r i)
    = x (ix2 r i) + (∑ t : Fin J, mix (soft (scores q k)) v (ix2 r t) * w0T (ix2 t i)) + b0 (ix2 0 i)
  rw [broadcastTo_1b_ab_apply, matmul_plain_apply]
  show x (ix2 r i) + (∑ t : Fin J, AV (ix2 r t) * w0T (ix2 t i)) + b0 (ix2 0 i) = _
  rw [hAV, hP, hS]

variable (w1T : FVec Ideal (⟨2, ![I, O]⟩ : Shape) .bf16) (b1 : FVec Ideal (⟨2, ![1, O]⟩ : Shape) .f32)

/-- The last projection and its bias: AttnSpec.linT. -/
theorem linT_read (o1 : FVec Ideal (⟨2, ![N, I]⟩ : Shape) .f32) :
    addf (matmul (plainDot wf1) none (truncf .bf16 o1 hlt) w1T (constant (F := Ideal) ⟨2, ![N, O]⟩ .f32 0x00000000#32))
        (broadcastTo ⟨2, ![N, O]⟩ b1 hB1)
      = linT o1 w1T b1 := by
  funext j
  obtain ⟨r, o, rfl⟩ : ∃ (r : Fin N) (o : Fin O), j = ix2 r o := ⟨j 0, j 1, eq_ix2 j⟩
  show FloatOps.matmul (plainDot wf1) none (truncf .bf16 o1 hlt) w1T (constant (F := Ideal) ⟨2, ![N, O]⟩ .f32 0x00000000#32) (ix2 r o)
      + broadcastTo ⟨2, ![N, O]⟩ b1 hB1 (ix2 r o)
    = (∑ i : Fin I, o1 (ix2 r i) * w1T (ix2 i o)) + b1 (ix2 0 o)
  rw [broadcastTo_1b_ab_apply, matmul_plain_apply]
  rfl

end Body

/-! ## 5. Row n of the outputs uses row n of q and of x only -/

section RowLocal

variable {N N' M I J O : ℕ}

theorem scores_row (q : Mat N J) (q' : Mat N' J) (k : Mat M J) (n : Fin N) (n' : Fin N')
    (hq : ∀ t, q (ix2 n t) = q' (ix2 n' t)) (m : Fin M) : scores q k (ix2 n m) = scores q' k (ix2 n' m) := by
  show ∑ t : Fin J, q (ix2 n t) * k (ix2 m t) = ∑ t : Fin J, q' (ix2 n' t) * k (ix2 m t)
  exact Finset.sum_congr rfl fun t _ => by rw [hq t]

theorem rowMax_row (s : Mat N M) (s' : Mat N' M) (n : Fin N) (n' : Fin N')
    (h : ∀ m, s (ix2 n m) = s' (ix2 n' m)) : rowMax s n = rowMax s' n' := by
  unfold rowMax
  exact congrArg (fun f => (Finset.univ : Finset (Fin M)).fold max negInf f) (funext h)

theorem expShift_row (s : Mat N M) (s' : Mat N' M) (n : Fin N) (n' : Fin N')
    (h : ∀ m, s (ix2 n m) = s' (ix2 n' m)) (m : Fin M) : expShift s (ix2 n m) = expShift s' (ix2 n' m) := by
  show Ideal.exp (s (ix2 n m) - rowMax s n) = Ideal.exp (s' (ix2 n' m) - rowMax s' n')
  rw [h m, rowMax_row s s' n n' h]

theorem rowSum_row (e : Mat N M) (e' : Mat N' M) (n : Fin N) (n' : Fin N')
    (h : ∀ m, e (ix2 n m) = e' (ix2 n' m)) : rowSum e n = rowSum e' n' :=
  Finset.sum_congr rfl fun m _ => h m

theorem soft_row (s : Mat N M) (s' : Mat N' M) (n : Fin N) (n' : Fin N')
    (h : ∀ m, s (ix2 n m) = s' (ix2 n' m)) (m : Fin M) : soft s (ix2 n m) = soft s' (ix2 n' m) := by
  show Ideal.div (expShift s (ix2 n m)) (rowSum (expShift s) n) = Ideal.div (expShift s' (ix2 n' m)) (rowSum (expShift s') n')
  rw [expShift_row s s' n n' h m, rowSum_row (expShift s) (expShift s') n n' (expShift_row s s' n n' h)]

theorem mix_row (a : Mat N M) (a' : Mat N' M) (v : Mat M J) (n : Fin N) (n' : Fin N')
    (h : ∀ m, a (ix2 n m) = a' (ix2 n' m)) (t : Fin J) : mix a v (ix2 n t) = mix a' v (ix2 n' t) := by
  show ∑ m : Fin M, a (ix2 n m) * v (ix2 m t) = ∑ m : Fin M, a' (ix2 n' m) * v (ix2 m t)
  exact Finset.sum_congr rfl fun m _ => by rw [h m]

variable (q : Mat N J) (q' : Mat N' J) (k v : Mat M J) (x : Mat N I) (x' : Mat N' I) (w0T : Mat J I) (b0 : Mat 1 I)
  (w1T : Mat I O) (b1 : Mat 1 O)

/-- Row n of out1T from q, x is row n' of out1T from q', x' when those rows of q, q' and of x, x' agree. -/
theorem out1T_row (n : Fin N) (n' : Fin N') (hq : ∀ t, q (ix2 n t) = q' (ix2 n' t))
    (hx : ∀ i, x (ix2 n i) = x' (ix2 n' i)) (i : Fin I) :
    out1T q k v x w0T b0 (ix2 n i) = out1T q' k v x' w0T b0 (ix2 n' i) := by
  show x (ix2 n i) + (∑ t : Fin J, mix (soft (scores q k)) v (ix2 n t) * w0T (ix2 t i)) + b0 (ix2 0 i)
    = x' (ix2 n' i) + (∑ t : Fin J, mix (soft (scores q' k)) v (ix2 n' t) * w0T (ix2 t i)) + b0 (ix2 0 i)
  have hm : ∀ t : Fin J, mix (soft (scores q k)) v (ix2 n t) = mix (soft (scores q' k)) v (ix2 n' t) :=
    mix_row _ _ v n n' (soft_row _ _ n n' (scores_row q q' k n n' hq))
  rw [hx i, Finset.sum_congr rfl fun t _ => by rw [hm t]]

/-- The same for out2T. -/
theorem out2T_row (n : Fin N) (n' : Fin N') (hq : ∀ t, q (ix2 n t) = q' (ix2 n' t))
    (hx : ∀ i, x (ix2 n i) = x' (ix2 n' i)) (o : Fin O) :
    out2T q k v x w0T b0 w1T b1 (ix2 n o) = out2T q' k v x' w0T b0 w1T b1 (ix2 n' o) := by
  show (∑ i : Fin I, out1T q k v x w0T b0 (ix2 n i) * w1T (ix2 i o)) + b1 (ix2 0 o)
    = (∑ i : Fin I, out1T q' k v x' w0T b0 (ix2 n' i) * w1T (ix2 i o)) + b1 (ix2 0 o)
  rw [Finset.sum_congr rfl fun i _ => by rw [out1T_row q q' k v x x' w0T b0 n n' hq hx i]]

end RowLocal

/-! ## 6. The same, at any two indices on that row and one column -/

section AtIndex

variable {N N' M I J O : ℕ}

/-- Row locality of out1T between any two indices with the same column whose rows carry the same q and x; the
    operands every row shares may be given as equal rather than identical. -/
theorem out1T_at (q : Mat N J) (q' : Mat N' J) (k k' v v' : Mat M J) (x : Mat N I) (x' : Mat N' I)
    (w0T w0T' : Mat J I) (b0 b0' : Mat 1 I)
    (j : (⟨2, ![N, I]⟩ : Shape).Idx) (j' : (⟨2, ![N', I]⟩ : Shape).Idx)
    (hk : k = k') (hv : v = v') (hw0 : w0T = w0T') (hb0 : b0 = b0')
    (h1 : j 1 = j' 1) (hq : ∀ t, q (ix2 (j 0) t) = q' (ix2 (j' 0) t)) (hx : ∀ i, x (ix2 (j 0) i) = x' (ix2 (j' 0) i)) :
    out1T q k v x w0T b0 j = out1T q' k' v' x' w0T' b0' j' := by
  subst hk hv hw0 hb0
  calc out1T q k v x w0T b0 j
      = out1T q k v x w0T b0 (ix2 (j 0) (j 1)) := congrArg _ (eq_ix2 j)
    _ = out1T q' k v x' w0T b0 (ix2 (j' 0) (j 1)) := out1T_row q q' k v x x' w0T b0 (j 0) (j' 0) hq hx (j 1)
    _ = out1T q' k v x' w0T b0 (ix2 (j' 0) (j' 1)) := by rw [h1]
    _ = out1T q' k v x' w0T b0 j' := (congrArg _ (eq_ix2 j')).symm

/-- The same for out2T. -/
theorem out2T_at (q : Mat N J) (q' : Mat N' J) (k k' v v' : Mat M J) (x : Mat N I) (x' : Mat N' I)
    (w0T w0T' : Mat J I) (b0 b0' : Mat 1 I) (w1T w1T' : Mat I O) (b1 b1' : Mat 1 O)
    (j : (⟨2, ![N, O]⟩ : Shape).Idx) (j' : (⟨2, ![N', O]⟩ : Shape).Idx)
    (hk : k = k') (hv : v = v') (hw0 : w0T = w0T') (hb0 : b0 = b0') (hw1 : w1T = w1T') (hb1 : b1 = b1')
    (h1 : j 1 = j' 1) (hq : ∀ t, q (ix2 (j 0) t) = q' (ix2 (j' 0) t)) (hx : ∀ i, x (ix2 (j 0) i) = x' (ix2 (j' 0) i)) :
    out2T q k v x w0T b0 w1T b1 j = out2T q' k' v' x' w0T' b0' w1T' b1' j' := by
  subst hk hv hw0 hb0 hw1 hb1
  calc out2T q k v x w0T b0 w1T b1 j
      = out2T q k v x w0T b0 w1T b1 (ix2 (j 0) (j 1)) := congrArg _ (eq_ix2 j)
    _ = out2T q' k v x' w0T b0 w1T b1 (ix2 (j' 0) (j 1)) := out2T_row q q' k v x x' w0T b0 w1T b1 (j 0) (j' 0) hq hx (j 1)
    _ = out2T q' k v x' w0T b0 w1T b1 (ix2 (j' 0) (j' 1)) := by rw [h1]
    _ = out2T q' k v x' w0T b0 w1T b1 j' := (congrArg _ (eq_ix2 j')).symm

end AtIndex

/-- The zero offsets of a whole-block access, as the constant function. -/
theorem zeros2 : (![0, 0] : Fin 2 → Nat) = fun _ => 0 := funext fun a => by fin_cases a <;> rfl

end Cert.AttnBlock

end
-- ==== Proof.AttnRegion1.lean ====
/-
  The first attention call: what its output array holds after the run, as one function of the arrays the call finds.

  One grid step reads a block of 256 rows of q and of x and the whole of k, v, the weights and the biases, and
  stores 256 rows of the result. Its arithmetic is AttnSpec.out2T of those blocks; a row of out2T uses q and x
  through that row only, so the stored rows are rows 256 t … 256 t + 255 of out2T of the whole arrays; the sixteen
  steps' row blocks tile the 4096 rows.
-/
import proofs.«178282_j721554506169_2_alg».proof.Proof.Gen.KernelIdeal.Frame
import proofs.«178282_j721554506169_2_alg».proof.Proof.AttnSpec
import proofs.«178282_j721554506169_2_alg».proof.Proof.AttnBlockLemmas
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.AttnSpec Cert.AttnBlock

/-! ## One step's arithmetic -/

/-- What a step stores is out2T of the blocks it loaded (256 rows of q and x; all 4096 rows of k and v). -/
theorem step1_eq (v0 : Vec Ideal S256x256 .bf16) (v2 v4 : Vec Ideal S4096x256 .bf16) (v6 : Vec Ideal S256x512 .f32)
    (v8 : Vec Ideal S256x512 .bf16) (v10 : Vec Ideal S1x512 .f32) (v12 : Vec Ideal S512x256 .bf16)
    (v14 : Vec Ideal S1x256 .f32) :
    Gen.k1_pay1 (Gen.k1_pay2 v0 v2 v4 v6 v8 v10 v12) (Gen.k1_pay3 v14)
      = out2T (N := 256) (M := 4096) (I := 512) (J := 256) (O := 256) v0 v2 v4 v6 v8 v10 v12 v14 := by
  unfold Gen.k1_pay1 Gen.k1_pay2 Gen.k1_pay3
  simp only [shapeCast_self]
  refine (linT_read (N := 256) (I := 512) (O := 256) dot_S256x512_S512x256_S256x256_1_0_0_1_n_n.wf
    Gen.broadcasts_S1x256_S256x256 Gen.bitsLt_bf16_f32 v12 v14 _).trans ?_
  exact congrArg (fun o1 => linT o1 v12 v14)
    (attn_o1_read (N := 256) (M := 4096) (J := 256) (I := 512)
      dot_S256x256_S256x4096_S256x4096_1_0_0_1_n_n.wf dot_S256x4096_S4096x256_S256x256_1_0_0_1_n_n.wf
      dot_S256x256_S256x512_S256x512_1_0_0_1_n_n.wf Gen.transposes_S4096x256_p1_0_S256x4096
      Gen.reduces_S256x4096_S256 Gen.shapeCasts_S256_S256x1 Gen.broadcasts_S256x1_S256x4096 (.inl rfl) rfl rfl
      Gen.broadcasts_S1x512_S256x512 Gen.bitsLt_bf16_f32 v0 v2 v4 v6 v8 v10)

/-! ## From the steps' row blocks to the array -/

variable (V : (c : Dev nD) → (b : Ref sig .tc) → Buf (Elt Ideal) ((c : Thread nD τ).loc b))

/-- The index maps over the grid: the row-tiled windows (q, x, the result) sit at row block t, the others at the origin. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- An untiled window's block is its whole array. -/
theorem whole1_1 (c : Dev nD) (t : Fin cfg1.N) :
    Gen.iblk1 V c 1 t = (V c (Pipeline.arrRef spec1 1) : S4096x256.Idx → EReal) := by
  obtain ⟨-, -, e0, e1, -⟩ := idx_facts1 t
  funext y
  show V c (Pipeline.arrRef spec1 1) (((cfg1.win 1).blk t).view.emb y) = V c (Pipeline.arrRef spec1 1) y
  refine congrArg _ (funext fun a => Fin.ext ?_)
  match a with
  | ⟨0, _⟩ => show win1_1.index t (0 : Fin 2) * 4096 + 1 * (y 0).val = (y 0).val; rw [e0]; omega
  | ⟨1, _⟩ => show win1_1.index t (1 : Fin 2) * 256 + 1 * (y 1).val = (y 1).val; rw [e1]; omega

theorem whole1_2 (c : Dev nD) (t : Fin cfg1.N) :
    Gen.iblk1 V c 2 t = (V c (Pipeline.arrRef spec1 2) : S4096x256.Idx → EReal) := by
  obtain ⟨-, -, -, -, e0, e1, -⟩ := idx_facts1 t
  funext y
  show V c (Pipeline.arrRef spec1 2) (((cfg1.win 2).blk t).view.emb y) = V c (Pipeline.arrRef spec1 2) y
  refine congrArg _ (funext fun a => Fin.ext ?_)
  match a with
  | ⟨0, _⟩ => show win1_2.index t (0 : Fin 2) * 4096 + 1 * (y 0).val = (y 0).val; rw [e0]; omega
  | ⟨1, _⟩ => show win1_2.index t (1 : Fin 2) * 256 + 1 * (y 1).val = (y 1).val; rw [e1]; omega

theorem whole1_4 (c : Dev nD) (t : Fin cfg1.N) :
    Gen.iblk1 V c 4 t = (V c (Pipeline.arrRef spec1 4) : S256x512.Idx → EReal) := by
  obtain ⟨-, -, -, -, -, -, -, -, e0, e1, -⟩ := idx_facts1 t
  funext y
  show V c (Pipeline.arrRef spec1 4) (((cfg1.win 4).blk t).view.emb y) = V c (Pipeline.arrRef spec1 4) y
  refine congrArg _ (funext fun a => Fin.ext ?_)
  match a with
  | ⟨0, _⟩ => show win1_4.index t (0 : Fin 2) * 256 + 1 * (y 0).val = (y 0).val; rw [e0]; omega
  | ⟨1, _⟩ => show win1_4.index t (1 : Fin 2) * 512 + 1 * (y 1).val = (y 1).val; rw [e1]; omega

theorem whole1_5 (c : Dev nD) (t : Fin cfg1.N) :
    Gen.iblk1 V c 5 t = (V c (Pipeline.arrRef spec1 5) : S1x512.Idx → EReal) := by
  obtain ⟨-, -, -, -, -, -, -, -, -, -, e0, e1, -⟩ := idx_facts1 t
  funext y
  show V c (Pipeline.arrRef spec1 5) (((cfg1.win 5).blk t).view.emb y) = V c (Pipeline.arrRef spec1 5) y
  refine congrArg _ (funext fun a => Fin.ext ?_)
  match a with
  | ⟨0, _⟩ => show win1_5.index t (0 : Fin 2) * 1 + 1 * (y 0).val = (y 0).val; rw [e0]; omega
  | ⟨1, _⟩ => show win1_5.index t (1 : Fin 2) * 512 + 1 * (y 1).val = (y 1).val; rw [e1]; omega

theorem whole1_6 (c : Dev nD) (t : Fin cfg1.N) :
    Gen.iblk1 V c 6 t = (V c (Pipeline.arrRef spec1 6) : S512x256.Idx → EReal) := by
  obtain ⟨-, -, -, -, -, -, -, -, -, -, -, -, e0, e1, -⟩ := idx_facts1 t
  funext y
  show V c (Pipeline.arrRef spec1 6) (((cfg1.win 6).blk t).view.emb y) = V c (Pipeline.arrRef spec1 6) y
  refine congrArg _ (funext fun a => Fin.ext ?_)
  match a with
  | ⟨0, _⟩ => show win1_6.index t (0 : Fin 2) * 512 + 1 * (y 0).val = (y 0).val; rw [e0]; omega
  | ⟨1, _⟩ => show win1_6.index t (1 : Fin 2) * 256 + 1 * (y 1).val = (y 1).val; rw [e1]; omega

theorem whole1_7 (c : Dev nD) (t : Fin cfg1.N) :
    Gen.iblk1 V c 7 t = (V c (Pipeline.arrRef spec1 7) : S1x256.Idx → EReal) := by
  obtain ⟨-, -, -, -, -, -, -, -, -, -, -, -, -, -, e0, e1, -⟩ := idx_facts1 t
  funext y
  show V c (Pipeline.arrRef spec1 7) (((cfg1.win 7).blk t).view.emb y) = V c (Pipeline.arrRef spec1 7) y
  refine congrArg _ (funext fun a => Fin.ext ?_)
  match a with
  | ⟨0, _⟩ => show win1_7.index t (0 : Fin 2) * 1 + 1 * (y 0).val = (y 0).val; rw [e0]; omega
  | ⟨1, _⟩ => show win1_7.index t (1 : Fin 2) * 256 + 1 * (y 1).val = (y 1).val; rw [e1]; omega

/-- What a step leaves in the result's buffer, over any blocks: its one store's payload. -/
theorem out1_8_eq (x0 : Vec Ideal S256x256 .bf16) (x1 x2 : Vec Ideal S4096x256 .bf16) (x3 : Vec Ideal S256x512 .f32)
    (x4 : Vec Ideal S256x512 .bf16) (x5 : Vec Ideal S1x512 .f32) (x6 : Vec Ideal S512x256 .bf16)
    (x7 : Vec Ideal S1x256 .f32) :
    Gen.out1_8 x0 x1 x2 x3 x4 x5 x6 x7
      = out2T (N := 256) (M := 4096) (I := 512) (J := 256) (O := 256) x0 x1 x2 x3 x4 x5 x6 x7 := by
  unfold Gen.out1_8
  rw [View.canon_unit_zero zeros2]
  simp only [View.ld_unit_zero (S := S256x256) zeros2, View.ld_unit_zero (S := S4096x256) zeros2,
    View.ld_unit_zero (S := S256x512) zeros2, View.ld_unit_zero (S := S1x512) zeros2,
    View.ld_unit_zero (S := S512x256) zeros2, View.ld_unit_zero (S := S1x256) zeros2]
  exact step1_eq x0 x1 x2 x3 x4 x5 x6 x7

/-- The result of the call as one function of the arrays it finds. -/
abbrev result1 (c : Dev nD) : S4096x256.Idx → EReal :=
  out2T (N := 4096) (M := 4096) (I := 512) (J := 256) (O := 256)
    (V c (Pipeline.arrRef spec1 0) : S4096x256.Idx → EReal) (V c (Pipeline.arrRef spec1 1) : S4096x256.Idx → EReal)
    (V c (Pipeline.arrRef spec1 2) : S4096x256.Idx → EReal) (V c (Pipeline.arrRef spec1 3) : S4096x512.Idx → EReal)
    (V c (Pipeline.arrRef spec1 4) : S256x512.Idx → EReal) (V c (Pipeline.arrRef spec1 5) : S1x512.Idx → EReal)
    (V c (Pipeline.arrRef spec1 6) : S512x256.Idx → EReal) (V c (Pipeline.arrRef spec1 7) : S1x256.Idx → EReal)

/-- A stored element keeps its column. -/
theorem col1_8 (t : Fin cfg1.N) (y : S256x256.Idx) : y 1 = ((cfg1.win 8).blk t).view.emb y 1 := by
  obtain ⟨-, -, -, -, -, -, -, -, -, -, -, -, -, -, -, -, o0, o1⟩ := idx_facts1 t
  apply Fin.ext
  show (y 1).val = win1_8.index t (1 : Fin 2) * 256 + 1 * (y 1).val
  rw [o1]; omega

/-- Row r of step t's block of q is the row of q where the result's element of that row goes. -/
theorem qrow1 (c : Dev nD) (t : Fin cfg1.N) (y : S256x256.Idx) (tt : Fin 256) :
    Gen.iblk1 V c 0 t (ix2 (y 0) tt)
      = (V c (Pipeline.arrRef spec1 0) : S4096x256.Idx → EReal) (ix2 (((cfg1.win 8).blk t).view.emb y 0) tt) := by
  obtain ⟨q0, q1, -, -, -, -, -, -, -, -, -, -, -, -, -, -, o0, o1⟩ := idx_facts1 t
  show V c (Pipeline.arrRef spec1 0) (((cfg1.win 0).blk t).view.emb (ix2 (y 0) tt))
    = V c (Pipeline.arrRef spec1 0) (ix2 (((cfg1.win 8).blk t).view.emb y 0) tt)
  refine congrArg _ (funext fun a => Fin.ext ?_)
  match a with
  | ⟨0, _⟩ =>
    show win1_0.index t (0 : Fin 2) * 256 + 1 * (y 0).val = win1_8.index t (0 : Fin 2) * 256 + 1 * (y 0).val
    rw [q0, o0]
  | ⟨1, _⟩ => show win1_0.index t (1 : Fin 2) * 256 + 1 * tt.val = tt.val; rw [q1]; omega

/-- The same for x. -/
theorem xrow1 (c : Dev nD) (t : Fin cfg1.N) (y : S256x256.Idx) (i : Fin 512) :
    Gen.iblk1 V c 3 t (ix2 (y 0) i)
      = (V c (Pipeline.arrRef spec1 3) : S4096x512.Idx → EReal) (ix2 (((cfg1.win 8).blk t).view.emb y 0) i) := by
  obtain ⟨-, -, -, -, -, -, x0, x1, -, -, -, -, -, -, -, -, o0, o1⟩ := idx_facts1 t
  show V c (Pipeline.arrRef spec1 3) (((cfg1.win 3).blk t).view.emb (ix2 (y 0) i))
    = V c (Pipeline.arrRef spec1 3) (ix2 (((cfg1.win 8).blk t).view.emb y 0) i)
  refine congrArg _ (funext fun a => Fin.ext ?_)
  match a with
  | ⟨0, _⟩ =>
    show win1_3.index t (0 : Fin 2) * 256 + 1 * (y 0).val = win1_8.index t (0 : Fin 2) * 256 + 1 * (y 0).val
    rw [x0, o0]
  | ⟨1, _⟩ => show win1_3.index t (1 : Fin 2) * 512 + 1 * i.val = i.val; rw [x1]; omega

/-- Step t's out2T of its blocks, at a local index, is the result at the index the element is stored to. -/
theorem block1_8 (c : Dev nD) (t : Fin cfg1.N) (y : S256x256.Idx) :
    out2T (N := 256) (M := 4096) (I := 512) (J := 256) (O := 256)
        (Gen.iblk1 V c 0 t) (Gen.iblk1 V c 1 t) (Gen.iblk1 V c 2 t) (Gen.iblk1 V c 3 t) (Gen.iblk1 V c 4 t)
        (Gen.iblk1 V c 5 t) (Gen.iblk1 V c 6 t) (Gen.iblk1 V c 7 t) y
      = result1 V c (((cfg1.win 8).blk t).view.emb y) :=
  out2T_at (N := 256) (N' := 4096) (M := 4096) (I := 512) (J := 256) (O := 256)
    (Gen.iblk1 V c 0 t) (V c (Pipeline.arrRef spec1 0) : S4096x256.Idx → EReal)
    (Gen.iblk1 V c 1 t) (V c (Pipeline.arrRef spec1 1) : S4096x256.Idx → EReal)
    (Gen.iblk1 V c 2 t) (V c (Pipeline.arrRef spec1 2) : S4096x256.Idx → EReal)
    (Gen.iblk1 V c 3 t) (V c (Pipeline.arrRef spec1 3) : S4096x512.Idx → EReal)
    (Gen.iblk1 V c 4 t) (V c (Pipeline.arrRef spec1 4) : S256x512.Idx → EReal)
    (Gen.iblk1 V c 5 t) (V c (Pipeline.arrRef spec1 5) : S1x512.Idx → EReal)
    (Gen.iblk1 V c 6 t) (V c (Pipeline.arrRef spec1 6) : S512x256.Idx → EReal)
    (Gen.iblk1 V c 7 t) (V c (Pipeline.arrRef spec1 7) : S1x256.Idx → EReal)
    y (((cfg1.win 8).blk t).view.emb y)
    (whole1_1 V c t) (whole1_2 V c t) (whole1_4 V c t) (whole1_5 V c t) (whole1_6 V c t) (whole1_7 V c t)
    (col1_8 t y) (qrow1 V c t y) (xrow1 V c t y)

/-- What step t writes back is block t of the result. -/
theorem flushed1_8_eq (c : Dev nD) (t : Fin cfg1.N) :
    (Gen.dat1 (F := Ideal) V c).flushed 8 t = ((cfg1.win 8).blk t).view.read (Elt Ideal) (result1 V c) := by
  show (cfg1.win 8).cut (grid1.coords t) ((Gen.dat1 V c).after 8 t) = _
  rw [Gen.after1_8, out1_8_eq (Gen.iblk1 V c 0 t) (Gen.iblk1 V c 1 t) (Gen.iblk1 V c 2 t) (Gen.iblk1 V c 3 t)
    (Gen.iblk1 V c 4 t) (Gen.iblk1 V c 5 t) (Gen.iblk1 V c 6 t) (Gen.iblk1 V c 7 t)]
  funext y
  exact block1_8 V c t y

/-- An index of the array is in step t's block iff each coordinate is in the block's range on its axis. -/
theorem mem_blk1_8 (t : Fin cfg1.N) (i : S4096x256.Idx) :
    i ∈ ((cfg1.win 8).blk t).view.set ↔ ∀ a : Fin 2, win1_8.index t a * S256x256.size a ≤ (i a).val
      ∧ (i a).val < win1_8.index t a * S256x256.size a + S256x256.size a := by
  show i ∈ ((View.whole main_v34).slice (win1_8.rect t)).set ↔ _
  rw [View.set_slice_whole, Rect.mem_set_unit]
  exact Iff.rfl

/-- Every row is in the block of the step its row block names. -/
theorem rows_cover1_8 (i : S4096x256.Idx) :
    ∃ t : Fin cfg1.N, (cfg1.win 8).flush t = true ∧ i ∈ ((cfg1.win 8).blk t).view.set := by
  have hi0 : (i 0).val < 4096 := (i 0).isLt
  have hi1 : (i 1).val < 256 := (i 1).isLt
  have hN : cfg1.N = 16 := Gen.N_1
  have ht : (i 0).val / 256 < cfg1.N := by rw [hN]; omega
  obtain ⟨-, -, -, -, -, -, -, -, -, -, -, -, -, -, -, -, o0, o1⟩ := idx_facts1 ⟨(i 0).val / 256, ht⟩
  refine ⟨⟨(i 0).val / 256, ht⟩, Gen.flush1_8 _, ?_⟩
  rw [mem_blk1_8]
  intro a
  match a with
  | ⟨0, _⟩ =>
    show win1_8.index ⟨(i 0).val / 256, ht⟩ (0 : Fin 2) * 256 ≤ (i 0).val
      ∧ (i 0).val < win1_8.index ⟨(i 0).val / 256, ht⟩ (0 : Fin 2) * 256 + 256
    rw [o0]
    show (i 0).val / 256 * 256 ≤ (i 0).val ∧ (i 0).val < (i 0).val / 256 * 256 + 256
    omega
  | ⟨1, _⟩ =>
    show win1_8.index ⟨(i 0).val / 256, ht⟩ (1 : Fin 2) * 256 ≤ (i 1).val
      ∧ (i 1).val < win1_8.index ⟨(i 0).val / 256, ht⟩ (1 : Fin 2) * 256 + 256
    rw [o1]
    omega

/-- THE ARRAY after the call: out2T of the arrays the call finds. -/
theorem region1_out (c : Dev nD) :
    (Gen.dat1 (F := Ideal) V c).arrAt 8 cfg1.N
      = out2T (N := 4096) (M := 4096) (I := 512) (J := 256) (O := 256)
          (V c (Pipeline.arrRef spec1 0) : S4096x256.Idx → EReal) (V c (Pipeline.arrRef spec1 1) : S4096x256.Idx → EReal)
          (V c (Pipeline.arrRef spec1 2) : S4096x256.Idx → EReal) (V c (Pipeline.arrRef spec1 3) : S4096x512.Idx → EReal)
          (V c (Pipeline.arrRef spec1 4) : S256x512.Idx → EReal) (V c (Pipeline.arrRef spec1 5) : S1x512.Idx → EReal)
          (V c (Pipeline.arrRef spec1 6) : S512x256.Idx → EReal) (V c (Pipeline.arrRef spec1 7) : S1x256.Idx → EReal) :=
  (Gen.dat1 V c).arrAt_eq_of_cover 8 (result1 V c) (fun t _ => flushed1_8_eq V c t) rows_cover1_8

end Cert.KernelIdeal.RegionValue

end
-- ==== Proof.PadAlgebra.lean ====
/-
  Why widening by zeros and storing a weight transposed change nothing.

  Two facts are used and nothing else. First, a transposed weight read at (i, o) is the weight read at (o, i), and a
  one-row bias read at column o is the bias at o: the transposed spelling of a layer is the same sum, term by term.
  Second, in the extended reals 0 * y = 0, y * 0 = 0, 0 + y = y and y + 0 = y hold for every y, infinite ones
  included; so a contraction over a width extended by zero entries is the contraction over the original width, and a
  column all of whose factors are zero holds 0 + 0 = 0. No distributivity and no cancellation is used, so nothing
  here needs any entry to be finite. The exponential, the quotient and the row maximum are never opened: they are fed
  equal arguments.
-/
import proofs.«178282_j721554506169_2_alg».proof.Proof.AttnPad

namespace Cert.AttnSpec
open Idealize.ShloMosaic Idealize.ShloMosaic.ValueIdx

/-! ## Sums over a range extended by zeros -/

/-- A sum over b terms of which those from the a-th on are zero is the sum of the first a terms. -/
theorem sum_pad {a b : Nat} (hab : a ≤ b) (F : Fin a → EReal) :
    ∑ i : Fin b, (if h : i.val < a then F ⟨i.val, h⟩ else 0) = ∑ i : Fin a, F i := by
  obtain ⟨d, rfl⟩ := Nat.exists_eq_add_of_le hab
  rw [Fin.sum_univ_add]
  have hz : ∑ i : Fin d, (if h : (Fin.natAdd a i).val < a then F ⟨(Fin.natAdd a i).val, h⟩ else 0) = 0 := by
    apply Finset.sum_eq_zero
    intro i _
    have hn : ¬ (Fin.natAdd a i).val < a := by rw [Fin.coe_natAdd]; omega
    rw [dif_neg hn]
  rw [hz, add_zero]
  apply Finset.sum_congr rfl
  intro i _
  have hp : (Fin.castAdd d i).val < a := by rw [Fin.coe_castAdd]; exact i.isLt
  rw [dif_pos hp]
  rfl

/-- The same for any summand that agrees with F below a and vanishes from a on. -/
theorem sum_pad_of {a b : Nat} (hab : a ≤ b) (G : Fin b → EReal) (F : Fin a → EReal)
    (h1 : ∀ (i : Fin b) (h : i.val < a), G i = F ⟨i.val, h⟩) (h0 : ∀ i : Fin b, ¬ i.val < a → G i = 0) :
    ∑ i : Fin b, G i = ∑ i : Fin a, F i := by
  rw [← sum_pad hab F]
  apply Finset.sum_congr rfl
  intro i _
  by_cases h : i.val < a
  · rw [dif_pos h, h1 i h]
  · rw [dif_neg h, h0 i h]

end Cert.AttnSpec

namespace Cert.AttnSpec
open Idealize.ShloMosaic Idealize.ShloMosaic.ValueIdx

/-! ## The re-arrangements read at a point -/

section points
variable {N M a : Nat}

theorem padCols_of_lt (b : Nat) (x : Mat N a) (n : Fin N) (o : Fin b) (h : o.val < a) :
    padCols b x (ix2 n o) = x (ix2 n ⟨o.val, h⟩) := dif_pos h

theorem padCols_of_not_lt (b : Nat) (x : Mat N a) (n : Fin N) (o : Fin b) (h : ¬ o.val < a) :
    padCols b x (ix2 n o) = 0 := dif_neg h

theorem padRows_of_lt (b : Nat) (x : Mat a M) (n : Fin b) (o : Fin M) (h : n.val < a) :
    padRows b x (ix2 n o) = x (ix2 ⟨n.val, h⟩ o) := dif_pos h

theorem padRows_of_not_lt (b : Nat) (x : Mat a M) (n : Fin b) (o : Fin M) (h : ¬ n.val < a) :
    padRows b x (ix2 n o) = 0 := dif_neg h

theorem padVec_of_lt (b : Nat) (v : Vect a) (o : Fin b) (h : o.val < a) :
    padVec b v (ix1 o) = v (ix1 ⟨o.val, h⟩) := dif_pos h

theorem padVec_of_not_lt (b : Nat) (v : Vect a) (o : Fin b) (h : ¬ o.val < a) :
    padVec b v (ix1 o) = 0 := dif_neg h

theorem tr_apply (x : Mat N M) (m : Fin M) (n : Fin N) : tr x (ix2 m n) = x (ix2 n m) := rfl

theorem rowOf_apply (v : Vect a) (z : Fin 1) (o : Fin a) : rowOf v (ix2 z o) = v (ix1 o) := rfl

end points

variable {N M I J O : Nat}

/-! ## Transposed weights and one-row biases: the same sums -/

theorem residT_tr (x : Mat N I) (av : Mat N J) (w0 : Mat I J) (b0 : Vect I) :
    residT x av (tr w0) (rowOf b0) = resid x av w0 b0 := by
  funext j
  obtain ⟨n, o, rfl⟩ : ∃ (n : Fin N) (o : Fin I), j = ix2 n o := ⟨j 0, j 1, eq_ix2 j⟩
  rfl

theorem linT_tr (x : Mat N I) (w : Mat O I) (b : Vect O) : linT x (tr w) (rowOf b) = lin x w b := by
  funext j
  obtain ⟨n, o, rfl⟩ : ∃ (n : Fin N) (o : Fin O), j = ix2 n o := ⟨j 0, j 1, eq_ix2 j⟩
  rfl

theorem out1T_tr (q k v : Mat N J) (x : Mat N I) (w0 : Mat I J) (b0 : Vect I) :
    out1T q k v x (tr w0) (rowOf b0) = resid x (mix (soft (scores q k)) v) w0 b0 :=
  residT_tr x (mix (soft (scores q k)) v) w0 b0

theorem out2T_tr (q k v : Mat N J) (x : Mat N I) (w0 : Mat I J) (b0 : Vect I) (w1 : Mat O I) (b1 : Vect O) :
    out2T q k v x (tr w0) (rowOf b0) (tr w1) (rowOf b1) = lin (resid x (mix (soft (scores q k)) v) w0 b0) w1 b1 := by
  show linT (out1T q k v x (tr w0) (rowOf b0)) (tr w1) (rowOf b1) = _
  rw [out1T_tr, linT_tr]

/-! ## Widths extended by zeros -/

/-- Inner products do not see zero columns appended to both factors. -/
theorem scores_pad (J' : Nat) (hJ : J ≤ J') (q : Mat N J) (k : Mat M J) :
    scores (padCols J' q) (padCols J' k) = scores q k := by
  funext j
  obtain ⟨n, m, rfl⟩ : ∃ (n : Fin N) (m : Fin M), j = ix2 n m := ⟨j 0, j 1, eq_ix2 j⟩
  show ∑ t : Fin J', padCols J' q (ix2 n t) * padCols J' k (ix2 m t) = ∑ t : Fin J, q (ix2 n t) * k (ix2 m t)
  refine sum_pad_of hJ _ (fun t => q (ix2 n t) * k (ix2 m t)) ?_ ?_
  · intro t h
    show padCols J' q (ix2 n t) * padCols J' k (ix2 m t) = q (ix2 n ⟨t.val, h⟩) * k (ix2 m ⟨t.val, h⟩)
    rw [padCols_of_lt J' q n t h, padCols_of_lt J' k m t h]
  · intro t h
    show padCols J' q (ix2 n t) * padCols J' k (ix2 m t) = 0
    rw [padCols_of_not_lt J' q n t h, zero_mul]

/-- Mixing the rows of a matrix widened by zero columns gives the mixture widened by zero columns. -/
theorem mix_pad (J' : Nat) (a : Mat N M) (v : Mat M J) :
    mix a (padCols J' v) = padCols J' (mix a v) := by
  funext j
  obtain ⟨n, o, rfl⟩ : ∃ (n : Fin N) (o : Fin J'), j = ix2 n o := ⟨j 0, j 1, eq_ix2 j⟩
  show ∑ m : Fin M, a (ix2 n m) * padCols J' v (ix2 m o) = padCols J' (mix a v) (ix2 n o)
  by_cases h : o.val < J
  · rw [padCols_of_lt J' (mix a v) n o h]
    show _ = ∑ m : Fin M, a (ix2 n m) * v (ix2 m ⟨o.val, h⟩)
    apply Finset.sum_congr rfl
    intro m _
    rw [padCols_of_lt J' v m o h]
  · rw [padCols_of_not_lt J' (mix a v) n o h]
    apply Finset.sum_eq_zero
    intro m _
    rw [padCols_of_not_lt J' v m o h, mul_zero]

/-- The residual step on widened data: real columns see the unwidened contraction, added columns are zero. -/
theorem residT_pad (I' J' : Nat) (hJ : J ≤ J') (x : Mat N I) (av : Mat N J) (w0 : Mat I J) (b0 : Vect I) :
    residT (padCols I' x) (padCols J' av) (padRows J' (padCols I' (tr w0))) (rowOf (padVec I' b0))
      = padCols I' (resid x av w0 b0) := by
  funext j
  obtain ⟨n, o, rfl⟩ : ∃ (n : Fin N) (o : Fin I'), j = ix2 n o := ⟨j 0, j 1, eq_ix2 j⟩
  show padCols I' x (ix2 n o)
        + (∑ t : Fin J', padCols J' av (ix2 n t) * padRows J' (padCols I' (tr w0)) (ix2 t o))
        + padVec I' b0 (ix1 o) = padCols I' (resid x av w0 b0) (ix2 n o)
  by_cases h : o.val < I
  · rw [padCols_of_lt I' (resid x av w0 b0) n o h, padCols_of_lt I' x n o h, padVec_of_lt I' b0 o h]
    show _ = x (ix2 n ⟨o.val, h⟩) + (∑ t : Fin J, av (ix2 n t) * w0 (ix2 ⟨o.val, h⟩ t)) + b0 (ix1 ⟨o.val, h⟩)
    congr 2
    refine sum_pad_of hJ _ (fun t => av (ix2 n t) * w0 (ix2 ⟨o.val, h⟩ t)) ?_ ?_
    · intro t ht
      show padCols J' av (ix2 n t) * padRows J' (padCols I' (tr w0)) (ix2 t o)
          = av (ix2 n ⟨t.val, ht⟩) * w0 (ix2 ⟨o.val, h⟩ ⟨t.val, ht⟩)
      rw [padCols_of_lt J' av n t ht, padRows_of_lt J' (padCols I' (tr w0)) t o ht,
        padCols_of_lt I' (tr w0) ⟨t.val, ht⟩ o h, tr_apply]
    · intro t ht
      show padCols J' av (ix2 n t) * padRows J' (padCols I' (tr w0)) (ix2 t o) = 0
      rw [padCols_of_not_lt J' av n t ht, zero_mul]
  · rw [padCols_of_not_lt I' (resid x av w0 b0) n o h, padCols_of_not_lt I' x n o h, padVec_of_not_lt I' b0 o h]
    have hz : ∑ t : Fin J', padCols J' av (ix2 n t) * padRows J' (padCols I' (tr w0)) (ix2 t o) = 0 := by
      apply Finset.sum_eq_zero
      intro t _
      by_cases ht : t.val < J
      · rw [padRows_of_lt J' (padCols I' (tr w0)) t o ht, padCols_of_not_lt I' (tr w0) ⟨t.val, ht⟩ o h, mul_zero]
      · rw [padRows_of_not_lt J' (padCols I' (tr w0)) t o ht, mul_zero]
    rw [hz, add_zero, add_zero]

/-- A linear layer fed a widened input, its weight given zero rows to match, is the layer on the input. -/
theorem linT_padIn (I' : Nat) (hI : I ≤ I') (x : Mat N I) (w : Mat O I) (b : Vect O) :
    linT (padCols I' x) (padRows I' (tr w)) (rowOf b) = lin x w b := by
  funext j
  obtain ⟨n, o, rfl⟩ : ∃ (n : Fin N) (o : Fin O), j = ix2 n o := ⟨j 0, j 1, eq_ix2 j⟩
  show (∑ i : Fin I', padCols I' x (ix2 n i) * padRows I' (tr w) (ix2 i o)) + b (ix1 o)
      = (∑ i : Fin I, x (ix2 n i) * w (ix2 o i)) + b (ix1 o)
  congr 1
  refine sum_pad_of hI _ (fun i => x (ix2 n i) * w (ix2 o i)) ?_ ?_
  · intro i hi
    show padCols I' x (ix2 n i) * padRows I' (tr w) (ix2 i o) = x (ix2 n ⟨i.val, hi⟩) * w (ix2 o ⟨i.val, hi⟩)
    rw [padCols_of_lt I' x n i hi, padRows_of_lt I' (tr w) i o hi, tr_apply]
  · intro i hi
    show padCols I' x (ix2 n i) * padRows I' (tr w) (ix2 i o) = 0
    rw [padCols_of_not_lt I' x n i hi, zero_mul]

/-- A linear layer with input and output widths both extended by zeros. -/
theorem linT_pad (I' J' : Nat) (hI : I ≤ I') (hJ : J ≤ J') (x : Mat N I) (w : Mat J I) (b : Vect J) :
    linT (padCols I' x) (padRows I' (padCols J' (tr w))) (rowOf (padVec J' b)) = padCols J' (lin x w b) := by
  funext j
  obtain ⟨n, o, rfl⟩ : ∃ (n : Fin N) (o : Fin J'), j = ix2 n o := ⟨j 0, j 1, eq_ix2 j⟩
  show (∑ i : Fin I', padCols I' x (ix2 n i) * padRows I' (padCols J' (tr w)) (ix2 i o)) + padVec J' b (ix1 o)
      = padCols J' (lin x w b) (ix2 n o)
  by_cases h : o.val < J
  · rw [padCols_of_lt J' (lin x w b) n o h, padVec_of_lt J' b o h]
    show _ = (∑ i : Fin I, x (ix2 n i) * w (ix2 ⟨o.val, h⟩ i)) + b (ix1 ⟨o.val, h⟩)
    congr 1
    refine sum_pad_of hI _ (fun i => x (ix2 n i) * w (ix2 ⟨o.val, h⟩ i)) ?_ ?_
    · intro i hi
      show padCols I' x (ix2 n i) * padRows I' (padCols J' (tr w)) (ix2 i o)
          = x (ix2 n ⟨i.val, hi⟩) * w (ix2 ⟨o.val, h⟩ ⟨i.val, hi⟩)
      rw [padCols_of_lt I' x n i hi, padRows_of_lt I' (padCols J' (tr w)) i o hi,
        padCols_of_lt J' (tr w) ⟨i.val, hi⟩ o h, tr_apply]
    · intro i hi
      show padCols I' x (ix2 n i) * padRows I' (padCols J' (tr w)) (ix2 i o) = 0
      rw [padCols_of_not_lt I' x n i hi, zero_mul]
  · rw [padCols_of_not_lt J' (lin x w b) n o h, padVec_of_not_lt J' b o h]
    have hz : ∑ i : Fin I', padCols I' x (ix2 n i) * padRows I' (padCols J' (tr w)) (ix2 i o) = 0 := by
      apply Finset.sum_eq_zero
      intro i _
      by_cases hi : i.val < I
      · rw [padRows_of_lt I' (padCols J' (tr w)) i o hi, padCols_of_not_lt J' (tr w) ⟨i.val, hi⟩ o h, mul_zero]
      · rw [padRows_of_not_lt I' (padCols J' (tr w)) i o hi, mul_zero]
    rw [hz, add_zero]

/-- A whole block on widened data, the last layer narrowing back: the block on the data. -/
theorem out2T_pad (I' J' : Nat) (hI : I ≤ I') (hJ : J ≤ J') (q k v : Mat N J) (x : Mat N I) (w0 : Mat I J) (b0 : Vect I)
    (w1 : Mat O I) (b1 : Vect O) :
    out2T (padCols J' q) (padCols J' k) (padCols J' v) (padCols I' x) (padRows J' (padCols I' (tr w0))) (rowOf (padVec I' b0))
        (padRows I' (tr w1)) (rowOf b1)
      = lin (resid x (mix (soft (scores q k)) v) w0 b0) w1 b1 := by
  show linT (residT (padCols I' x) (mix (soft (scores (padCols J' q) (padCols J' k))) (padCols J' v))
        (padRows J' (padCols I' (tr w0))) (rowOf (padVec I' b0))) (padRows I' (tr w1)) (rowOf b1) = _
  rw [scores_pad J' hJ q k, mix_pad J' (soft (scores q k)) v,
    residT_pad I' J' hJ x (mix (soft (scores q k)) v) w0 b0,
    linT_padIn I' hI (resid x (mix (soft (scores q k)) v) w0 b0) w1 b1]

end Cert.AttnSpec
-- ==== Proof.AttnModel.lean ====
/-
  The stacked model: two relation-embedding blocks, the second fed by the second output of the first.

  `x` is the matrix of N rows the first block starts from; block 1 has row width I₁, inner width J₁ and produces
  rows of width H; block 2 starts from those, has inner width J₂, and its two outputs (rows of width H, and rows of
  width P) are the program's two results.
-/
import proofs.«178282_j721554506169_2_alg».proof.Proof.AttnSpec

noncomputable section

namespace Cert.AttnSpec

variable {N I₁ J₁ H J₂ P : Nat}

/-- The second output of block 1: what block 2 starts from. -/
def stage1 (x : Mat N I₁) (wq : Mat J₁ I₁) (bq : Vect J₁) (wk : Mat J₁ I₁) (bk : Vect J₁) (wv : Mat J₁ I₁) (bv : Vect J₁)
    (w0 : Mat I₁ J₁) (b0 : Vect I₁) (w1 : Mat H I₁) (b1 : Vect H) : Mat N H :=
  out2 x wq bq wk bk wv bv w0 b0 w1 b1

/-- The program's first result: block 2's first output. -/
def result1 (x : Mat N I₁) (wq : Mat J₁ I₁) (bq : Vect J₁) (wk : Mat J₁ I₁) (bk : Vect J₁) (wv : Mat J₁ I₁) (bv : Vect J₁)
    (w0 : Mat I₁ J₁) (b0 : Vect I₁) (w1 : Mat H I₁) (b1 : Vect H)
    (uq : Mat J₂ H) (cq : Vect J₂) (uk : Mat J₂ H) (ck : Vect J₂) (uv : Mat J₂ H) (cv : Vect J₂)
    (u0 : Mat H J₂) (c0 : Vect H) : Mat N H :=
  out1 (stage1 x wq bq wk bk wv bv w0 b0 w1 b1) uq cq uk ck uv cv u0 c0

/-- The program's second result: block 2's second output. -/
def result2 (x : Mat N I₁) (wq : Mat J₁ I₁) (bq : Vect J₁) (wk : Mat J₁ I₁) (bk : Vect J₁) (wv : Mat J₁ I₁) (bv : Vect J₁)
    (w0 : Mat I₁ J₁) (b0 : Vect I₁) (w1 : Mat H I₁) (b1 : Vect H)
    (uq : Mat J₂ H) (cq : Vect J₂) (uk : Mat J₂ H) (ck : Vect J₂) (uv : Mat J₂ H) (cv : Vect J₂)
    (u0 : Mat H J₂) (c0 : Vect H) (u1 : Mat P H) (c1 : Vect P) : Mat N P :=
  out2 (stage1 x wq bq wk bk wv bv w0 b0 w1 b1) uq cq uk ck uv cv u0 c0 u1 c1

end Cert.AttnSpec

end
-- ==== Proof.KernelModel.lean ====
/-
  The stacked model in the spelling with transposed weights, one-row biases and, for the first block, widths extended
  by zeros.

  Block 1 is run on rows widened from I to I' and with inner width widened from J to J'; its three projections are
  linear layers whose input and output widths are both extended, so each yields the true projection followed by zero
  columns, and the attention and residual steps on such data, closed by a layer that narrows back, give exactly the
  block's second output. Block 2 runs at its true widths, so for it only the transposition of the weights has to be
  undone.
-/
import proofs.«178282_j721554506169_2_alg».proof.Proof.PadAlgebra
import proofs.«178282_j721554506169_2_alg».proof.Proof.AttnModel

namespace Cert.AttnSpec
open Idealize.ShloMosaic Idealize.ShloMosaic.ValueIdx

variable {N I J H J₂ P : Nat}

/-- Block 1 in the transposed, zero-widened spelling is block 1. -/
theorem stage1_widened (I' J' : Nat) (hI : I ≤ I') (hJ : J ≤ J') (x : Mat N I) (wq : Mat J I) (bq : Vect J) (wk : Mat J I) (bk : Vect J) (wv : Mat J I) (bv : Vect J)
    (w0 : Mat I J) (b0 : Vect I) (w1 : Mat H I) (b1 : Vect H) :
    out2T (linT (padCols I' x) (padRows I' (padCols J' (tr wq))) (rowOf (padVec J' bq)))
          (linT (padCols I' x) (padRows I' (padCols J' (tr wk))) (rowOf (padVec J' bk)))
          (linT (padCols I' x) (padRows I' (padCols J' (tr wv))) (rowOf (padVec J' bv)))
          (padCols I' x) (padRows J' (padCols I' (tr w0))) (rowOf (padVec I' b0)) (padRows I' (tr w1)) (rowOf b1)
      = stage1 x wq bq wk bk wv bv w0 b0 w1 b1 := by
  rw [linT_pad I' J' hI hJ x wq bq, linT_pad I' J' hI hJ x wk bk, linT_pad I' J' hI hJ x wv bv,
    out2T_pad I' J' hI hJ (lin x wq bq) (lin x wk bk) (lin x wv bv) x w0 b0 w1 b1]
  rfl

/-- Block 2's first output in the transposed spelling. -/
theorem out1_transposed (s : Mat N H) (uq : Mat J₂ H) (cq : Vect J₂) (uk : Mat J₂ H) (ck : Vect J₂) (uv : Mat J₂ H) (cv : Vect J₂) (u0 : Mat H J₂) (c0 : Vect H) :
    out1T (linT s (tr uq) (rowOf cq)) (linT s (tr uk) (rowOf ck)) (linT s (tr uv) (rowOf cv)) s (tr u0) (rowOf c0)
      = out1 s uq cq uk ck uv cv u0 c0 := by
  rw [linT_tr s uq cq, linT_tr s uk ck, linT_tr s uv cv, out1T_tr (lin s uq cq) (lin s uk ck) (lin s uv cv) s u0 c0]
  rfl

/-- Block 2's second output in the transposed spelling. -/
theorem out2_transposed (s : Mat N H) (uq : Mat J₂ H) (cq : Vect J₂) (uk : Mat J₂ H) (ck : Vect J₂) (uv : Mat J₂ H) (cv : Vect J₂) (u0 : Mat H J₂) (c0 : Vect H)
    (u1 : Mat P H) (c1 : Vect P) :
    out2T (linT s (tr uq) (rowOf cq)) (linT s (tr uk) (rowOf ck)) (linT s (tr uv) (rowOf cv)) s (tr u0) (rowOf c0) (tr u1) (rowOf c1)
      = out2 s uq cq uk ck uv cv u0 c0 u1 c1 := by
  rw [linT_tr s uq cq, linT_tr s uk ck, linT_tr s uv cv,
    out2T_tr (lin s uq cq) (lin s uk ck) (lin s uv cv) s u0 c0 u1 c1]
  rfl

end Cert.AttnSpec
-- ==== Proof.AttnCongr.lean ====
/-
  Equal arguments give equal layers: the congruences of the transposed-spelling layers, stated so that a chain of
  equalities between arrays can be composed argument by argument.
-/
import proofs.«178282_j721554506169_2_alg».proof.Proof.AttnModel

namespace Cert.AttnSpec

variable {N M I J O : Nat}

theorem linT_congr {x x' : Mat N I} {w w' : Mat I O} {b b' : Mat 1 O} (hx : x = x') (hw : w = w') (hb : b = b') :
    linT x w b = linT x' w' b' := by subst hx hw hb; rfl

theorem out1T_congr {q q' : Mat N J} {k k' v v' : Mat M J} {x x' : Mat N I} {w0 w0' : Mat J I} {b0 b0' : Mat 1 I}
    (hq : q = q') (hk : k = k') (hv : v = v') (hx : x = x') (hw0 : w0 = w0') (hb0 : b0 = b0') :
    out1T q k v x w0 b0 = out1T q' k' v' x' w0' b0' := by subst hq hk hv hx hw0 hb0; rfl

theorem out2T_congr {q q' : Mat N J} {k k' v v' : Mat M J} {x x' : Mat N I} {w0 w0' : Mat J I} {b0 b0' : Mat 1 I}
    {w1 w1' : Mat I O} {b1 b1' : Mat 1 O}
    (hq : q = q') (hk : k = k') (hv : v = v') (hx : x = x') (hw0 : w0 = w0') (hb0 : b0 = b0') (hw1 : w1 = w1') (hb1 : b1 = b1') :
    out2T q k v x w0 b0 w1 b1 = out2T q' k' v' x' w0' b0' w1' b1' := by subst hq hk hv hx hw0 hb0 hw1 hb1; rfl

section stacked
variable {I₁ J₁ H J₂ P : Nat}

theorem result1_congr {x x' : Mat N I₁} {wq wq' : Mat J₁ I₁} {bq bq' : Vect J₁} {wk wk' : Mat J₁ I₁} {bk bk' : Vect J₁} {wv wv' : Mat J₁ I₁} {bv bv' : Vect J₁} {w0 w0' : Mat I₁ J₁} {b0 b0' : Vect I₁} {w1 w1' : Mat H I₁} {b1 b1' : Vect H} {uq uq' : Mat J₂ H} {cq cq' : Vect J₂} {uk uk' : Mat J₂ H} {ck ck' : Vect J₂} {uv uv' : Mat J₂ H} {cv cv' : Vect J₂} {u0 u0' : Mat H J₂} {c0 c0' : Vect H}
    (hx : x = x') (hwq : wq = wq') (hbq : bq = bq') (hwk : wk = wk') (hbk : bk = bk') (hwv : wv = wv') (hbv : bv = bv') (hw0 : w0 = w0') (hb0 : b0 = b0') (hw1 : w1 = w1') (hb1 : b1 = b1') (huq : uq = uq') (hcq : cq = cq') (huk : uk = uk') (hck : ck = ck') (huv : uv = uv') (hcv : cv = cv') (hu0 : u0 = u0') (hc0 : c0 = c0') :
    result1 x wq bq wk bk wv bv w0 b0 w1 b1 uq cq uk ck uv cv u0 c0 = result1 x' wq' bq' wk' bk' wv' bv' w0' b0' w1' b1' uq' cq' uk' ck' uv' cv' u0' c0' := by
  subst hx hwq hbq hwk hbk hwv hbv hw0 hb0 hw1 hb1 huq hcq huk hck huv hcv hu0 hc0; rfl

theorem result2_congr {x x' : Mat N I₁} {wq wq' : Mat J₁ I₁} {bq bq' : Vect J₁} {wk wk' : Mat J₁ I₁} {bk bk' : Vect J₁} {wv wv' : Mat J₁ I₁} {bv bv' : Vect J₁} {w0 w0' : Mat I₁ J₁} {b0 b0' : Vect I₁} {w1 w1' : Mat H I₁} {b1 b1' : Vect H} {uq uq' : Mat J₂ H} {cq cq' : Vect J₂} {uk uk' : Mat J₂ H} {ck ck' : Vect J₂} {uv uv' : Mat J₂ H} {cv cv' : Vect J₂} {u0 u0' : Mat H J₂} {c0 c0' : Vect H} {u1 u1' : Mat P H} {c1 c1' : Vect P}
    (hx : x = x') (hwq : wq = wq') (hbq : bq = bq') (hwk : wk = wk') (hbk : bk = bk') (hwv : wv = wv') (hbv : bv = bv') (hw0 : w0 = w0') (hb0 : b0 = b0') (hw1 : w1 = w1') (hb1 : b1 = b1') (huq : uq = uq') (hcq : cq = cq') (huk : uk = uk') (hck : ck = ck') (huv : uv = uv') (hcv : cv = cv') (hu0 : u0 = u0') (hc0 : c0 = c0') (hu1 : u1 = u1') (hc1 : c1 = c1') :
    result2 x wq bq wk bk wv bv w0 b0 w1 b1 uq cq uk ck uv cv u0 c0 u1 c1 = result2 x' wq' bq' wk' bk' wv' bv' w0' b0' w1' b1' uq' cq' uk' ck' uv' cv' u0' c0' u1' c1' := by
  subst hx hwq hbq hwk hbk hwv hbv hw0 hb0 hw1 hb1 huq hcq huk hck huv hcv hu0 hc0 hu1 hc1; rfl

end stacked

end Cert.AttnSpec
-- ==== Proof.Stage1Value.lean ====
/-
  Block 1 as the kernel program computes it.

  The first attention region's inputs are the first projection region's three outputs, the starting matrix widened by
  zero columns, and block 1's remaining weights transposed and widened; each region's output array is the
  transposed-weights spelling of a layer of its inputs. Put together this is the zero-widened, transposed spelling
  of block 1's second output, which is block 1's second output.
-/
import proofs.«178282_j721554506169_2_alg».proof.Proof.Glue1
import proofs.«178282_j721554506169_2_alg».proof.Proof.ProjRegion0
import proofs.«178282_j721554506169_2_alg».proof.Proof.AttnRegion1
import proofs.«178282_j721554506169_2_alg».proof.Proof.KernelModel
import proofs.«178282_j721554506169_2_alg».proof.Proof.AttnCongr

set_option maxRecDepth 16384

noncomputable section

namespace Cert.KernelIdeal.KernelValue

open Cert.KernelIdeal Cert.KernelIdeal.Gen Cert.AttnSpec Cert.KernelIdeal.RegionValue
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 4000000 in
/-- The first projection region's first output: block 1's queries in the transposed, zero-widened spelling. -/
theorem proj0_q (c : Dev nD) :
    ((dat0 (V21 m ρ) c).arrAt 7 cfg0.N : Mat 4096 256)
      = linT (padCols 512 (Glue0.inp m c)) (padRows 512 (padCols 256 (tr (m ((c : Thread nD τ).loc main_arg3))))) (rowOf (padVec 256 (m ((c : Thread nD τ).loc main_arg4)))) :=
  (region0_q (V21 m ρ) c).trans (linT_congr (Glue0.arr0 m ρ c) (Glue0.arr1 m ρ c) (Glue0.arr2 m ρ c))

set_option maxHeartbeats 4000000 in
/-- Its second output: block 1's keys. -/
theorem proj0_k (c : Dev nD) :
    ((dat0 (V21 m ρ) c).arrAt 8 cfg0.N : Mat 4096 256)
      = linT (padCols 512 (Glue0.inp m c)) (padRows 512 (padCols 256 (tr (m ((c : Thread nD τ).loc main_arg5))))) (rowOf (padVec 256 (m ((c : Thread nD τ).loc main_arg6)))) :=
  (region0_k (V21 m ρ) c).trans (linT_congr (Glue0.arr0 m ρ c) (Glue0.arr3 m ρ c) (Glue0.arr4 m ρ c))

set_option maxHeartbeats 4000000 in
/-- Its third output: block 1's values. -/
theorem proj0_v (c : Dev nD) :
    ((dat0 (V21 m ρ) c).arrAt 9 cfg0.N : Mat 4096 256)
      = linT (padCols 512 (Glue0.inp m c)) (padRows 512 (padCols 256 (tr (m ((c : Thread nD τ).loc main_arg7))))) (rowOf (padVec 256 (m ((c : Thread nD τ).loc main_arg8)))) :=
  (region0_v (V21 m ρ) c).trans (linT_congr (Glue0.arr0 m ρ c) (Glue0.arr5 m ρ c) (Glue0.arr6 m ρ c))

set_option maxHeartbeats 4000000 in
/-- The first attention region's output array is the second output of block 1. -/
theorem stage1_value (c : Dev nD) :
    ((dat1 (V23 m ρ) c).arrAt 8 cfg1.N : Mat 4096 256)
      = stage1 (Glue0.inp m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (region1_out (V23 m ρ) c).trans ?_
  refine (out2T_congr ((Glue1.arr0 m ρ c).trans (proj0_q m ρ c)) ((Glue1.arr1 m ρ c).trans (proj0_k m ρ c))
    ((Glue1.arr2 m ρ c).trans (proj0_v m ρ c))
    (Glue1.arr3 m ρ c) (Glue1.arr4 m ρ c) (Glue1.arr5 m ρ c) (Glue1.arr6 m ρ c) (Glue1.arr7 m ρ c)).trans ?_
  exact stage1_widened 512 256 (by decide) (by decide) _ _ _ _ _ _ _ _ _ _ _

end Cert.KernelIdeal.KernelValue

end
-- ==== Proof.Glue2.lean ====
/-
  What the second projection region finds in its seven input arrays.

  Its matrix is the output of the first attention region. Its three weights are the second block's projection
  weights transposed by the host, its three biases the second block's projection biases reshaped to one row.
-/
import proofs.«178282_j721554506169_2_alg».proof.Proof.Gen.KernelIdeal.Frame
import proofs.«178282_j721554506169_2_alg».proof.Proof.HostLayout
import proofs.«178282_j721554506169_2_alg».proof.Proof.GlueArgs
import Idealize.ShloMosaic.Lib.StableHlo.Run
import Idealize.ShloMosaic.PureOps.Ideal

set_option maxRecDepth 16384

noncomputable section

namespace Cert.KernelIdeal.Glue2

open Cert.KernelIdeal Cert.KernelIdeal.Gen Cert.AttnSpec
open Idealize.ShloMosaic Idealize.ShloMosaic.TcCoe Idealize.SL.Sem Idealize.ShloMosaic.StableHlo

variable (m : (ℓ : Loc nD τ sig) → Buf (Elt Ideal) ℓ) (ρ : Dev nD → PrngReg)

/-- Window 0: what the first attention region left in its output. -/
theorem win0 (c : Dev nD) : W25 m ρ c (Proc.devRef .tc main_v34) = (dat1 (V23 m ρ) c).arrAt 8 cfg1.N := by
  have h : W25 m ρ c (Proc.devRef .tc main_v34) = W24 m ρ c (Proc.devRef .tc main_v34) := by after_results
  exact h.trans (W24_arr m ρ c 8)

/-- Window 1: the second block's query weight, transposed. -/
theorem win1 (c : Dev nD) :
    (W25 m ρ c (Proc.devRef .tc main_v40) : S256x128.Idx → EReal) = tr (m ((c : Thread nD τ).loc main_arg13)) := by
  after_results
  show transpose S256x128 [1, 0] (W24 m ρ c (Proc.devRef .tc main_arg13)) _ = _
  rw [GlueArgs.at24_arg13, transpose_eq_tr]

/-- Window 2: the second block's query bias as one row. -/
theorem win2 (c : Dev nD) :
    (W25 m ρ c (Proc.devRef .tc main_v43) : S1x128.Idx → EReal) = rowOf (m ((c : Thread nD τ).loc main_arg14)) := by
  after_results
  show shapeCast S1x128 (W24 m ρ c (Proc.devRef .tc main_arg14)) shapeCasts_S128_S1x128 = _
  rw [GlueArgs.at24_arg14, shapeCast_eq_rowOf]

/-- Window 3: the second block's key weight, transposed. -/
theorem win3 (c : Dev nD) :
    (W25 m ρ c (Proc.devRef .tc main_v41) : S256x128.Idx → EReal) = tr (m ((c : Thread nD τ).loc main_arg15)) := by
  after_results
  show transpose S256x128 [1, 0] (W24 m ρ c (Proc.devRef .tc main_arg15)) _ = _
  rw [GlueArgs.at24_arg15, transpose_eq_tr]

/-- Window 4: the second block's key bias as one row. -/
theorem win4 (c : Dev nD) :
    (W25 m ρ c (Proc.devRef .tc main_v44) : S1x128.Idx → EReal) = rowOf (m ((c : Thread nD τ).loc main_arg16)) := by
  after_results
  show shapeCast S1x128 (W24 m ρ c (Proc.devRef .tc main_arg16)) shapeCasts_S128_S1x128 = _
  rw [GlueArgs.at24_arg16, shapeCast_eq_rowOf]

/-- Window 5: the second block's value weight, transposed. -/
theorem win5 (c : Dev nD) :
    (W25 m ρ c (Proc.devRef .tc main_v42) : S256x128.Idx → EReal) = tr (m ((c : Thread nD τ).loc main_arg17)) := by
  after_results
  show transpose S256x128 [1, 0] (W24 m ρ c (Proc.devRef .tc main_arg17)) _ = _
  rw [GlueArgs.at24_arg17, transpose_eq_tr]

/-- Window 6: the second block's value bias as one row. -/
theorem win6 (c : Dev nD) :
    (W25 m ρ c (Proc.devRef .tc main_v45) : S1x128.Idx → EReal) = rowOf (m ((c : Thread nD τ).loc main_arg18)) := by
  after_results
  show shapeCast S1x128 (W24 m ρ c (Proc.devRef .tc main_arg18)) shapeCasts_S128_S1x128 = _
  rw [GlueArgs.at24_arg18, shapeCast_eq_rowOf]

/-- The same, at the array of the region's window 0. -/
theorem arr0 (c : Dev nD) : (V25 m ρ c (Pipeline.arrRef spec2 0) : S4096x256.Idx → EReal) = (dat1 (V23 m ρ) c).arrAt 8 cfg1.N := win0 m ρ c

/-- The same, at the array of the region's window 1. -/
theorem arr1 (c : Dev nD) : (V25 m ρ c (Pipeline.arrRef spec2 1) : S256x128.Idx → EReal) = tr (m ((c : Thread nD τ).loc main_arg13)) := win1 m ρ c

/-- The same, at the array of the region's window 2. -/
theorem arr2 (c : Dev nD) : (V25 m ρ c (Pipeline.arrRef spec2 2) : S1x128.Idx → EReal) = rowOf (m ((c : Thread nD τ).loc main_arg14)) := win2 m ρ c

/-- The same, at the array of the region's window 3. -/
theorem arr3 (c : Dev nD) : (V25 m ρ c (Pipeline.arrRef spec2 3) : S256x128.Idx → EReal) = tr (m ((c : Thread nD τ).loc main_arg15)) := win3 m ρ c

/-- The same, at the array of the region's window 4. -/
theorem arr4 (c : Dev nD) : (V25 m ρ c (Pipeline.arrRef spec2 4) : S1x128.Idx → EReal) = rowOf (m ((c : Thread nD τ).loc main_arg16)) := win4 m ρ c

/-- The same, at the array of the region's window 5. -/
theorem arr5 (c : Dev nD) : (V25 m ρ c (Pipeline.arrRef spec2 5) : S256x128.Idx → EReal) = tr (m ((c : Thread nD τ).loc main_arg17)) := win5 m ρ c

/-- The same, at the array of the region's window 6. -/
theorem arr6 (c : Dev nD) : (V25 m ρ c (Pipeline.arrRef spec2 6) : S1x128.Idx → EReal) = rowOf (m ((c : Thread nD τ).loc main_arg18)) := win6 m ρ c

end Cert.KernelIdeal.Glue2

end
-- ==== Proof.Glue3.lean ====
/-
  What the second attention region finds in its eight input arrays, and where the program's two results are.

  Three inputs are the outputs of the second projection region; the residual input is the first attention region's
  output, which the second projection region read and did not write; the rest are the second block's remaining
  weights transposed and biases reshaped to one row by the host. The two results are this region's two outputs.
-/
import proofs.«178282_j721554506169_2_alg».proof.Proof.Gen.KernelIdeal.Frame
import proofs.«178282_j721554506169_2_alg».proof.Proof.HostLayout
import proofs.«178282_j721554506169_2_alg».proof.Proof.GlueArgs
import proofs.«178282_j721554506169_2_alg».proof.Proof.Glue2
import Idealize.ShloMosaic.Lib.StableHlo.Run
import Idealize.ShloMosaic.PureOps.Ideal

set_option maxRecDepth 16384

noncomputable section

namespace Cert.KernelIdeal.Glue3

open Cert.KernelIdeal Cert.KernelIdeal.Gen Cert.AttnSpec
open Idealize.ShloMosaic Idealize.ShloMosaic.TcCoe Idealize.SL.Sem Idealize.ShloMosaic.StableHlo

variable (m : (ℓ : Loc nD τ sig) → Buf (Elt Ideal) ℓ) (ρ : Dev nD → PrngReg)

/-- Windows 0, 1, 2: what the second projection region left in its three outputs. -/
theorem win0 (c : Dev nD) : W27 m ρ c (Proc.devRef .tc main_v46_0) = (dat2 (V25 m ρ) c).arrAt 7 cfg2.N := by
  have h : W27 m ρ c (Proc.devRef .tc main_v46_0) = W26 m ρ c (Proc.devRef .tc main_v46_0) := by after_results
  exact h.trans (W26_arr m ρ c 7)
theorem win1 (c : Dev nD) : W27 m ρ c (Proc.devRef .tc main_v46_1) = (dat2 (V25 m ρ) c).arrAt 8 cfg2.N := by
  have h : W27 m ρ c (Proc.devRef .tc main_v46_1) = W26 m ρ c (Proc.devRef .tc main_v46_1) := by after_results
  exact h.trans (W26_arr m ρ c 8)
theorem win2 (c : Dev nD) : W27 m ρ c (Proc.devRef .tc main_v46_2) = (dat2 (V25 m ρ) c).arrAt 9 cfg2.N := by
  have h : W27 m ρ c (Proc.devRef .tc main_v46_2) = W26 m ρ c (Proc.devRef .tc main_v46_2) := by after_results
  exact h.trans (W26_arr m ρ c 9)

/-- Window 3: the first attention region's output, read by the second projection region and left as it was. -/
theorem win3 (c : Dev nD) : W27 m ρ c (Proc.devRef .tc main_v34) = (dat1 (V23 m ρ) c).arrAt 8 cfg1.N := by
  have h : W27 m ρ c (Proc.devRef .tc main_v34) = W26 m ρ c (Proc.devRef .tc main_v34) := by after_results
  have h2 : W26 m ρ c (Proc.devRef .tc main_v34) = W25 m ρ c (Proc.devRef .tc main_v34) :=
    (W26_arr m ρ c 0).trans (((dat2 (V25 m ρ) c).arrAt_in 0 rfl cfg2.N).trans (A_eq2 (V25 m ρ) c 0))
  exact (h.trans h2).trans (Glue2.win0 m ρ c)

/-- Window 4: the second block's mixing weight, transposed. -/
theorem win4 (c : Dev nD) :
    (W27 m ρ c (Proc.devRef .tc main_v47) : S128x256.Idx → EReal) = tr (m ((c : Thread nD τ).loc main_arg19)) := by
  have h38 : (W26 m ρ c (Proc.devRef .tc main_v38) : S128x256.Idx → EReal) = tr (m ((c : Thread nD τ).loc main_arg19)) :=
    (W26_of_ne m ρ c main_v38 (by decide)).trans (by
      after_results
      show transpose S128x256 [1, 0] (W24 m ρ c (Proc.devRef .tc main_arg19)) _ = _
      rw [GlueArgs.at24_arg19, transpose_eq_tr])
  after_results
  exact h38

/-- Window 5: the second block's mixing bias as one row. -/
theorem win5 (c : Dev nD) :
    (W27 m ρ c (Proc.devRef .tc main_v49) : S1x256.Idx → EReal) = rowOf (m ((c : Thread nD τ).loc main_arg20)) := by
  after_results
  show shapeCast S1x256 (W26 m ρ c (Proc.devRef .tc main_arg20)) shapeCasts_S256_S1x256 = _
  rw [GlueArgs.at26_arg20, shapeCast_eq_rowOf]

/-- Window 6: the second block's output weight, transposed. -/
theorem win6 (c : Dev nD) :
    (W27 m ρ c (Proc.devRef .tc main_v48) : S256x8192.Idx → EReal) = tr (m ((c : Thread nD τ).loc main_arg21)) := by
  have h39 : (W26 m ρ c (Proc.devRef .tc main_v39) : S256x8192.Idx → EReal) = tr (m ((c : Thread nD τ).loc main_arg21)) :=
    (W26_of_ne m ρ c main_v39 (by decide)).trans (by
      after_results
      show transpose S256x8192 [1, 0] (W24 m ρ c (Proc.devRef .tc main_arg21)) _ = _
      rw [GlueArgs.at24_arg21, transpose_eq_tr])
  after_results
  exact h39

/-- Window 7: the second block's output bias as one row. -/
theorem win7 (c : Dev nD) :
    (W27 m ρ c (Proc.devRef .tc main_v50) : S1x8192.Idx → EReal) = rowOf (m ((c : Thread nD τ).loc main_arg22)) := by
  after_results
  show shapeCast S1x8192 (W26 m ρ c (Proc.devRef .tc main_arg22)) shapeCasts_S8192_S1x8192 = _
  rw [GlueArgs.at26_arg22, shapeCast_eq_rowOf]

/-- The first result is the second attention region's first output array, the second result its second. -/
theorem res0 (c : Dev nD) : W28 m ρ c (Proc.devRef .tc main_v51_0) = (dat3 (V27 m ρ) c).arrAt 8 cfg3.N := W28_arr m ρ c 8
theorem res1 (c : Dev nD) : W28 m ρ c (Proc.devRef .tc main_v51_1) = (dat3 (V27 m ρ) c).arrAt 9 cfg3.N := W28_arr m ρ c 9

/-- The same, at the array of the region's window 0. -/
theorem arr0 (c : Dev nD) : (V27 m ρ c (Pipeline.arrRef spec3 0) : S4096x128.Idx → EReal) = (dat2 (V25 m ρ) c).arrAt 7 cfg2.N := win0 m ρ c

/-- The same, at the array of the region's window 1. -/
theorem arr1 (c : Dev nD) : (V27 m ρ c (Pipeline.arrRef spec3 1) : S4096x128.Idx → EReal) = (dat2 (V25 m ρ) c).arrAt 8 cfg2.N := win1 m ρ c

/-- The same, at the array of the region's window 2. -/
theorem arr2 (c : Dev nD) : (V27 m ρ c (Pipeline.arrRef spec3 2) : S4096x128.Idx → EReal) = (dat2 (V25 m ρ) c).arrAt 9 cfg2.N := win2 m ρ c

/-- The same, at the array of the region's window 3. -/
theorem arr3 (c : Dev nD) : (V27 m ρ c (Pipeline.arrRef spec3 3) : S4096x256.Idx → EReal) = (dat1 (V23 m ρ) c).arrAt 8 cfg1.N := win3 m ρ c

/-- The same, at the array of the region's window 4. -/
theorem arr4 (c : Dev nD) : (V27 m ρ c (Pipeline.arrRef spec3 4) : S128x256.Idx → EReal) = tr (m ((c : Thread nD τ).loc main_arg19)) := win4 m ρ c

/-- The same, at the array of the region's window 5. -/
theorem arr5 (c : Dev nD) : (V27 m ρ c (Pipeline.arrRef spec3 5) : S1x256.Idx → EReal) = rowOf (m ((c : Thread nD τ).loc main_arg20)) := win5 m ρ c

/-- The same, at the array of the region's window 6. -/
theorem arr6 (c : Dev nD) : (V27 m ρ c (Pipeline.arrRef spec3 6) : S256x8192.Idx → EReal) = tr (m ((c : Thread nD τ).loc main_arg21)) := win6 m ρ c

/-- The same, at the array of the region's window 7. -/
theorem arr7 (c : Dev nD) : (V27 m ρ c (Pipeline.arrRef spec3 7) : S1x8192.Idx → EReal) = rowOf (m ((c : Thread nD τ).loc main_arg22)) := win7 m ρ c

end Cert.KernelIdeal.Glue3

end
-- ==== Proof.ProjRegion2.lean ====
/-
  The second projection region: three linear images of the rows of its input `x`, a matrix of 4096 rows and 256
  columns (the first block's second output, as the region finds it).

  The region walks the 4096 rows of `x` in 8 blocks of 512 rows. At each block it multiplies the block by a transposed
  weight matrix (256 rows, one column per output, 128 columns), adds the bias row to every row of the product, and
  writes the result as the same block of rows of an output array — three times, for three weights and biases. A row
  of an output depends on `x` through that row alone, so the blocks written back are the blocks of ONE matrix,
  `x · wT + b`, and since the 8 blocks cover the 4096 rows the output array ends holding that matrix.

  The steps: the matrix product read at an entry is a sum over the 256 columns of the left factor (`dot2_sum`); the
  body's value at entry `(r, o)` of a block (`pay2_apply`); each input block read as entries of its array
  (`iblk2_x`, `iblk2_w…`, `iblk2_b…`); where an entry of an output block sits in the array (`emb2_…`); what a grid
  point writes back (`flushed2_…_eq`); the blocks cover the array (`covered2_…`); the three arrays (`region2_q`,
  `region2_k`, `region2_v`).
-/
import proofs.«178282_j721554506169_2_alg».proof.Proof.Gen.KernelIdeal.Frame
import proofs.«178282_j721554506169_2_alg».proof.Proof.AttnSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RegionValue

open Cert.KernelIdeal Cert.KernelIdeal.Gen Idealize.ShloMosaic Idealize.ShloMosaic.ValueIdx Idealize.ShloMosaic.TcCoe Idealize.SL.Sem
open Idealize.ShloMosaic.Pipeline (Dat)

/-! ## The body's arithmetic at an entry -/

/-- The matrix product's contraction runs over the 256 columns of the left factor: at entry `(r, o)` it pairs
    `x (r, i)` with `w (i, o)`. -/
theorem dot2_sum (x : FVec Ideal S512x256 .bf16) (w : FVec Ideal S256x128 .bf16) (r : Fin 512) (o : Fin 128) :
    (∑ k : dot_S512x256_S256x128_S512x128_1_0_0_1_n_n.contr.Idx,
        x (dot_S512x256_S256x128_S512x128_1_0_0_1_n_n.lhsIdx (ix2 r o) k) * w (dot_S512x256_S256x128_S512x128_1_0_0_1_n_n.rhsIdx (ix2 r o) k))
      = ∑ i : Fin 256, x (ix2 r i) * w (ix2 i o) := by
  rw [← Equiv.sum_comp (contrEquiv1 dot_S512x256_S256x128_S512x128_1_0_0_1_n_n 256 rfl rfl).symm]
  refine Finset.sum_congr rfl fun i _ => ?_
  have hl : dot_S512x256_S256x128_S512x128_1_0_0_1_n_n.lhsIdx (ix2 r o) ((contrEquiv1 dot_S512x256_S256x128_S512x128_1_0_0_1_n_n 256 rfl rfl).symm i) = ix2 r i := by
    funext a
    match a with
    | ⟨0, _⟩ => rfl
    | ⟨1, _⟩ => exact Fin.ext rfl
  have hr : dot_S512x256_S256x128_S512x128_1_0_0_1_n_n.rhsIdx (ix2 r o) ((contrEquiv1 dot_S512x256_S256x128_S512x128_1_0_0_1_n_n 256 rfl rfl).symm i) = ix2 i o := by
    funext a
    match a with
    | ⟨0, _⟩ => exact Fin.ext rfl
    | ⟨1, _⟩ => rfl
  rw [hl, hr]

/-- The body's value for one output at row `r` and column `o` of the block: the row of `x` against the column of the
    transposed weight, plus the bias of that column. The casts to and from the narrower float format are the identity
    on extended reals, a reshape to the same shape is the identity, and the product accumulates into zero. -/
theorem pay2_apply (x : Vec Ideal S512x256 .f32) (w : Vec Ideal S256x128 .bf16) (b : Vec Ideal S1x128 .f32) (r : Fin 512) (o : Fin 128) :
    k2_pay2 x w b (ix2 r o) = (∑ i : Fin 256, x (ix2 r i) * w (ix2 i o)) + b (ix2 (0 : Fin 1) o) := by
  unfold k2_pay2 k2_pay1
  simp only [shapeCast_self]
  show FloatOps.matmul (F := Ideal) dot_S512x256_S256x128_S512x128_1_0_0_1_n_n none x w (constant (F := Ideal) S512x128 .f32 0x00000000#32) (ix2 r o) + broadcastTo S512x128 b broadcasts_S1x128_S512x128 (ix2 r o) = _
  refine congrArg₂ (· + ·) ?_ ?_
  · exact (Ideal.matmul_constant_zero_apply dot_S512x256_S256x128_S512x128_1_0_0_1_n_n none x w (ix2 r o)).trans (dot2_sum x w r o)
  · exact broadcastTo_1b_ab_apply b broadcasts_S1x128_S512x128 r o

/-- The second and third outputs are computed by the same term as the first, of their own weight and bias. -/
theorem k2_pay3_eq (x : Vec Ideal S512x256 .f32) (w : Vec Ideal S256x128 .bf16) (b : Vec Ideal S1x128 .f32) : k2_pay3 x w b = k2_pay2 x w b := rfl
theorem k2_pay4_eq (x : Vec Ideal S512x256 .f32) (w : Vec Ideal S256x128 .bf16) (b : Vec Ideal S1x128 .f32) : k2_pay4 x w b = k2_pay2 x w b := rfl

/-! ## The blocks -/

variable (V : (c : Dev nD) → (b : Ref sig .tc) → Buf (Elt Ideal) ((c : Thread nD τ).loc b))

theorem hz2 : (![0, 0] : Fin 2 → Nat) = fun _ => 0 := funext fun a => by fin_cases a <;> rfl

/-- The block index maps over the grid: the row-tiled windows (`x` and the three outputs) sit at block row `t`,
    every other window at block (0, 0). -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0
    ∧ win2_8.index t (0 : Fin 2) = t.val ∧ win2_8.index t (1 : Fin 2) = 0
    ∧ win2_9.index t (0 : Fin 2) = t.val ∧ win2_9.index t (1 : Fin 2) = 0 :=
  (by decide +kernel : ∀ t : Fin grid2.N, _)

theorem t_lt2 (t : Fin cfg2.N) : t.val < 8 := lt_of_lt_of_eq t.isLt N_2

/-- Row `r` of block `t` is row `512 t + r` of the array. -/
def row2 (t : Fin cfg2.N) (r : Fin 512) : Fin 4096 := ⟨512 * t.val + r.val, by have := t_lt2 t; have := r.isLt; omega⟩

/-- The block of `x` at point `t` holds rows `512 t … 512 t + 511`. -/
theorem iblk2_x (c : Dev nD) (t : Fin cfg2.N) (r : Fin 512) (i : Fin 256) :
    (iblk2 V c 0 t : Vec Ideal S512x256 .f32) (ix2 r i) = (V c (Pipeline.arrRef spec2 0) : S4096x256.Idx → EReal) (ix2 (row2 t r) i) := by
  obtain ⟨e0, e1, -⟩ := idx_facts2 t
  unfold iblk2
  rw [View.read_apply]
  show (V c (Pipeline.arrRef spec2 0) : S4096x256.Idx → EReal) _ = _
  refine congrArg _ (funext fun a => Fin.ext ?_)
  match a with
  | ⟨0, _⟩ => show win2_0.index t (0 : Fin 2) * 512 + 1 * r.val = 512 * t.val + r.val; rw [e0]; omega
  | ⟨1, _⟩ => show win2_0.index t (1 : Fin 2) * 256 + 1 * i.val = i.val; rw [e1]; omega

/-- The block of the first transposed weight is the whole weight at every point. -/
theorem iblk2_w1 (c : Dev nD) (t : Fin cfg2.N) (i : Fin 256) (o : Fin 128) :
    (iblk2 V c 1 t : Vec Ideal S256x128 .bf16) (ix2 i o) = (V c (Pipeline.arrRef spec2 1) : S256x128.Idx → EReal) (ix2 i o) := by
  obtain ⟨-, -, e0, e1, -⟩ := idx_facts2 t
  unfold iblk2
  rw [View.read_apply]
  show (V c (Pipeline.arrRef spec2 1) : S256x128.Idx → EReal) _ = _
  refine congrArg _ (funext fun a => Fin.ext ?_)
  match a with
  | ⟨0, _⟩ => show win2_1.index t (0 : Fin 2) * 256 + 1 * i.val = i.val; rw [e0]; omega
  | ⟨1, _⟩ => show win2_1.index t (1 : Fin 2) * 128 + 1 * o.val = o.val; rw [e1]; omega

/-- The block of the second transposed weight is the whole weight at every point. -/
theorem iblk2_w3 (c : Dev nD) (t : Fin cfg2.N) (i : Fin 256) (o : Fin 128) :
    (iblk2 V c 3 t : Vec Ideal S256x128 .bf16) (ix2 i o) = (V c (Pipeline.arrRef spec2 3) : S256x128.Idx → EReal) (ix2 i o) := by
  obtain ⟨-, -, -, -, -, -, e0, e1, -⟩ := idx_facts2 t
  unfold iblk2
  rw [View.read_apply]
  show (V c (Pipeline.arrRef spec2 3) : S256x128.Idx → EReal) _ = _
  refine congrArg _ (funext fun a => Fin.ext ?_)
  match a with
  | ⟨0, _⟩ => show win2_3.index t (0 : Fin 2) * 256 + 1 * i.val = i.val; rw [e0]; omega
  | ⟨1, _⟩ => show win2_3.index t (1 : Fin 2) * 128 + 1 * o.val = o.val; rw [e1]; omega

/-- The block of the third transposed weight is the whole weight at every point. -/
theorem iblk2_w5 (c : Dev nD) (t : Fin cfg2.N) (i : Fin 256) (o : Fin 128) :
    (iblk2 V c 5 t : Vec Ideal S256x128 .bf16) (ix2 i o) = (V c (Pipeline.arrRef spec2 5) : S256x128.Idx → EReal) (ix2 i o) := by
  obtain ⟨-, -, -, -, -, -, -, -, -, -, e0, e1, -⟩ := idx_facts2 t
  unfold iblk2
  rw [View.read_apply]
  show (V c (Pipeline.arrRef spec2 5) : S256x128.Idx → EReal) _ = _
  refine congrArg _ (funext fun a => Fin.ext ?_)
  match a with
  | ⟨0, _⟩ => show win2_5.index t (0 : Fin 2) * 256 + 1 * i.val = i.val; rw [e0]; omega
  | ⟨1, _⟩ => show win2_5.index t (1 : Fin 2) * 128 + 1 * o.val = o.val; rw [e1]; omega

/-- The block of the first bias is the whole bias at every point. -/
theorem iblk2_b2 (c : Dev nD) (t : Fin cfg2.N) (o : Fin 128) :
    (iblk2 V c 2 t : Vec Ideal S1x128 .f32) (ix2 (0 : Fin 1) o) = (V c (Pipeline.arrRef spec2 2) : S1x128.Idx → EReal) (ix2 (0 : Fin 1) o) := by
  obtain ⟨-, -, -, -, e0, e1, -⟩ := idx_facts2 t
  unfold iblk2
  rw [View.read_apply]
  show (V c (Pipeline.arrRef spec2 2) : S1x128.Idx → EReal) _ = _
  refine congrArg _ (funext fun a => Fin.ext ?_)
  match a with
  | ⟨0, _⟩ => show win2_2.index t (0 : Fin 2) * 1 + 1 * (0 : Fin 1).val = (0 : Fin 1).val; rw [e0]; rfl
  | ⟨1, _⟩ => show win2_2.index t (1 : Fin 2) * 128 + 1 * o.val = o.val; rw [e1]; omega

/-- The block of the second bias is the whole bias at every point. -/
theorem iblk2_b4 (c : Dev nD) (t : Fin cfg2.N) (o : Fin 128) :
    (iblk2 V c 4 t : Vec Ideal S1x128 .f32) (ix2 (0 : Fin 1) o) = (V c (Pipeline.arrRef spec2 4) : S1x128.Idx → EReal) (ix2 (0 : Fin 1) o) := by
  obtain ⟨-, -, -, -, -, -, -, -, e0, e1, -⟩ := idx_facts2 t
  unfold iblk2
  rw [View.read_apply]
  show (V c (Pipeline.arrRef spec2 4) : S1x128.Idx → EReal) _ = _
  refine congrArg _ (funext fun a => Fin.ext ?_)
  match a with
  | ⟨0, _⟩ => show win2_4.index t (0 : Fin 2) * 1 + 1 * (0 : Fin 1).val = (0 : Fin 1).val; rw [e0]; rfl
  | ⟨1, _⟩ => show win2_4.index t (1 : Fin 2) * 128 + 1 * o.val = o.val; rw [e1]; omega

/-- The block of the third bias is the whole bias at every point. -/
theorem iblk2_b6 (c : Dev nD) (t : Fin cfg2.N) (o : Fin 128) :
    (iblk2 V c 6 t : Vec Ideal S1x128 .f32) (ix2 (0 : Fin 1) o) = (V c (Pipeline.arrRef spec2 6) : S1x128.Idx → EReal) (ix2 (0 : Fin 1) o) := by
  obtain ⟨-, -, -, -, -, -, -, -, -, -, -, -, e0, e1, -⟩ := idx_facts2 t
  unfold iblk2
  rw [View.read_apply]
  show (V c (Pipeline.arrRef spec2 6) : S1x128.Idx → EReal) _ = _
  refine congrArg _ (funext fun a => Fin.ext ?_)
  match a with
  | ⟨0, _⟩ => show win2_6.index t (0 : Fin 2) * 1 + 1 * (0 : Fin 1).val = (0 : Fin 1).val; rw [e0]; rfl
  | ⟨1, _⟩ => show win2_6.index t (1 : Fin 2) * 128 + 1 * o.val = o.val; rw [e1]; omega

/-! ## The first output -/

/-- Where entry `(r, o)` of the first output's block `t` sits in the array. -/
theorem emb2_7 (t : Fin cfg2.N) (r : Fin 512) (o : Fin 128) :
    (((cfg2.win 7).blk t).view.emb (ix2 r o) : S4096x128.Idx) = ix2 (row2 t r) o := by
  obtain ⟨-, -, -, -, -, -, -, -, -, -, -, -, -, -, e0, e1, -⟩ := idx_facts2 t
  refine funext fun a => Fin.ext ?_
  match a with
  | ⟨0, _⟩ => show win2_7.index t (0 : Fin 2) * 512 + 1 * r.val = 512 * t.val + r.val; rw [e0]; omega
  | ⟨1, _⟩ => show win2_7.index t (1 : Fin 2) * 128 + 1 * o.val = o.val; rw [e1]; omega

/-- What point `t` writes back to the first output is block `t` of `x · wT + b` for the first weight and bias. -/
theorem flushed2_7_eq (c : Dev nD) (t : Fin cfg2.N) :
    (dat2 V c).flushed 7 t = ((cfg2.win 7).blk t).view.read (Elt Ideal)
      (AttnSpec.linT (V c (Pipeline.arrRef spec2 0) : AttnSpec.Mat 4096 256) (V c (Pipeline.arrRef spec2 1) : AttnSpec.Mat 256 128)
        (V c (Pipeline.arrRef spec2 2) : AttnSpec.Mat 1 128)) := by
  show (cfg2.win 7).cut (grid2.coords t) ((dat2 V c).after 7 t) = _
  rw [after2_7]
  unfold out2_7
  rw [View.canon_unit_zero hz2]
  simp only [View.ld_unit_zero (S := S512x256) hz2, View.ld_unit_zero (S := S256x128) hz2, View.ld_unit_zero (S := S1x128) hz2]
  refine funext fun (j : S512x128.Idx) => ?_
  obtain ⟨r, o, rfl⟩ : ∃ (r : Fin 512) (o : Fin 128), j = ix2 r o := ⟨j 0, j 1, eq_ix2 j⟩
  show k2_pay2 (iblk2 V c 0 t) (iblk2 V c 1 t) (iblk2 V c 2 t) (ix2 r o)
    = AttnSpec.linT (V c (Pipeline.arrRef spec2 0) : AttnSpec.Mat 4096 256) (V c (Pipeline.arrRef spec2 1) : AttnSpec.Mat 256 128)
        (V c (Pipeline.arrRef spec2 2) : AttnSpec.Mat 1 128) (((cfg2.win 7).blk t).view.emb (ix2 r o))
  rw [emb2_7]
  refine (pay2_apply _ _ _ r o).trans ?_
  refine congrArg₂ (· + ·) (Finset.sum_congr rfl fun i _ => ?_) (iblk2_b2 V c t o)
  exact congrArg₂ (· * ·) (iblk2_x V c t r i) (iblk2_w1 V c t i o)

/-- Every entry of the first output lies in the block of the point its row names. -/
theorem covered2_7 (i : S4096x128.Idx) : ∃ t : Fin cfg2.N, (cfg2.win 7).flush t = true ∧ i ∈ ((cfg2.win 7).blk t).view.set := by
  have hi0 : (i 0).val < 4096 := (i 0).isLt
  have hi1 : (i 1).val < 128 := (i 1).isLt
  have hN : cfg2.N = 8 := N_2
  obtain ⟨t, ht⟩ : ∃ t : Fin cfg2.N, t.val = (i 0).val / 512 := ⟨⟨(i 0).val / 512, by rw [hN]; omega⟩, rfl⟩
  obtain ⟨-, -, -, -, -, -, -, -, -, -, -, -, -, -, e0, e1, -⟩ := idx_facts2 t
  refine ⟨t, flush2_7 t, ?_⟩
  show i ∈ ((View.whole main_v46_0).slice (win2_7.rect t)).set
  rw [View.set_slice_whole, Rect.mem_set_unit]
  intro a
  match a with
  | ⟨0, _⟩ => show win2_7.index t (0 : Fin 2) * 512 ≤ (i 0).val ∧ (i 0).val < win2_7.index t (0 : Fin 2) * 512 + 512; rw [e0, ht]; omega
  | ⟨1, _⟩ => show win2_7.index t (1 : Fin 2) * 128 ≤ (i 1).val ∧ (i 1).val < win2_7.index t (1 : Fin 2) * 128 + 128; rw [e1]; omega

/-- THE FIRST OUTPUT after the region: `x · wT + b` for the first weight and bias, as one matrix. -/
theorem region2_q (c : Dev nD) : (Gen.dat2 (F := Ideal) V c).arrAt 7 cfg2.N
    = AttnSpec.linT (V c (Pipeline.arrRef spec2 0) : AttnSpec.Mat 4096 256) (V c (Pipeline.arrRef spec2 1) : AttnSpec.Mat 256 128)
        (V c (Pipeline.arrRef spec2 2) : AttnSpec.Mat 1 128) :=
  (dat2 V c).arrAt_eq_of_cover 7 _ (fun t _ => flushed2_7_eq V c t) covered2_7

/-! ## The second output -/

/-- Where entry `(r, o)` of the second output's block `t` sits in the array. -/
theorem emb2_8 (t : Fin cfg2.N) (r : Fin 512) (o : Fin 128) :
    (((cfg2.win 8).blk t).view.emb (ix2 r o) : S4096x128.Idx) = ix2 (row2 t r) o := by
  obtain ⟨-, -, -, -, -, -, -, -, -, -, -, -, -, -, -, -, e0, e1, -⟩ := idx_facts2 t
  refine funext fun a => Fin.ext ?_
  match a with
  | ⟨0, _⟩ => show win2_8.index t (0 : Fin 2) * 512 + 1 * r.val = 512 * t.val + r.val; rw [e0]; omega
  | ⟨1, _⟩ => show win2_8.index t (1 : Fin 2) * 128 + 1 * o.val = o.val; rw [e1]; omega

/-- What point `t` writes back to the second output is block `t` of `x · wT + b` for the second weight and bias. -/
theorem flushed2_8_eq (c : Dev nD) (t : Fin cfg2.N) :
    (dat2 V c).flushed 8 t = ((cfg2.win 8).blk t).view.read (Elt Ideal)
      (AttnSpec.linT (V c (Pipeline.arrRef spec2 0) : AttnSpec.Mat 4096 256) (V c (Pipeline.arrRef spec2 3) : AttnSpec.Mat 256 128)
        (V c (Pipeline.arrRef spec2 4) : AttnSpec.Mat 1 128)) := by
  show (cfg2.win 8).cut (grid2.coords t) ((dat2 V c).after 8 t) = _
  rw [after2_8]
  unfold out2_8
  rw [View.canon_unit_zero hz2]
  simp only [View.ld_unit_zero (S := S512x256) hz2, View.ld_unit_zero (S := S256x128) hz2, View.ld_unit_zero (S := S1x128) hz2]
  refine funext fun (j : S512x128.Idx) => ?_
  obtain ⟨r, o, rfl⟩ : ∃ (r : Fin 512) (o : Fin 128), j = ix2 r o := ⟨j 0, j 1, eq_ix2 j⟩
  show k2_pay3 (iblk2 V c 0 t) (iblk2 V c 3 t) (iblk2 V c 4 t) (ix2 r o)
    = AttnSpec.linT (V c (Pipeline.arrRef spec2 0) : AttnSpec.Mat 4096 256) (V c (Pipeline.arrRef spec2 3) : AttnSpec.Mat 256 128)
        (V c (Pipeline.arrRef spec2 4) : AttnSpec.Mat 1 128) (((cfg2.win 8).blk t).view.emb (ix2 r o))
  rw [emb2_8, k2_pay3_eq]
  refine (pay2_apply _ _ _ r o).trans ?_
  refine congrArg₂ (· + ·) (Finset.sum_congr rfl fun i _ => ?_) (iblk2_b4 V c t o)
  exact congrArg₂ (· * ·) (iblk2_x V c t r i) (iblk2_w3 V c t i o)

/-- Every entry of the second output lies in the block of the point its row names. -/
theorem covered2_8 (i : S4096x128.Idx) : ∃ t : Fin cfg2.N, (cfg2.win 8).flush t = true ∧ i ∈ ((cfg2.win 8).blk t).view.set := by
  have hi0 : (i 0).val < 4096 := (i 0).isLt
  have hi1 : (i 1).val < 128 := (i 1).isLt
  have hN : cfg2.N = 8 := N_2
  obtain ⟨t, ht⟩ : ∃ t : Fin cfg2.N, t.val = (i 0).val / 512 := ⟨⟨(i 0).val / 512, by rw [hN]; omega⟩, rfl⟩
  obtain ⟨-, -, -, -, -, -, -, -, -, -, -, -, -, -, -, -, e0, e1, -⟩ := idx_facts2 t
  refine ⟨t, flush2_8 t, ?_⟩
  show i ∈ ((View.whole main_v46_1).slice (win2_8.rect t)).set
  rw [View.set_slice_whole, Rect.mem_set_unit]
  intro a
  match a with
  | ⟨0, _⟩ => show win2_8.index t (0 : Fin 2) * 512 ≤ (i 0).val ∧ (i 0).val < win2_8.index t (0 : Fin 2) * 512 + 512; rw [e0, ht]; omega
  | ⟨1, _⟩ => show win2_8.index t (1 : Fin 2) * 128 ≤ (i 1).val ∧ (i 1).val < win2_8.index t (1 : Fin 2) * 128 + 128; rw [e1]; omega

/-- THE SECOND OUTPUT after the region: `x · wT + b` for the second weight and bias, as one matrix. -/
theorem region2_k (c : Dev nD) : (Gen.dat2 (F := Ideal) V c).arrAt 8 cfg2.N
    = AttnSpec.linT (V c (Pipeline.arrRef spec2 0) : AttnSpec.Mat 4096 256) (V c (Pipeline.arrRef spec2 3) : AttnSpec.Mat 256 128)
        (V c (Pipeline.arrRef spec2 4) : AttnSpec.Mat 1 128) :=
  (dat2 V c).arrAt_eq_of_cover 8 _ (fun t _ => flushed2_8_eq V c t) covered2_8

/-! ## The third output -/

/-- Where entry `(r, o)` of the third output's block `t` sits in the array. -/
theorem emb2_9 (t : Fin cfg2.N) (r : Fin 512) (o : Fin 128) :
    (((cfg2.win 9).blk t).view.emb (ix2 r o) : S4096x128.Idx) = ix2 (row2 t r) o := by
  obtain ⟨-, -, -, -, -, -, -, -, -, -, -, -, -, -, -, -, -, -, e0, e1⟩ := idx_facts2 t
  refine funext fun a => Fin.ext ?_
  match a with
  | ⟨0, _⟩ => show win2_9.index t (0 : Fin 2) * 512 + 1 * r.val = 512 * t.val + r.val; rw [e0]; omega
  | ⟨1, _⟩ => show win2_9.index t (1 : Fin 2) * 128 + 1 * o.val = o.val; rw [e1]; omega

/-- What point `t` writes back to the third output is block `t` of `x · wT + b` for the third weight and bias. -/
theorem flushed2_9_eq (c : Dev nD) (t : Fin cfg2.N) :
    (dat2 V c).flushed 9 t = ((cfg2.win 9).blk t).view.read (Elt Ideal)
      (AttnSpec.linT (V c (Pipeline.arrRef spec2 0) : AttnSpec.Mat 4096 256) (V c (Pipeline.arrRef spec2 5) : AttnSpec.Mat 256 128)
        (V c (Pipeline.arrRef spec2 6) : AttnSpec.Mat 1 128)) := by
  show (cfg2.win 9).cut (grid2.coords t) ((dat2 V c).after 9 t) = _
  rw [after2_9]
  unfold out2_9
  rw [View.canon_unit_zero hz2]
  simp only [View.ld_unit_zero (S := S512x256) hz2, View.ld_unit_zero (S := S256x128) hz2, View.ld_unit_zero (S := S1x128) hz2]
  refine funext fun (j : S512x128.Idx) => ?_
  obtain ⟨r, o, rfl⟩ : ∃ (r : Fin 512) (o : Fin 128), j = ix2 r o := ⟨j 0, j 1, eq_ix2 j⟩
  show k2_pay4 (iblk2 V c 0 t) (iblk2 V c 5 t) (iblk2 V c 6 t) (ix2 r o)
    = AttnSpec.linT (V c (Pipeline.arrRef spec2 0) : AttnSpec.Mat 4096 256) (V c (Pipeline.arrRef spec2 5) : AttnSpec.Mat 256 128)
        (V c (Pipeline.arrRef spec2 6) : AttnSpec.Mat 1 128) (((cfg2.win 9).blk t).view.emb (ix2 r o))
  rw [emb2_9, k2_pay4_eq]
  refine (pay2_apply _ _ _ r o).trans ?_
  refine congrArg₂ (· + ·) (Finset.sum_congr rfl fun i _ => ?_) (iblk2_b6 V c t o)
  exact congrArg₂ (· * ·) (iblk2_x V c t r i) (iblk2_w5 V c t i o)

/-- Every entry of the third output lies in the block of the point its row names. -/
theorem covered2_9 (i : S4096x128.Idx) : ∃ t : Fin cfg2.N, (cfg2.win 9).flush t = true ∧ i ∈ ((cfg2.win 9).blk t).view.set := by
  have hi0 : (i 0).val < 4096 := (i 0).isLt
  have hi1 : (i 1).val < 128 := (i 1).isLt
  have hN : cfg2.N = 8 := N_2
  obtain ⟨t, ht⟩ : ∃ t : Fin cfg2.N, t.val = (i 0).val / 512 := ⟨⟨(i 0).val / 512, by rw [hN]; omega⟩, rfl⟩
  obtain ⟨-, -, -, -, -, -, -, -, -, -, -, -, -, -, -, -, -, -, e0, e1⟩ := idx_facts2 t
  refine ⟨t, flush2_9 t, ?_⟩
  show i ∈ ((View.whole main_v46_2).slice (win2_9.rect t)).set
  rw [View.set_slice_whole, Rect.mem_set_unit]
  intro a
  match a with
  | ⟨0, _⟩ => show win2_9.index t (0 : Fin 2) * 512 ≤ (i 0).val ∧ (i 0).val < win2_9.index t (0 : Fin 2) * 512 + 512; rw [e0, ht]; omega
  | ⟨1, _⟩ => show win2_9.index t (1 : Fin 2) * 128 ≤ (i 1).val ∧ (i 1).val < win2_9.index t (1 : Fin 2) * 128 + 128; rw [e1]; omega

/-- THE THIRD OUTPUT after the region: `x · wT + b` for the third weight and bias, as one matrix. -/
theorem region2_v (c : Dev nD) : (Gen.dat2 (F := Ideal) V c).arrAt 9 cfg2.N
    = AttnSpec.linT (V c (Pipeline.arrRef spec2 0) : AttnSpec.Mat 4096 256) (V c (Pipeline.arrRef spec2 5) : AttnSpec.Mat 256 128)
        (V c (Pipeline.arrRef spec2 6) : AttnSpec.Mat 1 128) :=
  (dat2 V c).arrAt_eq_of_cover 9 _ (fun t _ => flushed2_9_eq V c t) covered2_9

end Cert.KernelIdeal.RegionValue

end
-- ==== Proof.AttnRegion3.lean ====
/-
  The second attention call: what its two output arrays hold after the run, each as one function of the arrays the
  call finds.

  One grid step reads a block of 256 rows of q and of x and the whole of k, v, the weights and the biases. Its
  arithmetic up to the residual and bias is AttnSpec.out1T of those blocks, stored as 256 rows of the first output;
  the last projection of that value is AttnSpec.out2T of the blocks, stored as 256 rows of the second output. A row
  of out1T or out2T uses q and x through that row only, so the stored rows are rows 256 t … 256 t + 255 of the
  functions of the whole arrays; the sixteen steps' row blocks tile the 4096 rows of each output.
-/
import proofs.«178282_j721554506169_2_alg».proof.Proof.Gen.KernelIdeal.Frame
import proofs.«178282_j721554506169_2_alg».proof.Proof.AttnSpec
import proofs.«178282_j721554506169_2_alg».proof.Proof.AttnBlockLemmas
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.AttnSpec Cert.AttnBlock

namespace R3

/-! ## One step's arithmetic -/

/-- What a step stores to the first output is out1T of the blocks it loaded (256 rows of q and x; all 4096 rows of
    k and v). -/
theorem step_o1 (v0 : Vec Ideal S256x128 .bf16) (v2 v4 : Vec Ideal S4096x128 .bf16) (v6 : Vec Ideal S256x256 .f32)
    (v8 : Vec Ideal S128x256 .bf16) (v10 : Vec Ideal S1x256 .f32) :
    Gen.k3_pay2 v0 v2 v4 v6 v8 v10
      = out1T (N := 256) (M := 4096) (I := 256) (J := 128) v0 v2 v4 v6 v8 v10 := by
  unfold Gen.k3_pay2
  simp only [shapeCast_self]
  exact attn_o1_read (N := 256) (M := 4096) (J := 128) (I := 256)
    dot_S256x128_S128x4096_S256x4096_1_0_0_1_n_n.wf dot_S256x4096_S4096x128_S256x128_1_0_0_1_n_n.wf
    dot_S256x128_S128x256_S256x256_1_0_0_1_n_n.wf Gen.transposes_S4096x128_p1_0_S128x4096
    Gen.reduces_S256x4096_S256 Gen.shapeCasts_S256_S256x1 Gen.broadcasts_S256x1_S256x4096 (.inl rfl) rfl rfl
    Gen.broadcasts_S1x256_S256x256 Gen.bitsLt_bf16_f32 v0 v2 v4 v6 v8 v10

/-- What a step stores to the second output is out2T of the blocks it loaded: the last projection of the first. -/
theorem step_o2 (v0 : Vec Ideal S256x128 .bf16) (v2 v4 : Vec Ideal S4096x128 .bf16) (v6 : Vec Ideal S256x256 .f32)
    (v8 : Vec Ideal S128x256 .bf16) (v10 : Vec Ideal S1x256 .f32) (v12 : Vec Ideal S256x8192 .bf16)
    (v14 : Vec Ideal S1x8192 .f32) :
    Gen.k3_pay1 (Gen.k3_pay3 v0 v2 v4 v6 v8 v10 v12) (Gen.k3_pay4 v14)
      = out2T (N := 256) (M := 4096) (I := 256) (J := 128) (O := 8192) v0 v2 v4 v6 v8 v10 v12 v14 := by
  unfold Gen.k3_pay1 Gen.k3_pay3 Gen.k3_pay4
  simp only [shapeCast_self]
  refine (linT_read (N := 256) (I := 256) (O := 8192) dot_S256x256_S256x8192_S256x8192_1_0_0_1_n_n.wf
    Gen.broadcasts_S1x8192_S256x8192 Gen.bitsLt_bf16_f32 v12 v14 _).trans ?_
  exact congrArg (fun o1 => linT o1 v12 v14) (step_o1 v0 v2 v4 v6 v8 v10)

/-! ## From the steps' row blocks to the arrays -/

variable (V : (c : Dev nD) → (b : Ref sig .tc) → Buf (Elt Ideal) ((c : Thread nD τ).loc b))

/-- The index maps over the grid: the row-tiled windows (q, x, the two results) sit at row block t, the others at
    the origin. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0
    ∧ win3_9.index t (0 : Fin 2) = t.val ∧ win3_9.index t (1 : Fin 2) = 0 :=
  (by decide +kernel : ∀ t : Fin grid3.N, _)

/-! ## What a step leaves in each output's buffer -/

/-- The first output's buffer after a step, from the blocks the step loaded. -/
theorem out_8_eq (x0 : Vec Ideal S256x128 .bf16) (x1 x2 : Vec Ideal S4096x128 .bf16) (x3 : Vec Ideal S256x256 .f32)
    (x4 : Vec Ideal S128x256 .bf16) (x5 : Vec Ideal S1x256 .f32) (x6 : Vec Ideal S256x8192 .bf16) (x7 : Vec Ideal S1x8192 .f32) :
    Gen.out3_8 x0 x1 x2 x3 x4 x5 x6 x7 = out1T (N := 256) (M := 4096) (I := 256) (J := 128) x0 x1 x2 x3 x4 x5 := by
  unfold Gen.out3_8
  rw [View.canon_unit_zero zeros2]
  simp only [View.ld_unit_zero (S := S256x128) zeros2, View.ld_unit_zero (S := S4096x128) zeros2,
    View.ld_unit_zero (S := S256x256) zeros2, View.ld_unit_zero (S := S128x256) zeros2,
    View.ld_unit_zero (S := S1x256) zeros2]
  exact step_o1 x0 x1 x2 x3 x4 x5

/-- The second output's buffer after a step, from the blocks the step loaded. -/
theorem out_9_eq (x0 : Vec Ideal S256x128 .bf16) (x1 x2 : Vec Ideal S4096x128 .bf16) (x3 : Vec Ideal S256x256 .f32)
    (x4 : Vec Ideal S128x256 .bf16) (x5 : Vec Ideal S1x256 .f32) (x6 : Vec Ideal S256x8192 .bf16) (x7 : Vec Ideal S1x8192 .f32) :
    Gen.out3_9 x0 x1 x2 x3 x4 x5 x6 x7
      = out2T (N := 256) (M := 4096) (I := 256) (J := 128) (O := 8192) x0 x1 x2 x3 x4 x5 x6 x7 := by
  unfold Gen.out3_9
  rw [View.canon_unit_zero zeros2]
  simp only [View.ld_unit_zero (S := S256x128) zeros2, View.ld_unit_zero (S := S4096x128) zeros2,
    View.ld_unit_zero (S := S256x256) zeros2, View.ld_unit_zero (S := S128x256) zeros2,
    View.ld_unit_zero (S := S1x256) zeros2, View.ld_unit_zero (S := S256x8192) zeros2,
    View.ld_unit_zero (S := S1x8192) zeros2]
  exact step_o2 x0 x1 x2 x3 x4 x5 x6 x7

/-! An untiled window's block is its whole array. -/

theorem whole_1 (c : Dev nD) (t : Fin cfg3.N) :
    Gen.iblk3 V c 1 t = (V c (Pipeline.arrRef spec3 1) : S4096x128.Idx → EReal) := by
  obtain ⟨-, -, e0, e1, -⟩ := idx_facts t
  funext y
  show V c (Pipeline.arrRef spec3 1) (((cfg3.win 1).blk t).view.emb y) = V c (Pipeline.arrRef spec3 1) y
  refine congrArg _ (funext fun a => Fin.ext ?_)
  match a with
  | ⟨0, _⟩ => show win3_1.index t (0 : Fin 2) * 4096 + 1 * (y 0).val = (y 0).val; rw [e0]; omega
  | ⟨1, _⟩ => show win3_1.index t (1 : Fin 2) * 128 + 1 * (y 1).val = (y 1).val; rw [e1]; omega

theorem whole_2 (c : Dev nD) (t : Fin cfg3.N) :
    Gen.iblk3 V c 2 t = (V c (Pipeline.arrRef spec3 2) : S4096x128.Idx → EReal) := by
  obtain ⟨-, -, -, -, e0, e1, -⟩ := idx_facts t
  funext y
  show V c (Pipeline.arrRef spec3 2) (((cfg3.win 2).blk t).view.emb y) = V c (Pipeline.arrRef spec3 2) y
  refine congrArg _ (funext fun a => Fin.ext ?_)
  match a with
  | ⟨0, _⟩ => show win3_2.index t (0 : Fin 2) * 4096 + 1 * (y 0).val = (y 0).val; rw [e0]; omega
  | ⟨1, _⟩ => show win3_2.index t (1 : Fin 2) * 128 + 1 * (y 1).val = (y 1).val; rw [e1]; omega

theorem whole_4 (c : Dev nD) (t : Fin cfg3.N) :
    Gen.iblk3 V c 4 t = (V c (Pipeline.arrRef spec3 4) : S128x256.Idx → EReal) := by
  obtain ⟨-, -, -, -, -, -, -, -, e0, e1, -⟩ := idx_facts t
  funext y
  show V c (Pipeline.arrRef spec3 4) (((cfg3.win 4).blk t).view.emb y) = V c (Pipeline.arrRef spec3 4) y
  refine congrArg _ (funext fun a => Fin.ext ?_)
  match a with
  | ⟨0, _⟩ => show win3_4.index t (0 : Fin 2) * 128 + 1 * (y 0).val = (y 0).val; rw [e0]; omega
  | ⟨1, _⟩ => show win3_4.index t (1 : Fin 2) * 256 + 1 * (y 1).val = (y 1).val; rw [e1]; omega

theorem whole_5 (c : Dev nD) (t : Fin cfg3.N) :
    Gen.iblk3 V c 5 t = (V c (Pipeline.arrRef spec3 5) : S1x256.Idx → EReal) := by
  obtain ⟨-, -, -, -, -, -, -, -, -, -, e0, e1, -⟩ := idx_facts t
  funext y
  show V c (Pipeline.arrRef spec3 5) (((cfg3.win 5).blk t).view.emb y) = V c (Pipeline.arrRef spec3 5) y
  refine congrArg _ (funext fun a => Fin.ext ?_)
  match a with
  | ⟨0, _⟩ => show win3_5.index t (0 : Fin 2) * 1 + 1 * (y 0).val = (y 0).val; rw [e0]; omega
  | ⟨1, _⟩ => show win3_5.index t (1 : Fin 2) * 256 + 1 * (y 1).val = (y 1).val; rw [e1]; omega

theorem whole_6 (c : Dev nD) (t : Fin cfg3.N) :
    Gen.iblk3 V c 6 t = (V c (Pipeline.arrRef spec3 6) : S256x8192.Idx → EReal) := by
  obtain ⟨-, -, -, -, -, -, -, -, -, -, -, -, e0, e1, -⟩ := idx_facts t
  funext y
  show V c (Pipeline.arrRef spec3 6) (((cfg3.win 6).blk t).view.emb y) = V c (Pipeline.arrRef spec3 6) y
  refine congrArg _ (funext fun a => Fin.ext ?_)
  match a with
  | ⟨0, _⟩ => show win3_6.index t (0 : Fin 2) * 256 + 1 * (y 0).val = (y 0).val; rw [e0]; omega
  | ⟨1, _⟩ => show win3_6.index t (1 : Fin 2) * 8192 + 1 * (y 1).val = (y 1).val; rw [e1]; omega

theorem whole_7 (c : Dev nD) (t : Fin cfg3.N) :
    Gen.iblk3 V c 7 t = (V c (Pipeline.arrRef spec3 7) : S1x8192.Idx → EReal) := by
  obtain ⟨-, -, -, -, -, -, -, -, -, -, -, -, -, -, e0, e1, -⟩ := idx_facts t
  funext y
  show V c (Pipeline.arrRef spec3 7) (((cfg3.win 7).blk t).view.emb y) = V c (Pipeline.arrRef spec3 7) y
  refine congrArg _ (funext fun a => Fin.ext ?_)
  match a with
  | ⟨0, _⟩ => show win3_7.index t (0 : Fin 2) * 1 + 1 * (y 0).val = (y 0).val; rw [e0]; omega
  | ⟨1, _⟩ => show win3_7.index t (1 : Fin 2) * 8192 + 1 * (y 1).val = (y 1).val; rw [e1]; omega

/-! ## Row r of step t's blocks is row 256 t + r of the arrays -/

/-- Row r of q's block at step t is row 256 t + r of q. -/
theorem q_row (c : Dev nD) (t : Fin cfg3.N) (r : Fin 256) (n : Fin 4096) (hn : n.val = t.val * 256 + r.val)
    (tt : Fin 128) :
    Gen.iblk3 V c 0 t (ix2 r tt) = (V c (Pipeline.arrRef spec3 0) : S4096x128.Idx → EReal) (ix2 n tt) := by
  obtain ⟨q0, q1, -⟩ := idx_facts t
  show V c (Pipeline.arrRef spec3 0) (((cfg3.win 0).blk t).view.emb (ix2 r tt)) = V c (Pipeline.arrRef spec3 0) (ix2 n tt)
  refine congrArg _ (funext fun a => Fin.ext ?_)
  match a with
  | ⟨0, _⟩ => show win3_0.index t (0 : Fin 2) * 256 + 1 * r.val = n.val; rw [q0, hn]; omega
  | ⟨1, _⟩ => show win3_0.index t (1 : Fin 2) * 128 + 1 * tt.val = tt.val; rw [q1]; omega

/-- Row r of x's block at step t is row 256 t + r of x. -/
theorem x_row (c : Dev nD) (t : Fin cfg3.N) (r : Fin 256) (n : Fin 4096) (hn : n.val = t.val * 256 + r.val)
    (i : Fin 256) :
    Gen.iblk3 V c 3 t (ix2 r i) = (V c (Pipeline.arrRef spec3 3) : S4096x256.Idx → EReal) (ix2 n i) := by
  obtain ⟨-, -, -, -, -, -, x0, x1, -⟩ := idx_facts t
  show V c (Pipeline.arrRef spec3 3) (((cfg3.win 3).blk t).view.emb (ix2 r i)) = V c (Pipeline.arrRef spec3 3) (ix2 n i)
  refine congrArg _ (funext fun a => Fin.ext ?_)
  match a with
  | ⟨0, _⟩ => show win3_3.index t (0 : Fin 2) * 256 + 1 * r.val = n.val; rw [x0, hn]; omega
  | ⟨1, _⟩ => show win3_3.index t (1 : Fin 2) * 256 + 1 * i.val = i.val; rw [x1]; omega

/-- Where local index y of the first output's block t sits in the array: row 256 t + its row, the same column. -/
theorem emb_row_8 (t : Fin cfg3.N) (y : S256x256.Idx) :
    (((cfg3.win 8).blk t).view.emb y 0).val = t.val * 256 + (y 0).val := by
  obtain ⟨-, -, -, -, -, -, -, -, -, -, -, -, -, -, -, -, o0, o1, -⟩ := idx_facts t
  show win3_8.index t (0 : Fin 2) * 256 + 1 * (y 0).val = t.val * 256 + (y 0).val
  rw [o0]; omega

theorem emb_col_8 (t : Fin cfg3.N) (y : S256x256.Idx) : y 1 = ((cfg3.win 8).blk t).view.emb y 1 := by
  obtain ⟨-, -, -, -, -, -, -, -, -, -, -, -, -, -, -, -, o0, o1, -⟩ := idx_facts t
  apply Fin.ext
  show (y 1).val = win3_8.index t (1 : Fin 2) * 256 + 1 * (y 1).val
  rw [o1]; omega

/-- The same for the second output's block t. -/
theorem emb_row_9 (t : Fin cfg3.N) (y : S256x8192.Idx) :
    (((cfg3.win 9).blk t).view.emb y 0).val = t.val * 256 + (y 0).val := by
  obtain ⟨-, -, -, -, -, -, -, -, -, -, -, -, -, -, -, -, -, -, o0, o1⟩ := idx_facts t
  show win3_9.index t (0 : Fin 2) * 256 + 1 * (y 0).val = t.val * 256 + (y 0).val
  rw [o0]; omega

theorem emb_col_9 (t : Fin cfg3.N) (y : S256x8192.Idx) : y 1 = ((cfg3.win 9).blk t).view.emb y 1 := by
  obtain ⟨-, -, -, -, -, -, -, -, -, -, -, -, -, -, -, -, -, -, o0, o1⟩ := idx_facts t
  apply Fin.ext
  show (y 1).val = win3_9.index t (1 : Fin 2) * 8192 + 1 * (y 1).val
  rw [o1]; omega

/-- An index of the array is in step t's block iff each coordinate is in the block's range on its axis. -/
theorem mem_blk_8 (t : Fin cfg3.N) (i : S4096x256.Idx) :
    i ∈ ((cfg3.win 8).blk t).view.set ↔ ∀ a : Fin 2, win3_8.index t a * S256x256.size a ≤ (i a).val
      ∧ (i a).val < win3_8.index t a * S256x256.size a + S256x256.size a := by
  show i ∈ ((View.whole main_v51_0).slice (win3_8.rect t)).set ↔ _
  rw [View.set_slice_whole, Rect.mem_set_unit]
  exact Iff.rfl

/-- Every row is in the block of the step its row block names. -/
theorem rows_cover_8 (i : S4096x256.Idx) :
    ∃ t : Fin cfg3.N, (cfg3.win 8).flush t = true ∧ i ∈ ((cfg3.win 8).blk t).view.set := by
  have hi0 : (i 0).val < 4096 := (i 0).isLt
  have hi1 : (i 1).val < 256 := (i 1).isLt
  have hN : cfg3.N = 16 := Gen.N_3
  have ht : (i 0).val / 256 < cfg3.N := by rw [hN]; omega
  obtain ⟨-, -, -, -, -, -, -, -, -, -, -, -, -, -, -, -, o0, o1, -⟩ := idx_facts ⟨(i 0).val / 256, ht⟩
  refine ⟨⟨(i 0).val / 256, ht⟩, Gen.flush3_8 _, ?_⟩
  rw [mem_blk_8]
  intro a
  match a with
  | ⟨0, _⟩ =>
    show win3_8.index ⟨(i 0).val / 256, ht⟩ (0 : Fin 2) * 256 ≤ (i 0).val
      ∧ (i 0).val < win3_8.index ⟨(i 0).val / 256, ht⟩ (0 : Fin 2) * 256 + 256
    rw [o0]
    show (i 0).val / 256 * 256 ≤ (i 0).val ∧ (i 0).val < (i 0).val / 256 * 256 + 256
    omega
  | ⟨1, _⟩ =>
    show win3_8.index ⟨(i 0).val / 256, ht⟩ (1 : Fin 2) * 256 ≤ (i 1).val
      ∧ (i 1).val < win3_8.index ⟨(i 0).val / 256, ht⟩ (1 : Fin 2) * 256 + 256
    rw [o1]
    omega

/-- An index of the array is in step t's block iff each coordinate is in the block's range on its axis. -/
theorem mem_blk_9 (t : Fin cfg3.N) (i : S4096x8192.Idx) :
    i ∈ ((cfg3.win 9).blk t).view.set ↔ ∀ a : Fin 2, win3_9.index t a * S256x8192.size a ≤ (i a).val
      ∧ (i a).val < win3_9.index t a * S256x8192.size a + S256x8192.size a := by
  show i ∈ ((View.whole main_v51_1).slice (win3_9.rect t)).set ↔ _
  rw [View.set_slice_whole, Rect.mem_set_unit]
  exact Iff.rfl

/-- Every row is in the block of the step its row block names. -/
theorem rows_cover_9 (i : S4096x8192.Idx) :
    ∃ t : Fin cfg3.N, (cfg3.win 9).flush t = true ∧ i ∈ ((cfg3.win 9).blk t).view.set := by
  have hi0 : (i 0).val < 4096 := (i 0).isLt
  have hi1 : (i 1).val < 8192 := (i 1).isLt
  have hN : cfg3.N = 16 := Gen.N_3
  have ht : (i 0).val / 256 < cfg3.N := by rw [hN]; omega
  obtain ⟨-, -, -, -, -, -, -, -, -, -, -, -, -, -, -, -, -, -, o0, o1⟩ := idx_facts ⟨(i 0).val / 256, ht⟩
  refine ⟨⟨(i 0).val / 256, ht⟩, Gen.flush3_9 _, ?_⟩
  rw [mem_blk_9]
  intro a
  match a with
  | ⟨0, _⟩ =>
    show win3_9.index ⟨(i 0).val / 256, ht⟩ (0 : Fin 2) * 256 ≤ (i 0).val
      ∧ (i 0).val < win3_9.index ⟨(i 0).val / 256, ht⟩ (0 : Fin 2) * 256 + 256
    rw [o0]
    show (i 0).val / 256 * 256 ≤ (i 0).val ∧ (i 0).val < (i 0).val / 256 * 256 + 256
    omega
  | ⟨1, _⟩ =>
    show win3_9.index ⟨(i 0).val / 256, ht⟩ (1 : Fin 2) * 8192 ≤ (i 1).val
      ∧ (i 1).val < win3_9.index ⟨(i 0).val / 256, ht⟩ (1 : Fin 2) * 8192 + 8192
    rw [o1]
    omega

/-! ## A step's stored block is a block of the whole-array function -/

/-- The first output of the call as one function of the arrays it finds. -/
abbrev result_o1 (c : Dev nD) : S4096x256.Idx → EReal :=
  out1T (N := 4096) (M := 4096) (I := 256) (J := 128)
    (V c (Pipeline.arrRef spec3 0) : S4096x128.Idx → EReal) (V c (Pipeline.arrRef spec3 1) : S4096x128.Idx → EReal)
    (V c (Pipeline.arrRef spec3 2) : S4096x128.Idx → EReal) (V c (Pipeline.arrRef spec3 3) : S4096x256.Idx → EReal)
    (V c (Pipeline.arrRef spec3 4) : S128x256.Idx → EReal) (V c (Pipeline.arrRef spec3 5) : S1x256.Idx → EReal)

/-- The second output of the call as one function of the arrays it finds. -/
abbrev result_o2 (c : Dev nD) : S4096x8192.Idx → EReal :=
  out2T (N := 4096) (M := 4096) (I := 256) (J := 128) (O := 8192)
    (V c (Pipeline.arrRef spec3 0) : S4096x128.Idx → EReal) (V c (Pipeline.arrRef spec3 1) : S4096x128.Idx → EReal)
    (V c (Pipeline.arrRef spec3 2) : S4096x128.Idx → EReal) (V c (Pipeline.arrRef spec3 3) : S4096x256.Idx → EReal)
    (V c (Pipeline.arrRef spec3 4) : S128x256.Idx → EReal) (V c (Pipeline.arrRef spec3 5) : S1x256.Idx → EReal)
    (V c (Pipeline.arrRef spec3 6) : S256x8192.Idx → EReal) (V c (Pipeline.arrRef spec3 7) : S1x8192.Idx → EReal)

/-- out1T of step t's blocks at a local index is the whole-array function at that index's place in the array. -/
theorem block_8 (c : Dev nD) (t : Fin cfg3.N) (y : S256x256.Idx) :
    out1T (N := 256) (M := 4096) (I := 256) (J := 128) (Gen.iblk3 V c 0 t) (Gen.iblk3 V c 1 t) (Gen.iblk3 V c 2 t) (Gen.iblk3 V c 3 t)
        (Gen.iblk3 V c 4 t) (Gen.iblk3 V c 5 t) y
      = result_o1 V c (((cfg3.win 8).blk t).view.emb y) :=
  out1T_at (N := 256) (N' := 4096) (M := 4096) (I := 256) (J := 128)
    (Gen.iblk3 V c 0 t) (V c (Pipeline.arrRef spec3 0) : S4096x128.Idx → EReal)
    (Gen.iblk3 V c 1 t) (V c (Pipeline.arrRef spec3 1) : S4096x128.Idx → EReal)
    (Gen.iblk3 V c 2 t) (V c (Pipeline.arrRef spec3 2) : S4096x128.Idx → EReal)
    (Gen.iblk3 V c 3 t) (V c (Pipeline.arrRef spec3 3) : S4096x256.Idx → EReal)
    (Gen.iblk3 V c 4 t) (V c (Pipeline.arrRef spec3 4) : S128x256.Idx → EReal)
    (Gen.iblk3 V c 5 t) (V c (Pipeline.arrRef spec3 5) : S1x256.Idx → EReal)
    y (((cfg3.win 8).blk t).view.emb y)
    (whole_1 V c t) (whole_2 V c t) (whole_4 V c t) (whole_5 V c t) (emb_col_8 t y)
    (fun tt => q_row V c t (y 0) (((cfg3.win 8).blk t).view.emb y 0) (emb_row_8 t y) tt)
    (fun i => x_row V c t (y 0) (((cfg3.win 8).blk t).view.emb y 0) (emb_row_8 t y) i)

/-- The same for out2T and the second output. -/
theorem block_9 (c : Dev nD) (t : Fin cfg3.N) (y : S256x8192.Idx) :
    out2T (N := 256) (M := 4096) (I := 256) (J := 128) (O := 8192) (Gen.iblk3 V c 0 t) (Gen.iblk3 V c 1 t) (Gen.iblk3 V c 2 t)
        (Gen.iblk3 V c 3 t) (Gen.iblk3 V c 4 t) (Gen.iblk3 V c 5 t) (Gen.iblk3 V c 6 t) (Gen.iblk3 V c 7 t) y
      = result_o2 V c (((cfg3.win 9).blk t).view.emb y) :=
  out2T_at (N := 256) (N' := 4096) (M := 4096) (I := 256) (J := 128) (O := 8192)
    (Gen.iblk3 V c 0 t) (V c (Pipeline.arrRef spec3 0) : S4096x128.Idx → EReal)
    (Gen.iblk3 V c 1 t) (V c (Pipeline.arrRef spec3 1) : S4096x128.Idx → EReal)
    (Gen.iblk3 V c 2 t) (V c (Pipeline.arrRef spec3 2) : S4096x128.Idx → EReal)
    (Gen.iblk3 V c 3 t) (V c (Pipeline.arrRef spec3 3) : S4096x256.Idx → EReal)
    (Gen.iblk3 V c 4 t) (V c (Pipeline.arrRef spec3 4) : S128x256.Idx → EReal)
    (Gen.iblk3 V c 5 t) (V c (Pipeline.arrRef spec3 5) : S1x256.Idx → EReal)
    (Gen.iblk3 V c 6 t) (V c (Pipeline.arrRef spec3 6) : S256x8192.Idx → EReal)
    (Gen.iblk3 V c 7 t) (V c (Pipeline.arrRef spec3 7) : S1x8192.Idx → EReal)
    y (((cfg3.win 9).blk t).view.emb y)
    (whole_1 V c t) (whole_2 V c t) (whole_4 V c t) (whole_5 V c t) (whole_6 V c t) (whole_7 V c t) (emb_col_9 t y)
    (fun tt => q_row V c t (y 0) (((cfg3.win 9).blk t).view.emb y 0) (emb_row_9 t y) tt)
    (fun i => x_row V c t (y 0) (((cfg3.win 9).blk t).view.emb y 0) (emb_row_9 t y) i)

/-- What step t writes back to the first output is block t of its function of the whole arrays. -/
theorem flushed_8_eq (c : Dev nD) (t : Fin cfg3.N) :
    (Gen.dat3 (F := Ideal) V c).flushed 8 t = ((cfg3.win 8).blk t).view.read (Elt Ideal) (result_o1 V c) := by
  show (cfg3.win 8).cut (grid3.coords t) ((Gen.dat3 V c).after 8 t) = _
  rw [Gen.after3_8, out_8_eq (Gen.iblk3 V c 0 t) (Gen.iblk3 V c 1 t) (Gen.iblk3 V c 2 t) (Gen.iblk3 V c 3 t) (Gen.iblk3 V c 4 t)
    (Gen.iblk3 V c 5 t) (Gen.iblk3 V c 6 t) (Gen.iblk3 V c 7 t)]
  funext y
  exact block_8 V c t y

/-- What step t writes back to the second output is block t of its function of the whole arrays. -/
theorem flushed_9_eq (c : Dev nD) (t : Fin cfg3.N) :
    (Gen.dat3 (F := Ideal) V c).flushed 9 t = ((cfg3.win 9).blk t).view.read (Elt Ideal) (result_o2 V c) := by
  show (cfg3.win 9).cut (grid3.coords t) ((Gen.dat3 V c).after 9 t) = _
  rw [Gen.after3_9, out_9_eq (Gen.iblk3 V c 0 t) (Gen.iblk3 V c 1 t) (Gen.iblk3 V c 2 t) (Gen.iblk3 V c 3 t) (Gen.iblk3 V c 4 t)
    (Gen.iblk3 V c 5 t) (Gen.iblk3 V c 6 t) (Gen.iblk3 V c 7 t)]
  funext y
  exact block_9 V c t y

end R3

variable (V : (c : Dev nD) → (b : Ref sig .tc) → Buf (Elt Ideal) ((c : Thread nD τ).loc b))

/-- THE FIRST OUTPUT ARRAY after the call: out1T of the arrays the call finds. -/
theorem region3_out1 (c : Dev nD) :
    (Gen.dat3 (F := Ideal) V c).arrAt 8 cfg3.N
      = out1T (N := 4096) (M := 4096) (I := 256) (J := 128)
          (V c (Pipeline.arrRef spec3 0) : S4096x128.Idx → EReal) (V c (Pipeline.arrRef spec3 1) : S4096x128.Idx → EReal)
          (V c (Pipeline.arrRef spec3 2) : S4096x128.Idx → EReal) (V c (Pipeline.arrRef spec3 3) : S4096x256.Idx → EReal)
          (V c (Pipeline.arrRef spec3 4) : S128x256.Idx → EReal) (V c (Pipeline.arrRef spec3 5) : S1x256.Idx → EReal) :=
  (Gen.dat3 V c).arrAt_eq_of_cover 8 (R3.result_o1 V c) (fun t _ => R3.flushed_8_eq V c t) R3.rows_cover_8

/-- THE SECOND OUTPUT ARRAY after the call: out2T of the arrays the call finds. -/
theorem region3_out2 (c : Dev nD) :
    (Gen.dat3 (F := Ideal) V c).arrAt 9 cfg3.N
      = out2T (N := 4096) (M := 4096) (I := 256) (J := 128) (O := 8192)
          (V c (Pipeline.arrRef spec3 0) : S4096x128.Idx → EReal) (V c (Pipeline.arrRef spec3 1) : S4096x128.Idx → EReal)
          (V c (Pipeline.arrRef spec3 2) : S4096x128.Idx → EReal) (V c (Pipeline.arrRef spec3 3) : S4096x256.Idx → EReal)
          (V c (Pipeline.arrRef spec3 4) : S128x256.Idx → EReal) (V c (Pipeline.arrRef spec3 5) : S1x256.Idx → EReal)
          (V c (Pipeline.arrRef spec3 6) : S256x8192.Idx → EReal) (V c (Pipeline.arrRef spec3 7) : S1x8192.Idx → EReal) :=
  (Gen.dat3 V c).arrAt_eq_of_cover 9 (R3.result_o2 V c) (fun t _ => R3.flushed_9_eq V c t) R3.rows_cover_9

end Cert.KernelIdeal.RegionValue

end
-- ==== Proof.KernelValue.lean ====
/-
  The idealized kernel computes the model.

  Reading the run backwards: the two results are the second attention region's outputs; that region's inputs are the
  second projection region's outputs, the first attention region's output and the second block's weights transposed;
  and so on down to the launch memory. Each region's output array is the transposed-weights spelling of a layer
  applied to its input arrays, so the results are the transposed, zero-widened spelling of the two stacked blocks —
  which is the two stacked blocks.
-/
import proofs.«178282_j721554506169_2_alg».proof.Proof.Stage1Value
import proofs.«178282_j721554506169_2_alg».proof.Proof.Glue3
import proofs.«178282_j721554506169_2_alg».proof.Proof.ProjRegion2
import proofs.«178282_j721554506169_2_alg».proof.Proof.AttnRegion3

set_option maxRecDepth 16384

noncomputable section

namespace Cert.KernelIdeal.KernelValue

open Cert.KernelIdeal Cert.KernelIdeal.Gen Cert.AttnSpec Cert.KernelIdeal.RegionValue
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 4000000 in
/-- The second projection region's first output: block 2's queries, in the transposed spelling. -/
theorem proj2_q (c : Dev nD) :
    ((dat2 (V25 m ρ) c).arrAt 7 cfg2.N : Mat 4096 128)
      = linT (stage1 (Glue0.inp m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (tr (m ((c : Thread nD τ).loc main_arg13))) (rowOf (m ((c : Thread nD τ).loc main_arg14))) :=
  (region2_q (V25 m ρ) c).trans
    (linT_congr ((Glue2.arr0 m ρ c).trans (stage1_value m ρ c)) (Glue2.arr1 m ρ c) (Glue2.arr2 m ρ c))

set_option maxHeartbeats 4000000 in
/-- Its second output: block 2's keys. -/
theorem proj2_k (c : Dev nD) :
    ((dat2 (V25 m ρ) c).arrAt 8 cfg2.N : Mat 4096 128)
      = linT (stage1 (Glue0.inp m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (tr (m ((c : Thread nD τ).loc main_arg15))) (rowOf (m ((c : Thread nD τ).loc main_arg16))) :=
  (region2_k (V25 m ρ) c).trans
    (linT_congr ((Glue2.arr0 m ρ c).trans (stage1_value m ρ c)) (Glue2.arr3 m ρ c) (Glue2.arr4 m ρ c))

set_option maxHeartbeats 4000000 in
/-- Its third output: block 2's values. -/
theorem proj2_v (c : Dev nD) :
    ((dat2 (V25 m ρ) c).arrAt 9 cfg2.N : Mat 4096 128)
      = linT (stage1 (Glue0.inp m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (tr (m ((c : Thread nD τ).loc main_arg17))) (rowOf (m ((c : Thread nD τ).loc main_arg18))) :=
  (region2_v (V25 m ρ) c).trans
    (linT_congr ((Glue2.arr0 m ρ c).trans (stage1_value m ρ c)) (Glue2.arr5 m ρ c) (Glue2.arr6 m ρ c))

set_option maxHeartbeats 4000000 in
/-- The first result is the stacked model's first result. -/
theorem result1_value (c : Dev nD) :
    (W28 m ρ c (Proc.devRef .tc main_v51_0) : Mat 4096 256)
      = result1 (Glue0.inp m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  refine (Glue3.res0 m ρ c).trans ?_
  refine (region3_out1 (V27 m ρ) c).trans ?_
  refine (out1T_congr ((Glue3.arr0 m ρ c).trans (proj2_q m ρ c)) ((Glue3.arr1 m ρ c).trans (proj2_k m ρ c))
    ((Glue3.arr2 m ρ c).trans (proj2_v m ρ c)) ((Glue3.arr3 m ρ c).trans (stage1_value m ρ c))
    (Glue3.arr4 m ρ c) (Glue3.arr5 m ρ c)).trans ?_
  exact out1_transposed _ _ _ _ _ _ _ _ _

set_option maxHeartbeats 4000000 in
/-- The second result is the stacked model's second result. -/
theorem result2_value (c : Dev nD) :
    (W28 m ρ c (Proc.devRef .tc main_v51_1) : Mat 4096 8192)
      = result2 (Glue0.inp m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  refine (Glue3.res1 m ρ c).trans ?_
  refine (region3_out2 (V27 m ρ) c).trans ?_
  refine (out2T_congr ((Glue3.arr0 m ρ c).trans (proj2_q m ρ c)) ((Glue3.arr1 m ρ c).trans (proj2_k m ρ c))
    ((Glue3.arr2 m ρ c).trans (proj2_v m ρ c)) ((Glue3.arr3 m ρ c).trans (stage1_value m ρ c))
    (Glue3.arr4 m ρ c) (Glue3.arr5 m ρ c) (Glue3.arr6 m ρ c) (Glue3.arr7 m ρ c)).trans ?_
  exact out2_transposed _ _ _ _ _ _ _ _ _ _ _

end Cert.KernelIdeal.KernelValue

end
-- ==== Proof.RefOps.lean ====
/-
  The host operations of one relation-embedding block, read as the block's mathematics.

  A block's reference program is a chain of host operations: products of matrices (one operand often transposed
  first), a bias vector laid along the rows, a maximum and a sum over each row, an exponential and a quotient taken
  entry by entry. Each lemma below says that one link of the chain — read at the extended reals, where every
  operation is exact — is one of the functions of `AttnSpec`.

  Every lemma is over matrices of arbitrary extents, so that it serves both blocks. A shape fact an operation
  carries (a transpose's, a broadcast's, a reduction's, a product's dimension record) is a hypothesis: at the literal
  extents of a program it is the fact the program states.
-/
import proofs.«178282_j721554506169_2_alg».proof.Proof.AttnSpec
import Idealize.ShloMosaic.Lib.StackMember
import Idealize.ShloMosaic.Lib.ValueLayout
import Idealize.ShloMosaic.PureOps.Ideal.Laws

noncomputable section

namespace Cert.ReferenceIdeal.RefValue

open Idealize.ShloMosaic Idealize.ShloMosaic.ValueIdx Cert.AttnSpec

variable {N M I J O : Nat}

/-! ## Layout operations at an index -/

section Layout
variable {α : Type}

/-- A vector of length `O` made a one-row matrix and then laid along each of `N` rows reads, at (n, o), its entry o. -/
theorem rowBcast_apply (b : (⟨1, ![O]⟩ : Shape).Idx → α)
    (h1 : (⟨1, ![O]⟩ : Shape).BroadcastsInDim ⟨2, ![1, O]⟩ ![1])
    (h2 : (⟨2, ![1, O]⟩ : Shape).BroadcastsInDim ⟨2, ![N, O]⟩ ![0, 1]) (n : Fin N) (o : Fin O) :
    broadcastInDim ⟨2, ![N, O]⟩ ![0, 1] h2 (broadcastInDim ⟨2, ![1, O]⟩ ![1] h1 b) (ix2 n o) = b (ix1 o) := by
  refine (broadcastInDim_apply _ h2 _ (ix2 n o) (ix2 (0 : Fin 1) o) fun a => ?_).trans
    (broadcastInDim_apply _ h1 b (ix2 (0 : Fin 1) o) (ix1 o) fun a => ?_)
  · match a with
    | ⟨0, _⟩ => rfl
    | ⟨1, _⟩ =>
      show o.val = if O = 1 then 0 else o.val
      split
      · have := o.isLt; omega
      · rfl
  · match a with
    | ⟨0, _⟩ =>
      show o.val = if O = 1 then 0 else o.val
      split
      · have := o.isLt; omega
      · rfl

/-- A vector of length `N` made a one-column matrix and then laid along each of `M` columns reads, at (n, m), its
    entry n. -/
theorem colBcast_apply (v : (⟨1, ![N]⟩ : Shape).Idx → α)
    (h1 : (⟨1, ![N]⟩ : Shape).BroadcastsInDim ⟨2, ![N, 1]⟩ ![0])
    (h2 : (⟨2, ![N, 1]⟩ : Shape).BroadcastsInDim ⟨2, ![N, M]⟩ ![0, 1]) (n : Fin N) (m : Fin M) :
    broadcastInDim ⟨2, ![N, M]⟩ ![0, 1] h2 (broadcastInDim ⟨2, ![N, 1]⟩ ![0] h1 v) (ix2 n m) = v (ix1 n) := by
  refine (broadcastInDim_apply _ h2 _ (ix2 n m) (ix2 n (0 : Fin 1)) fun a => ?_).trans
    (broadcastInDim_apply _ h1 v (ix2 n (0 : Fin 1)) (ix1 n) fun a => ?_)
  · match a with
    | ⟨0, _⟩ =>
      show n.val = if N = 1 then 0 else n.val
      split
      · have := n.isLt; omega
      · rfl
    | ⟨1, _⟩ => rfl
  · match a with
    | ⟨0, _⟩ =>
      show n.val = if N = 1 then 0 else n.val
      split
      · have := n.isLt; omega
      · rfl

/-- A scalar laid along a vector reads the scalar everywhere. -/
theorem scalarBcast_apply (c : (⟨0, ![]⟩ : Shape).Idx → α)
    (h0 : (⟨0, ![]⟩ : Shape).BroadcastsInDim ⟨1, ![N]⟩ ![]) (n : Fin N) :
    broadcastInDim ⟨1, ![N]⟩ ![] h0 c (ix1 n) = c ix0 :=
  broadcastInDim_apply _ h0 c (ix1 n) ix0 fun a => a.elim0

end Layout

end Cert.ReferenceIdeal.RefValue

namespace Cert.ReferenceIdeal.RefValue

open Idealize.ShloMosaic Idealize.ShloMosaic.ValueIdx Cert.AttnSpec

variable {N M I J O : Nat}

/-! ## A matrix product at an index -/

/-- The host's product of an N×I by an I×O matrix, read at (a, b): the sum over the contracted coordinate. -/
theorem dot_apply (D : DotDims (⟨2, ![N, I]⟩ : Shape) ⟨2, ![I, O]⟩ ⟨2, ![N, O]⟩) (hD : D = DotDims.plain N I O)
    (A : FVec Ideal ⟨2, ![N, I]⟩ .f32) (B : FVec Ideal ⟨2, ![I, O]⟩ .f32) (a : Fin N) (b : Fin O) :
    Host.dotGeneral D none A B (ix2 a b) = ∑ c : Fin I, A (ix2 a c) * B (ix2 c b) := by
  subst hD
  exact StackMember.dotGeneral_plain_apply none A B a b

/-! ## The stages of a block -/

/-- A linear layer: the product with the transposed weight, plus the bias laid along the rows. -/
theorem lin_eq (D : DotDims (⟨2, ![N, I]⟩ : Shape) ⟨2, ![I, O]⟩ ⟨2, ![N, O]⟩) (hD : D = DotDims.plain N I O)
    (ht : (⟨2, ![O, I]⟩ : Shape).Transposes [1, 0] ⟨2, ![I, O]⟩)
    (h1 : (⟨1, ![O]⟩ : Shape).BroadcastsInDim ⟨2, ![1, O]⟩ ![1])
    (h2 : (⟨2, ![1, O]⟩ : Shape).BroadcastsInDim ⟨2, ![N, O]⟩ ![0, 1])
    (x : FVec Ideal ⟨2, ![N, I]⟩ .f32) (w : FVec Ideal ⟨2, ![O, I]⟩ .f32) (b : FVec Ideal ⟨1, ![O]⟩ .f32) :
    addf (Host.dotGeneral D none x (transpose ⟨2, ![I, O]⟩ [1, 0] w ht))
        (broadcastInDim ⟨2, ![N, O]⟩ ![0, 1] h2 (broadcastInDim ⟨2, ![1, O]⟩ ![1] h1 b))
      = lin x w b := by
  funext j
  obtain ⟨n, o, rfl⟩ : ∃ (n : Fin N) (o : Fin O), j = ix2 n o := ⟨j 0, j 1, eq_ix2 j⟩
  rw [addf_apply, dot_apply D hD, rowBcast_apply]
  show _ = (∑ i : Fin I, x (ix2 n i) * w (ix2 o i)) + b (ix1 o)
  refine congrArg (· + b (ix1 o)) (Finset.sum_congr rfl fun i _ => ?_)
  rw [transpose_ix2_apply]

/-- The inner products of the rows of `q` with the rows of `k`: the product with `k` transposed. -/
theorem scores_eq (D : DotDims (⟨2, ![N, J]⟩ : Shape) ⟨2, ![J, M]⟩ ⟨2, ![N, M]⟩) (hD : D = DotDims.plain N J M)
    (ht : (⟨2, ![M, J]⟩ : Shape).Transposes [1, 0] ⟨2, ![J, M]⟩)
    (q : FVec Ideal ⟨2, ![N, J]⟩ .f32) (k : FVec Ideal ⟨2, ![M, J]⟩ .f32) :
    Host.dotGeneral D none q (transpose ⟨2, ![J, M]⟩ [1, 0] k ht) = scores q k := by
  funext j
  obtain ⟨n, m, rfl⟩ : ∃ (n : Fin N) (m : Fin M), j = ix2 n m := ⟨j 0, j 1, eq_ix2 j⟩
  rw [dot_apply D hD]
  show _ = ∑ t : Fin J, q (ix2 n t) * k (ix2 m t)
  refine Finset.sum_congr rfl fun t _ => ?_
  rw [transpose_ix2_apply]

/-- The weighted mixture of the rows of `v`: the plain product. -/
theorem mix_eq (D : DotDims (⟨2, ![N, M]⟩ : Shape) ⟨2, ![M, J]⟩ ⟨2, ![N, J]⟩) (hD : D = DotDims.plain N M J)
    (a : FVec Ideal ⟨2, ![N, M]⟩ .f32) (v : FVec Ideal ⟨2, ![M, J]⟩ .f32) :
    Host.dotGeneral D none a v = mix a v := by
  funext j
  obtain ⟨n, t, rfl⟩ : ∃ (n : Fin N) (t : Fin J), j = ix2 n t := ⟨j 0, j 1, eq_ix2 j⟩
  rw [dot_apply D hD]
  rfl

/-- The residual stage: the input plus the mixture mapped back to the input's width, plus the bias. -/
theorem resid_eq (D : DotDims (⟨2, ![N, J]⟩ : Shape) ⟨2, ![J, I]⟩ ⟨2, ![N, I]⟩) (hD : D = DotDims.plain N J I)
    (ht : (⟨2, ![I, J]⟩ : Shape).Transposes [1, 0] ⟨2, ![J, I]⟩)
    (h1 : (⟨1, ![I]⟩ : Shape).BroadcastsInDim ⟨2, ![1, I]⟩ ![1])
    (h2 : (⟨2, ![1, I]⟩ : Shape).BroadcastsInDim ⟨2, ![N, I]⟩ ![0, 1])
    (x : FVec Ideal ⟨2, ![N, I]⟩ .f32) (av : FVec Ideal ⟨2, ![N, J]⟩ .f32) (w0 : FVec Ideal ⟨2, ![I, J]⟩ .f32)
    (b0 : FVec Ideal ⟨1, ![I]⟩ .f32) :
    addf (addf x (Host.dotGeneral D none av (transpose ⟨2, ![J, I]⟩ [1, 0] w0 ht)))
        (broadcastInDim ⟨2, ![N, I]⟩ ![0, 1] h2 (broadcastInDim ⟨2, ![1, I]⟩ ![1] h1 b0))
      = resid x av w0 b0 := by
  funext j
  obtain ⟨n, i, rfl⟩ : ∃ (n : Fin N) (i : Fin I), j = ix2 n i := ⟨j 0, j 1, eq_ix2 j⟩
  rw [addf_apply, addf_apply, dot_apply D hD, rowBcast_apply]
  show _ = x (ix2 n i) + (∑ t : Fin J, av (ix2 n t) * w0 (ix2 i t)) + b0 (ix1 i)
  refine congrArg (fun z => x (ix2 n i) + z + b0 (ix1 i)) (Finset.sum_congr rfl fun t _ => ?_)
  rw [transpose_ix2_apply]

end Cert.ReferenceIdeal.RefValue

namespace Cert.ReferenceIdeal.RefValue

open Idealize.ShloMosaic Idealize.ShloMosaic.ValueIdx Cert.AttnSpec

variable {N M I J O : Nat}

/-! ## The softmax over each row -/

/-- Inserting the coordinate `m` on the dropped column axis of a row index gives the matrix index (n, m). -/
theorem lift_row (h : (⟨2, ![N, M]⟩ : Shape).Reduces [1] ⟨1, ![N]⟩) (n : Fin N) (m : Fin M) :
    h.lift (ix1 n) m = ix2 n m := by
  funext c
  apply Fin.ext
  match c with
  | ⟨0, _⟩ => rfl
  | ⟨1, _⟩ => rfl

/-- The host's row maximum — its reduction from minus infinity, then once more the larger of minus infinity and
    that — is the fold of `max` from minus infinity over the row: the seed is below every fold from it. -/
theorem rowMax_apply (h0 : (⟨0, ![]⟩ : Shape).BroadcastsInDim ⟨1, ![N]⟩ ![])
    (h' : (⟨2, ![N, M]⟩ : Shape).ReducesTo [1] ⟨1, ![N]⟩) (h : (⟨2, ![N, M]⟩ : Shape).Reduces [1] ⟨1, ![N]⟩)
    (hu : 0 < (⟨0, ![]⟩ : Shape).numel) (s : FVec Ideal ⟨2, ![N, M]⟩ .f32) (n : Fin N) :
    maximumf (broadcastInDim ⟨1, ![N]⟩ ![] h0 (constant (F := Ideal) ⟨0, ![]⟩ .f32 0xFF800000#32))
        (Host.reduce FloatOps.maximumf s (constant (F := Ideal) ⟨0, ![]⟩ .f32 0xFF800000#32) h' hu) (ix1 n)
      = rowMax s n := by
  rw [maximumf_apply, scalarBcast_apply, Host.reduce_eq_fold_single FloatOps.maximumf s _ h' h hu]
  show max negInf (Finset.fold max negInf _ _) = _
  refine (max_eq_right ((Finset.le_fold_max _).mpr (Or.inl le_rfl))).trans ?_
  unfold rowMax
  exact congrArg (fun f => Finset.fold max negInf f Finset.univ) (funext fun m => congrArg s (lift_row h n m))

/-- Each score less its row's maximum, exponentiated. -/
theorem expShift_eq (h0 : (⟨0, ![]⟩ : Shape).BroadcastsInDim ⟨1, ![N]⟩ ![])
    (h' : (⟨2, ![N, M]⟩ : Shape).ReducesTo [1] ⟨1, ![N]⟩) (h : (⟨2, ![N, M]⟩ : Shape).Reduces [1] ⟨1, ![N]⟩)
    (hu : 0 < (⟨0, ![]⟩ : Shape).numel)
    (c1 : (⟨1, ![N]⟩ : Shape).BroadcastsInDim ⟨2, ![N, 1]⟩ ![0])
    (c2 : (⟨2, ![N, 1]⟩ : Shape).BroadcastsInDim ⟨2, ![N, M]⟩ ![0, 1])
    (s : FVec Ideal ⟨2, ![N, M]⟩ .f32) :
    Host.exp (subf s (broadcastInDim ⟨2, ![N, M]⟩ ![0, 1] c2 (broadcastInDim ⟨2, ![N, 1]⟩ ![0] c1
        (maximumf (broadcastInDim ⟨1, ![N]⟩ ![] h0 (constant (F := Ideal) ⟨0, ![]⟩ .f32 0xFF800000#32))
          (Host.reduce FloatOps.maximumf s (constant (F := Ideal) ⟨0, ![]⟩ .f32 0xFF800000#32) h' hu)))))
      = expShift s := by
  funext j
  obtain ⟨n, m, rfl⟩ : ∃ (n : Fin N) (m : Fin M), j = ix2 n m := ⟨j 0, j 1, eq_ix2 j⟩
  show Ideal.exp (subf s _ (ix2 n m)) = Ideal.exp (s (ix2 n m) - rowMax s n)
  rw [subf_apply, colBcast_apply, rowMax_apply h0 h' h hu]

/-- The host's sum of a row from zero is the row's sum. -/
theorem rowSum_apply (h' : (⟨2, ![N, M]⟩ : Shape).ReducesTo [1] ⟨1, ![N]⟩) (h : (⟨2, ![N, M]⟩ : Shape).Reduces [1] ⟨1, ![N]⟩)
    (hu : 0 < (⟨0, ![]⟩ : Shape).numel) (e : FVec Ideal ⟨2, ![N, M]⟩ .f32) (n : Fin N) :
    Host.reduceAdd e (constant (F := Ideal) ⟨0, ![]⟩ .f32 0x00000000#32) h' hu (ix1 n) = rowSum e n := by
  show Ideal.hostReduceAdd h' e _ (ix1 n) = _
  rw [Ideal.hostReduceAdd_single h' h, constant_apply, Ideal.ofBits_zero_f32, zero_add]
  unfold rowSum
  refine Finset.sum_congr rfl fun m _ => ?_
  exact congrArg e (lift_row h n m)

/-- The softmax of each row: the shifted exponentials over their row sums. -/
theorem soft_eq (h' : (⟨2, ![N, M]⟩ : Shape).ReducesTo [1] ⟨1, ![N]⟩) (h : (⟨2, ![N, M]⟩ : Shape).Reduces [1] ⟨1, ![N]⟩)
    (hu : 0 < (⟨0, ![]⟩ : Shape).numel)
    (c1 : (⟨1, ![N]⟩ : Shape).BroadcastsInDim ⟨2, ![N, 1]⟩ ![0])
    (c2 : (⟨2, ![N, 1]⟩ : Shape).BroadcastsInDim ⟨2, ![N, M]⟩ ![0, 1])
    (s : FVec Ideal ⟨2, ![N, M]⟩ .f32) :
    Host.divf (expShift s : FVec Ideal ⟨2, ![N, M]⟩ .f32)
        (broadcastInDim ⟨2, ![N, M]⟩ ![0, 1] c2 (broadcastInDim ⟨2, ![N, 1]⟩ ![0] c1
          (Host.reduceAdd (expShift s : FVec Ideal ⟨2, ![N, M]⟩ .f32)
            (constant (F := Ideal) ⟨0, ![]⟩ .f32 0x00000000#32) h' hu)))
      = soft s := by
  funext j
  obtain ⟨n, m, rfl⟩ : ∃ (n : Fin N) (m : Fin M), j = ix2 n m := ⟨j 0, j 1, eq_ix2 j⟩
  show Ideal.div (expShift s (ix2 n m)) _ = Ideal.div (expShift s (ix2 n m)) (rowSum (expShift s) n)
  rw [colBcast_apply, rowSum_apply h' h hu]

end Cert.ReferenceIdeal.RefValue

end
-- ==== Proof.RefValue1.lean ====
/-
  Block 1 of the reference program, read as the model.

  The reference's run gives each result as one composed term of host operations over the arguments; the terms it
  names on the way are the first block's score matrix, its shifted exponentials and its second output. Here each
  of these is shown to be the corresponding function of `AttnSpec` of the block's input matrix — the reference's
  concatenation of an embedding lookup with the context rows, carried as the one opaque term `res_main_v7` — and of
  the block's ten weight arguments.
-/
import proofs.«178282_j721554506169_2_alg».proof.Proof.Gen.ReferenceIdeal.Run
import proofs.«178282_j721554506169_2_alg».proof.Proof.AttnModel
import proofs.«178282_j721554506169_2_alg».proof.Proof.RefOps

noncomputable section

namespace Cert.ReferenceIdeal.RefValue

open Cert.ReferenceIdeal Cert.ReferenceIdeal.Gen Cert.ReferenceIdeal.Value Idealize.ShloMosaic Idealize.ShloMosaic.TcCoe
  Idealize.SL.Sem Idealize.ShloMosaic.StableHlo Cert.AttnSpec

/-- The first block's scores: the inner products of the rows of q with the rows of k. -/
theorem v24_eq (V0 : Valuation τ sig (Elt Ideal)) :
    res_main_v24 (F := Ideal) V0
      = scores (lin (res_main_v7 V0) (V0 (Proc.devRef .tc main_arg3)) (V0 (Proc.devRef .tc main_arg4)))
          (lin (res_main_v7 V0) (V0 (Proc.devRef .tc main_arg5)) (V0 (Proc.devRef .tc main_arg6))) := by
  unfold res_main_v24
  rw [lin_eq dot_S4096x456_S456x228_S4096x228_1_0_0_1_n_n rfl, lin_eq dot_S4096x456_S456x228_S4096x228_1_0_0_1_n_n rfl,
    scores_eq dot_S4096x228_S228x4096_S4096x4096_1_0_0_1_n_n rfl]

/-- The first block's exponentials of the scores less their row maxima. -/
theorem v31_eq (V0 : Valuation τ sig (Elt Ideal)) :
    res_main_v31 (F := Ideal) V0 = expShift (res_main_v24 (F := Ideal) V0) := by
  unfold res_main_v31
  exact expShift_eq bcast_S_S4096 reducesTo_S4096x4096_S4096_d1 (by decide) h_S_ bcast_S4096_S4096x1_0
    bcast_S4096x1_S4096x4096_0_1 (res_main_v24 (F := Ideal) V0)

/-- The first block's second output, which the second block starts from. -/
theorem v47_eq (V0 : Valuation τ sig (Elt Ideal)) :
    res_main_v47 (F := Ideal) V0
      = stage1 (res_main_v7 V0) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) := by
  unfold res_main_v47
  rw [v31_eq, soft_eq reducesTo_S4096x4096_S4096_d1 (by decide) h_S_ bcast_S4096_S4096x1_0 bcast_S4096x1_S4096x4096_0_1,
    v24_eq, lin_eq dot_S4096x456_S456x228_S4096x228_1_0_0_1_n_n rfl,
    mix_eq dot_S4096x4096_S4096x228_S4096x228_1_0_0_1_n_n rfl,
    resid_eq dot_S4096x228_S228x456_S4096x456_1_0_0_1_n_n rfl,
    lin_eq dot_S4096x456_S456x256_S4096x256_1_0_0_1_n_n rfl]
  rfl

end Cert.ReferenceIdeal.RefValue

end
-- ==== Proof.RefValue2.lean ====
/-
  Block 2 of the reference program, read as the model.

  The second block starts from the first block's second output, carried here as the one term `res_main_v47`; its
  scores, its shifted exponentials and the two composed terms the run gives as the program's results are shown to
  be the functions of `AttnSpec` of that matrix and of the block's ten weight arguments.
-/
import proofs.«178282_j721554506169_2_alg».proof.Proof.Gen.ReferenceIdeal.Run
import proofs.«178282_j721554506169_2_alg».proof.Proof.AttnModel
import proofs.«178282_j721554506169_2_alg».proof.Proof.RefOps

noncomputable section

namespace Cert.ReferenceIdeal.RefValue

open Cert.ReferenceIdeal Cert.ReferenceIdeal.Gen Cert.ReferenceIdeal.Value Idealize.ShloMosaic Idealize.ShloMosaic.TcCoe
  Idealize.SL.Sem Idealize.ShloMosaic.StableHlo Cert.AttnSpec

/-- The second block's scores. -/
theorem v64_eq (V0 : Valuation τ sig (Elt Ideal)) :
    res_main_v64 (F := Ideal) V0
      = scores (lin (res_main_v47 (F := Ideal) V0) (V0 (Proc.devRef .tc main_arg13)) (V0 (Proc.devRef .tc main_arg14)))
          (lin (res_main_v47 (F := Ideal) V0) (V0 (Proc.devRef .tc main_arg15)) (V0 (Proc.devRef .tc main_arg16))) := by
  unfold res_main_v64
  rw [lin_eq dot_S4096x256_S256x128_S4096x128_1_0_0_1_n_n rfl, lin_eq dot_S4096x256_S256x128_S4096x128_1_0_0_1_n_n rfl,
    scores_eq dot_S4096x128_S128x4096_S4096x4096_1_0_0_1_n_n rfl]

/-- The second block's exponentials of the scores less their row maxima. -/
theorem v71_eq (V0 : Valuation τ sig (Elt Ideal)) :
    res_main_v71 (F := Ideal) V0 = expShift (res_main_v64 (F := Ideal) V0) := by
  unfold res_main_v71
  exact expShift_eq bcast_S_S4096 reducesTo_S4096x4096_S4096_d1 (by decide) h_S_ bcast_S4096_S4096x1_0
    bcast_S4096x1_S4096x4096_0_1 (res_main_v64 (F := Ideal) V0)

variable {F : FTy → Type} [FloatOps F] in
set_option maxRecDepth 8192 in
/-- The run's composed term for the first result, as a function of the arguments' contents. -/
def term_v82 (V0 : Valuation τ sig (Elt F)) : (Proc.devRef .tc main_v82 : DevRef τ sig).ty.Contents (Elt F) :=
  addf (addf (res_main_v47 V0) (Host.dotGeneral dot_S4096x128_S128x256_S4096x256_1_0_0_1_n_n none (Host.dotGeneral dot_S4096x4096_S4096x128_S4096x128_1_0_0_1_n_n none (Host.divf (res_main_v71 V0) (broadcastInDim S4096x4096 ![0, 1] bcast_S4096x1_S4096x4096_0_1 (broadcastInDim S4096x1 ![0] bcast_S4096_S4096x1_0 (Host.reduceAdd (res_main_v71 V0) (constant S_ .f32 0x00000000#32) reducesTo_S4096x4096_S4096_d1 h_S_)))) (addf (Host.dotGeneral dot_S4096x256_S256x128_S4096x128_1_0_0_1_n_n none (res_main_v47 V0) (transpose S256x128 [1, 0] (V0 (Proc.devRef .tc main_arg17)) transposes_S128x256_S256x128_1_0)) (broadcastInDim S4096x128 ![0, 1] bcast_S1x128_S4096x128_0_1 (broadcastInDim S1x128 ![1] bcast_S128_S1x128_1 (V0 (Proc.devRef .tc main_arg18)))))) (transpose S128x256 [1, 0] (V0 (Proc.devRef .tc main_arg19)) transposes_S256x128_S128x256_1_0))) (broadcastInDim S4096x256 ![0, 1] bcast_S1x256_S4096x256_0_1 (broadcastInDim S1x256 ![1] bcast_S256_S1x256_1 (V0 (Proc.devRef .tc main_arg20))))

variable {F : FTy → Type} [FloatOps F] in
set_option maxRecDepth 8192 in
/-- The run's composed term for the second result: a linear layer over the first result's term. -/
def term_v87 (V0 : Valuation τ sig (Elt F)) : (Proc.devRef .tc main_v87 : DevRef τ sig).ty.Contents (Elt F) :=
  addf (Host.dotGeneral dot_S4096x256_S256x8192_S4096x8192_1_0_0_1_n_n none ((term_v82 V0)) (transpose S256x8192 [1, 0] (V0 (Proc.devRef .tc main_arg21)) transposes_S8192x256_S256x8192_1_0)) (broadcastInDim S4096x8192 ![0, 1] bcast_S1x8192_S4096x8192_0_1 (broadcastInDim S1x8192 ![1] bcast_S8192_S1x8192_1 (V0 (Proc.devRef .tc main_arg22))))

/-- The run's term for the first result is the second block's first output. -/
theorem v82_eq (V0 : Valuation τ sig (Elt Ideal)) :
    term_v82 (F := Ideal) V0
      = out1 (res_main_v47 (F := Ideal) V0) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) := by
  unfold term_v82
  rw [v71_eq, soft_eq reducesTo_S4096x4096_S4096_d1 (by decide) h_S_ bcast_S4096_S4096x1_0 bcast_S4096x1_S4096x4096_0_1,
    v64_eq, lin_eq dot_S4096x256_S256x128_S4096x128_1_0_0_1_n_n rfl,
    mix_eq dot_S4096x4096_S4096x128_S4096x128_1_0_0_1_n_n rfl,
    resid_eq dot_S4096x128_S128x256_S4096x256_1_0_0_1_n_n rfl]
  rfl

/-- The run's term for the second result is the second block's second output. -/
theorem v87_eq (V0 : Valuation τ sig (Elt Ideal)) :
    term_v87 (F := Ideal) V0
      = out2 (res_main_v47 (F := Ideal) V0) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) := by
  unfold term_v87
  rw [v82_eq, lin_eq dot_S4096x256_S256x8192_S4096x8192_1_0_0_1_n_n rfl]
  rfl

end Cert.ReferenceIdeal.RefValue

end
-- ==== Proof.RefValue.lean ====
/-
  The reference program's run, read as the model.

  Every weakly fair execution of the reference ends with its two result buffers holding the stacked model's two
  results — the second block's two outputs, computed from the first block's second output — of the reference's
  input matrix and its twenty weight arguments, and with every argument unchanged.
-/
import proofs.«178282_j721554506169_2_alg».proof.Proof.RefValue1
import proofs.«178282_j721554506169_2_alg».proof.Proof.RefValue2

noncomputable section

namespace Cert.ReferenceIdeal.RefValue

open Cert.ReferenceIdeal Cert.ReferenceIdeal.Gen Cert.ReferenceIdeal.Value Idealize.ShloMosaic Idealize.ShloMosaic.TcCoe
  Idealize.SL.Sem Idealize.ShloMosaic.StableHlo Cert.AttnSpec

/-- The run's term for the first result is the model's first result. -/
theorem v82_model (V0 : Valuation τ sig (Elt Ideal)) :
    term_v82 (F := Ideal) V0 = result1 (res_main_v7 V0) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) := by
  rw [v82_eq, v47_eq]
  rfl

/-- The run's term for the second result is the model's second result. -/
theorem v87_model (V0 : Valuation τ sig (Elt Ideal)) :
    term_v87 (F := Ideal) V0 = result2 (res_main_v7 V0) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) := by
  rw [v87_eq, v47_eq]
  rfl

set_option maxRecDepth 8192 in
/-- On every device, from any memory with zero counters: every weakly fair execution of the reference terminates
    with its results the model's two results of the arguments' launch contents, and the arguments unchanged. -/
theorem run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ fun r => ∀ c : Dev nD,
      r.2.mem ((c.tc : Thread nD τ).loc main_v82)
        = result1 (res_main_v7 (launchContents m c)) (launchContents m c (Proc.devRef .tc main_arg3)) (launchContents m c (Proc.devRef .tc main_arg4)) (launchContents m c (Proc.devRef .tc main_arg5)) (launchContents m c (Proc.devRef .tc main_arg6)) (launchContents m c (Proc.devRef .tc main_arg7)) (launchContents m c (Proc.devRef .tc main_arg8)) (launchContents m c (Proc.devRef .tc main_arg9)) (launchContents m c (Proc.devRef .tc main_arg10)) (launchContents m c (Proc.devRef .tc main_arg11)) (launchContents m c (Proc.devRef .tc main_arg12)) (launchContents m c (Proc.devRef .tc main_arg13)) (launchContents m c (Proc.devRef .tc main_arg14)) (launchContents m c (Proc.devRef .tc main_arg15)) (launchContents m c (Proc.devRef .tc main_arg16)) (launchContents m c (Proc.devRef .tc main_arg17)) (launchContents m c (Proc.devRef .tc main_arg18)) (launchContents m c (Proc.devRef .tc main_arg19)) (launchContents m c (Proc.devRef .tc main_arg20))
      ∧ r.2.mem ((c.tc : Thread nD τ).loc main_v87)
        = result2 (res_main_v7 (launchContents m c)) (launchContents m c (Proc.devRef .tc main_arg3)) (launchContents m c (Proc.devRef .tc main_arg4)) (launchContents m c (Proc.devRef .tc main_arg5)) (launchContents m c (Proc.devRef .tc main_arg6)) (launchContents m c (Proc.devRef .tc main_arg7)) (launchContents m c (Proc.devRef .tc main_arg8)) (launchContents m c (Proc.devRef .tc main_arg9)) (launchContents m c (Proc.devRef .tc main_arg10)) (launchContents m c (Proc.devRef .tc main_arg11)) (launchContents m c (Proc.devRef .tc main_arg12)) (launchContents m c (Proc.devRef .tc main_arg13)) (launchContents m c (Proc.devRef .tc main_arg14)) (launchContents m c (Proc.devRef .tc main_arg15)) (launchContents m c (Proc.devRef .tc main_arg16)) (launchContents m c (Proc.devRef .tc main_arg17)) (launchContents m c (Proc.devRef .tc main_arg18)) (launchContents m c (Proc.devRef .tc main_arg19)) (launchContents m c (Proc.devRef .tc main_arg20)) (launchContents m c (Proc.devRef .tc main_arg21)) (launchContents m c (Proc.devRef .tc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c => ⟨(h c).1.trans (v82_model (launchContents m c)),
      (h c).2.1.trans (v87_model (launchContents m c)), (h c).2.2⟩)
    (Cert.ReferenceIdeal.Value.run (F := Ideal) m ρ)

end Cert.ReferenceIdeal.RefValue

end
-- ==== Proof.InpAgree.lean ====
/-
  Both programs start from the same matrix.

  The reference builds its first block's input — each object's embedding row, looked up by its class, beside its
  context row — from its first three arguments; the kernel's program builds its own from its first three arguments
  by the same host operations. From memories that agree on those three arguments the two matrices are equal.
-/
import proofs.«178282_j721554506169_2_alg».proof.Proof.Glue0
import proofs.«178282_j721554506169_2_alg».proof.Proof.Gen.ReferenceIdeal.Run

noncomputable section

namespace Cert.InpAgree

open Idealize.ShloMosaic Idealize.ShloMosaic.TcCoe Idealize.SL.Sem Idealize.ShloMosaic.StableHlo

set_option maxRecDepth 8192 in
/-- The reference's starting matrix, from a memory that agrees with the kernel program's on the three arguments it
    is built from, is the kernel program's starting matrix. -/
theorem inp_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.res_main_v7 (F := Ideal) (launchContents m' c) = Cert.KernelIdeal.Glue0.inp m c := by
  unfold Cert.ReferenceIdeal.Value.res_main_v7 Cert.KernelIdeal.Glue0.inp
  have e0 : launchContents m' c (Proc.devRef .tc Cert.ReferenceIdeal.main_arg0)
      = m' ((c.tc : Thread Cert.ReferenceIdeal.nD Cert.ReferenceIdeal.τ).loc Cert.ReferenceIdeal.main_arg0) := rfl
  have e1 : launchContents m' c (Proc.devRef .tc Cert.ReferenceIdeal.main_arg1)
      = m' ((c.tc : Thread Cert.ReferenceIdeal.nD Cert.ReferenceIdeal.τ).loc Cert.ReferenceIdeal.main_arg1) := rfl
  have e2 : launchContents m' c (Proc.devRef .tc Cert.ReferenceIdeal.main_arg2)
      = m' ((c.tc : Thread Cert.ReferenceIdeal.nD Cert.ReferenceIdeal.τ).loc Cert.ReferenceIdeal.main_arg2) := rfl
  rw [e0, e1, e2, h0, h1, h2]
  rfl

end Cert.InpAgree

end
-- ==== Proof.lean ====
/-
  The certificate of a two-block relation embedding: a Pallas kernel program of four pipelined regions (two
  projections, two attentions) against its jnp reference.

  Read at the extended reals, each block takes a matrix x of one row per object, forms the linear images
  q = x·Wqᵀ + bq, k = x·Wkᵀ + bk, v = x·Wvᵀ + bv, weighs row m against row n by the softmax over m of ⟨q n, k m⟩
  (each score less its row's maximum, exponentiated, over the row's sum), mixes the rows of v with those weights,
  and returns o1 = x + mix·W0ᵀ + b0 and o2 = o1·W1ᵀ + b1. The first block starts from each object's embedding row
  beside its context row and its o2 feeds the second block, whose o1 and o2 are the two results.

  The reference computes exactly that, one host operation after another. The kernel program computes it with every
  weight stored transposed, every bias as a one-row matrix, the first block's widths 456 and 228 extended to 512
  and 256 by zero columns and rows, the rows of x tiled over a grid, and roundings to bf16 that are the identity on
  extended reals. A transposed weight gives the same sums term by term, and a factor that is zero contributes
  0 to a sum whatever the other factor is, infinite or not; so the two programs compute one function and no
  finiteness of the inputs is used. The kernel's idealization rewrote no operation, so there is nothing to preserve.
-/
import proofs.«178282_j721554506169_2_alg».proof.Defs
import proofs.«178282_j721554506169_2_alg».proof.Proof.Gen.Kernel
import proofs.«178282_j721554506169_2_alg».proof.Proof.Gen.Kernel.Skeleton
import proofs.«178282_j721554506169_2_alg».proof.Proof.Gen.Kernel.Launch
import proofs.«178282_j721554506169_2_alg».proof.Proof.Gen.Kernel.Points
import proofs.«178282_j721554506169_2_alg».proof.Proof.Gen.Kernel.Frame
import proofs.«178282_j721554506169_2_alg».proof.Proof.Gen.KernelIdeal
import proofs.«178282_j721554506169_2_alg».proof.Proof.Gen.KernelIdeal.Skeleton
import proofs.«178282_j721554506169_2_alg».proof.Proof.Gen.KernelIdeal.Launch
import proofs.«178282_j721554506169_2_alg».proof.Proof.Gen.KernelIdeal.Points
import proofs.«178282_j721554506169_2_alg».proof.Proof.Gen.KernelIdeal.Frame
import proofs.«178282_j721554506169_2_alg».proof.Proof.Gen.ReferenceIdeal
import proofs.«178282_j721554506169_2_alg».proof.Proof.Gen.ReferenceIdeal.Run
import proofs.«178282_j721554506169_2_alg».proof.Proof.Gen.Pre_finite_inputs
import proofs.«178282_j721554506169_2_alg».proof.Proof.KernelRun
import proofs.«178282_j721554506169_2_alg».proof.Proof.KernelValue
import proofs.«178282_j721554506169_2_alg».proof.Proof.RefValue
import proofs.«178282_j721554506169_2_alg».proof.Proof.InpAgree
import proofs.«178282_j721554506169_2_alg».proof.Proof.AttnCongr
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo Cert.AttnSpec

/-- The word-level kernel program runs, and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

set_option maxHeartbeats 4000000 in
/-- From memories that agree on the arguments both programs end with the two results of the stacked model of those
    arguments: the kernel program by reading its run backwards through its four regions, the reference by reading
    its operations forwards; the starting matrix is the same because the same host operations build it from
    arguments that agree. -/
theorem algebraic : Cert.algebraic_KernelIdeal_ReferenceIdeal := by
  intro m ρ m' ρ' _ hagree
  refine ⟨fun c => result1 (Cert.KernelIdeal.Glue0.inp m c) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)),
    fun c => result2 (Cert.KernelIdeal.Glue0.inp m c) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)), ?_, ?_⟩
  · exact (θ_run Cert.KernelIdeal.defs _ _).mono
      (fun r h c => ⟨(h c).1.trans (Cert.KernelIdeal.KernelValue.result1_value m ρ c),
        (h c).2.1.trans (Cert.KernelIdeal.KernelValue.result2_value m ρ c), (h c).2.2⟩)
      (Cert.KernelIdeal.RunValue.run_results m ρ)
  · refine (θ_run Cert.ReferenceIdeal.defs _ _).mono (fun r h c => ?_) (Cert.ReferenceIdeal.RefValue.run m' ρ')
    obtain ⟨h0, h1, h2, h3, h4, h5, h6, h7, h8, h9, h10, h11, h12, h13, h14, h15, h16, h17, h18, h19, h20, h21, h22⟩ := hagree c
    exact ⟨(h c).1.trans (result1_congr (Cert.InpAgree.inp_agree m m' c h0 h1 h2) h3 h4 h5 h6 h7 h8 h9 h10 h11 h12 h13 h14 h15 h16 h17 h18 h19 h20),
      (h c).2.1.trans (result2_congr (Cert.InpAgree.inp_agree m m' c h0 h1 h2) h3 h4 h5 h6 h7 h8 h9 h10 h11 h12 h13 h14 h15 h16 h17 h18 h19 h20 h21 h22),
      (h c).2.2⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
